-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v13_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x5 : Shape := ⟨2, ![1024, 5]⟩
abbrev S10x128 : Shape := ⟨2, ![10, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1024x5 : S_.BroadcastsInDim S1024x5 (![] : Fin 0 → Fin S1024x5.rank)
  reducesTo_S1024x5_S_d0_1 : S1024x5.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S128x64 .f32) (main_arg12 : FVec F S64 .f32) (main_arg13 : FVec F S64x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg13
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg14 main_v63 main_v67

def fn_part2 {F : FTy → Type} [FloatOps F] (main_arg7 : FVec F S64x1 .f32) (main_arg8 : FVec F S1 .f32) (main_arg9 : FVec F S10x128 .f32) (main_arg10 : FVec F S128 .f32) (main_arg11 : FVec F S128x64 .f32) (main_arg12 : FVec F S64 .f32) (main_arg13 : FVec F S64x1 .f32) (main_arg14 : FVec F S1 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S10x128 .f32 := Host.absf main_arg9
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128x64 .f32) (main_arg6 : FVec F S64 .f32) (main_arg7 : FVec F S64x1 .f32) (main_arg8 : FVec F S1 .f32) (main_arg9 : FVec F S10x128 .f32) (main_arg10 : FVec F S128 .f32) (main_arg11 : FVec F S128x64 .f32) (main_arg12 : FVec F S64 .f32) (main_arg13 : FVec F S64x1 .f32) (main_arg14 : FVec F S1 .f32) (main_v13 : IVec S_ 1) (main_v16 : IVec S10x128 1) : IVec S_ 1 :=
  let main_c_5 : IVec S_ 1 := constantI S_ 1 1#1
  let main_v17 : IVec S_ 1 := (fun x v => Host.reduce IntOp.andi x v reducesTo_S10x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1024x5 .f32) (main_arg1 : FVec F S1024x5 .f32) (main_arg2 : FVec F S1024x5 .f32) (main_arg3 : FVec F S10x128 .f32) (main_arg4 : FVec F S128 .f32) (main_arg5 : FVec F S128x64 .f32) (main_arg6 : FVec F S64 .f32) (main_arg7 : FVec F S64x1 .f32) (main_arg8 : FVec F S1 .f32) (main_arg9 : FVec F S10x128 .f32) (main_arg10 : FVec F S128 .f32) (main_arg11 : FVec F S128x64 .f32) (main_arg12 : FVec F S64 .f32) (main_arg13 : FVec F S64x1 .f32) (main_arg14 : FVec F S1 .f32) : IVec S_ 1 :=
  let main_v0 : FVec F S1024x5 .f32 := Host.absf main_arg0
  let main_cst : FVec F S_ .f32 := constant S_ .f32 0x7F800000#32
  let main_v1 : FVec F S1024x5 .f32 := broadcastInDim S1024x5 ![] bcast_S_S1024x5 main_cst
  let main_v2 : IVec S1024x5 1 := cmpf .olt main_v0 main_v1
  let main_c : IVec S_ 1 := constantI S_ 1 1#1
  let main_v3 : IVec S_ 1 := (fun x v => Host.reduce IntOp.andi x v reducesTo_S1024x5_S_d0_1 h_S_) main_v2 main_c
  let main_v4 : FVec F S1024x5 .f32 := Host.absf main_arg1
  let main_cst_0 : FVec F S_ .f32 := constant S_ .f32 0x7F800000#32
  let main_v5 : FVec F S1024x5 .f32 := broadcastInDim S1024x5 ![] bcast_S_S1024x5 main_cst_0
  let main_v6 : IVec S1024x5 1 := cmpf .olt main_v4 main_v5
  let main_c_1 : IVec S_ 1 := constantI S_ 1 1#1
  let main_v7 : IVec S_ 1 := (fun x v => Host.reduce IntOp.andi x v reducesTo_S1024x5_S_d0_1 h_S_) main_v6 main_c_1
  let main_v8 : IVec S_ 1 := andi main_v3 main_v7
  let main_v9 : FVec F S1024x5 .f32 := Host.absf main_arg2
  let main_cst_2 : FVec F S_ .f32 := constant S_ .f32 0x7F800000#32
  let main_v10 : FVec F S1024x5 .f32 := broadcastInDim S1024x5 ![] bcast_S_S1024x5 main_cst_2
  let main_v11 : IVec S1024x5 1 := cmpf .olt main_v9 main_v10
  let main_c_3 : IVec S_ 1 := constantI S_ 1 1#1
  let main_v12 : IVec S_ 1 := (fun x v => Host.reduce IntOp.andi x v reducesTo_S1024x5_S_d0_1 h_S_) main_v11 main_c_3
  let main_v13 : IVec S_ 1 := andi main_v8 main_v12
  let main_v14 : FVec F S10x128 .f32 := Host.absf main_arg3
  let main_cst_4 : FVec F S_ .f32 := constant S_ .f32 0x7F800000#32
  let main_v15 : FVec F S10x128 .f32 := broadcastInDim S10x128 ![] bcast_S_S10x128 main_cst_4
  let main_v16 : IVec S10x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1024x5 : Shape := ⟨2, ![1024, 5]⟩
abbrev S10x128 : Shape := ⟨2, ![10, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S5x128 : Shape := ⟨2, ![5, 128]⟩
abbrev S1x128 : Shape := ⟨2, ![1, 128]⟩
abbrev S1x64 : Shape := ⟨2, ![1, 64]⟩
abbrev S1x1 : Shape := ⟨2, ![1, 1]⟩
abbrev S1024x1024 : Shape := ⟨2, ![1024, 1024]⟩
abbrev S128x5 : Shape := ⟨2, ![128, 5]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S16384x128 : Shape := ⟨2, ![16384, 128]⟩
abbrev S16384x64 : Shape := ⟨2, ![16384, 64]⟩
abbrev S16384 : Shape := ⟨1, ![16384]⟩
abbrev S16384x1 : Shape := ⟨2, ![16384, 1]⟩
abbrev S256x1024 : Shape := ⟨2, ![256, 1024]⟩
abbrev S1024x256 : Shape := ⟨2, ![1024, 256]⟩
abbrev S256x256 : Shape := ⟨2, ![256, 256]⟩
abbrev S1048576x1 : Shape := ⟨2, ![1048576, 1]⟩

abbrev nBuf : Space → Nat
  | .hbm => 33
  | .vmem => 36
  | .smem => 0
  | _ => 0

abbrev bufTy : (tb : Table) → Fin (tcTables nBuf tb) → BufTy
  | .hbm, ⟨0, _⟩ => ⟨S1024x5, .f32⟩
  | .hbm, ⟨1, _⟩ => ⟨S1024x5, .f32⟩
  | .hbm, ⟨2, _⟩ => ⟨S1024x5, .f32⟩
  | .hbm, ⟨3, _⟩ => ⟨S10x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S10x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S5x128, .f32⟩
  | .hbm, ⟨16, _⟩ => ⟨S5x128, .f32⟩
  | .hbm, ⟨17, _⟩ => ⟨S1x128, .f32⟩
  | .hbm, ⟨18, _⟩ => ⟨S1x64, .f32⟩
  | .hbm, ⟨19, _⟩ => ⟨S1x64, .f32⟩
  | .hbm, ⟨20, _⟩ => ⟨S1x1, .f32⟩
  | .hbm, ⟨21, _⟩ => ⟨S1024x1024, .f32⟩
  | .hbm, ⟨22, _⟩ => ⟨S1024x1024, .bf16⟩
  | .hbm, ⟨23, _⟩ => ⟨S5x128, .f32⟩
  | .hbm, ⟨24, _⟩ => ⟨S5x128, .f32⟩
  | .hbm, ⟨25, _⟩ => ⟨S1x128, .f32⟩
  | .hbm, ⟨26, _⟩ => ⟨S1x64, .f32⟩
  | .hbm, ⟨27, _⟩ => ⟨S1x64, .f32⟩
  | .hbm, ⟨28, _⟩ => ⟨S1x1, .f32⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1048576x1, .f32⟩
  | .local _ .vmem, ⟨0, _⟩ => ⟨S128x5, .f32⟩
  | .local _ .vmem, ⟨1, _⟩ => ⟨S128x5, .f32⟩
  | .local _ .vmem, ⟨2, _⟩ => ⟨S128x5, .f32⟩
  | .local _ .vmem, ⟨3, _⟩ => ⟨S128x5, .f32⟩
  | .local _ .vmem, ⟨4, _⟩ => ⟨S5x128, .f32⟩
  | .local _ .vmem, ⟨5, _⟩ => ⟨S5x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S1x64, .f32⟩
  | .local _ .vmem, ⟨10, _⟩ => ⟨S1x1, .f32⟩
  | .local _ .vmem, ⟨11, _⟩ => ⟨S128x128, .f32⟩
  | .local _ .vmem, ⟨12, _⟩ => ⟨S128x128, .f32⟩
  | .local _ .vmem, ⟨13, _⟩ => ⟨S128x128, .bf16⟩
  | .local _ .vmem, ⟨14, _⟩ => ⟨S128x128, .bf16⟩
  | .local _ .vmem, ⟨15, _⟩ => ⟨S128x5, .f32⟩
  | .local _ .vmem, ⟨16, _⟩ => ⟨S128x5, .f32⟩
  | .local _ .vmem, ⟨17, _⟩ => ⟨S128x5, .f32⟩
  | .local _ .vmem, ⟨18, _⟩ => ⟨S128x5, .f32⟩
  | .local _ .vmem, ⟨19, _⟩ => ⟨S5x128, .f32⟩
  | .local _ .vmem, ⟨20, _⟩ => ⟨S5x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S1x64, .f32⟩
  | .local _ .vmem, ⟨25, _⟩ => ⟨S1x1, .f32⟩
  | .local _ .vmem, ⟨26, _⟩ => ⟨S128x128, .f32⟩
  | .local _ .vmem, ⟨27, _⟩ => ⟨S128x128, .f32⟩
  | .local _ .vmem, ⟨28, _⟩ => ⟨S128x128, .bf16⟩
  | .local _ .vmem, ⟨29, _⟩ => ⟨S128x128, .bf16⟩
  | .local _ .vmem, ⟨30, _⟩ => ⟨S256x1024, .bf16⟩
  | .local _ .vmem, ⟨31, _⟩ => ⟨S256x1024, .bf16⟩
  | .local _ .vmem, ⟨32, _⟩ => ⟨S1024x256, .bf16⟩
  | .local _ .vmem, ⟨33, _⟩ => ⟨S1024x256, .bf16⟩
  | .local _ .vmem, ⟨34, _⟩ => ⟨S256x256, .f32⟩
  | .local _ .vmem, ⟨35, _⟩ => ⟨S256x256, .f32⟩
  | _, _ => ⟨S1024x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S5x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S5x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S128x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S10x128_S5x128_0_0 : S10x128.Slices ![0, 0] S5x128
  slices_S10x128_S5x128_5_0 : S10x128.Slices ![5, 0] S5x128
  shapeCasts_S128_S1x128 : S128.ShapeCasts S1x128
  shapeCasts_S64_S1x64 : S64.ShapeCasts S1x64
  shapeCasts_S64x1_S1x64 : S64x1.ShapeCasts S1x64
  shapeCasts_S1_S1x1 : S1.ShapeCasts S1x1
  inb_S128x5_S128x5_0_0 : ∀ a, (![0, 0] : Fin 2 → Nat) a + S128x5.size a ≤ S128x5.size a
  h_S128x5 : 0 < S128x5.numel
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128x128x128_S16384x128 : S128x128x128.ShapeCasts S16384x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  reduces_S16384x64_S16384 : S16384x64.Reduces [1] S16384
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16384x1 : S1x1.Broadcasts S16384x1
  shapeCasts_S16384x1_S128x128 : S16384x1.ShapeCasts S128x128
  inb_S128x128_S128x128_0_0 : ∀ a, (![0, 0] : Fin 2 → Nat) a + S128x128.size a ≤ S128x128.size a
  h_S128x128 : 0 < S128x128.numel
  packedbf16_S128x128_S128x128_0_0 : (Rect.unit (s := S128x128) ![0, 0] S128x128.size inb_S128x128_S128x128_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S1024x1024_S1048576x1 : S1024x1024.ShapeCasts S1048576x1
  dot_S128x5_S5x128_S128x128_1_0_0_1_n_n_wf : DotDims.WF S128x5 S5x128 S128x128 [1] [0] [0] [1] [] []
  dot_S16384x128_S128x64_S16384x64_1_0_0_1_n_n_wf : DotDims.WF S16384x128 S128x64 S16384x64 [1] [0] [0] [1] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x5.size a ≤ S1024x5.size a
  hwx0_0 : ∀ i : grid0.Coords, EltTy.bits .f32 = 32 ∨ (Rect.block (s := S1024x5) S128x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x5.size a ≤ S1024x5.size a
  hwx0_1 : ∀ i : grid0.Coords, EltTy.bits .f32 = 32 ∨ (Rect.block (s := S1024x5) S128x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x128.size a ≤ S5x128.size a
  hwx0_2 : ∀ i : grid0.Coords, EltTy.bits .f32 = 32 ∨ (Rect.block (s := S5x128) S5x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128.size a ≤ S5x128.size a
  hwx0_3 : ∀ i : grid0.Coords, EltTy.bits .f32 = 32 ∨ (Rect.block (s := S5x128) S5x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S1024x1024.size a
  hwx0_9 : ∀ i : grid0.Coords, EltTy.bits .f32 = 32 ∨ (Rect.block (s := S1024x1024) S128x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S1024x1024.size a
  hwx0_10 : ∀ i : grid0.Coords, EltTy.bits .bf16 = 32 ∨ (Rect.block (s := S1024x1024) S128x128.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x5.size a ≤ S1024x5.size a
  hwx1_0 : ∀ i : grid1.Coords, EltTy.bits .f32 = 32 ∨ (Rect.block (s := S1024x5) S128x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x5.size a ≤ S1024x5.size a
  hwx1_1 : ∀ i : grid1.Coords, EltTy.bits .f32 = 32 ∨ (Rect.block (s := S1024x5) S128x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x128.size a ≤ S5x128.size a
  hwx1_2 : ∀ i : grid1.Coords, EltTy.bits .f32 = 32 ∨ (Rect.block (s := S5x128) S5x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x128.size a ≤ S5x128.size a
  hwx1_3 : ∀ i : grid1.Coords, EltTy.bits .f32 = 32 ∨ (Rect.block (s := S5x128) S5x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S1024x1024.size a
  hwx1_9 : ∀ i : grid1.Coords, EltTy.bits .f32 = 32 ∨ (Rect.block (s := S1024x1024) S128x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S1024x1024.size a
  hwx1_10 : ∀ i : grid1.Coords, EltTy.bits .bf16 = 32 ∨ (Rect.block (s := S1024x1024) S128x128.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S1024x1024.size a
  hwx2_0 : ∀ i : grid2.Coords, EltTy.bits .bf16 = 32 ∨ (Rect.block (s := S1024x1024) S256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x1024.size a
  hwx2_1 : ∀ i : grid2.Coords, EltTy.bits .bf16 = 32 ∨ (Rect.block (s := S1024x1024) S1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S1024x1024.size a
  hwx2_2 : ∀ i : grid2.Coords, EltTy.bits .f32 = 32 ∨ (Rect.block (s := S1024x1024) S256x256.size (cc2_transform_2 i) (hinb2_2 i)).WholeWords (EltTy.packing .f32)

variable [Facts₀]

def dot_S128x5_S5x128_S128x128_1_0_0_1_n_n : DotDims S128x5 S5x128 S128x128 where
  lhsContracting := [1]
  rhsContracting := [0]
  lhsNonContracting := [0]
  rhsNonContracting := [1]
  lhsBatch := []
  rhsBatch := []
  wf := dot_S128x5_S5x128_S128x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S128x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S128x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S128x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg1) S128x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S5x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13_0) S128x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v13_1) S128x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v6_1) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13_1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S256x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1024x5 : Shape := ⟨2, ![1024, 5]⟩
abbrev S10x128 : Shape := ⟨2, ![10, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S5x128 : Shape := ⟨2, ![5, 128]⟩
abbrev S1024x128 : Shape := ⟨2, ![1024, 128]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1x1x128 : Shape := ⟨3, ![1, 1, 128]⟩
abbrev S_ : Shape := ⟨0, ![]⟩
abbrev S1024x1024x64 : Shape := ⟨3, ![1024, 1024, 64]⟩
abbrev S1x1x64 : Shape := ⟨3, ![1, 1, 64]⟩
abbrev S1024x1024x1 : Shape := ⟨3, ![1024, 1024, 1]⟩
abbrev S1x1x1 : Shape := ⟨3, ![1, 1, 1]⟩
abbrev S1024x1024 : Shape := ⟨2, ![1024, 1024]⟩
abbrev S1048576x1 : Shape := ⟨2, ![1048576, 1]⟩

abbrev nBuf : Space → Nat
  | .hbm => 109
  | .vmem => 0
  | .smem => 0
  | _ => 0

abbrev bufTy : (tb : Table) → Fin (tcTables nBuf tb) → BufTy
  | .hbm, ⟨0, _⟩ => ⟨S1024x5, .f32⟩
  | .hbm, ⟨1, _⟩ => ⟨S1024x5, .f32⟩
  | .hbm, ⟨2, _⟩ => ⟨S1024x5, .f32⟩
  | .hbm, ⟨3, _⟩ => ⟨S10x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S10x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S5x128, .f32⟩
  | .hbm, ⟨16, _⟩ => ⟨S1024x128, .f32⟩
  | .hbm, ⟨17, _⟩ => ⟨S5x128, .f32⟩
  | .hbm, ⟨18, _⟩ => ⟨S1024x128, .f32⟩
  | .hbm, ⟨19, _⟩ => ⟨S1024x1x128, .f32⟩
  | .hbm, ⟨20, _⟩ => ⟨S1x1024x128, .f32⟩
  | .hbm, ⟨21, _⟩ => ⟨S1024x1024x128, .f32⟩
  | .hbm, ⟨22, _⟩ => ⟨S1024x1024x128, .f32⟩
  | .hbm, ⟨23, _⟩ => ⟨S1024x1024x128, .f32⟩
  | .hbm, ⟨24, _⟩ => ⟨S1x1x128, .f32⟩
  | .hbm, ⟨25, _⟩ => ⟨S1024x1024x128, .f32⟩
  | .hbm, ⟨26, _⟩ => ⟨S1024x1024x128, .f32⟩
  | .hbm, ⟨27, _⟩ => ⟨S_, .f32⟩
  | .hbm, ⟨28, _⟩ => ⟨S1024x1024x128, .f32⟩
  | .hbm, ⟨29, _⟩ => ⟨S1024x1024x128, .f32⟩
  | .hbm, ⟨30, _⟩ => ⟨S1024x1024x64, .f32⟩
  | .hbm, ⟨31, _⟩ => ⟨S1x1x64, .f32⟩
  | .hbm, ⟨32, _⟩ => ⟨S1024x1024x64, .f32⟩
  | .hbm, ⟨33, _⟩ => ⟨S1024x1024x64, .f32⟩
  | .hbm, ⟨34, _⟩ => ⟨S_, .f32⟩
  | .hbm, ⟨35, _⟩ => ⟨S1024x1024x64, .f32⟩
  | .hbm, ⟨36, _⟩ => ⟨S1024x1024x64, .f32⟩
  | .hbm, ⟨37, _⟩ => ⟨S1024x1024x1, .f32⟩
  | .hbm, ⟨38, _⟩ => ⟨S1x1x1, .f32⟩
  | .hbm, ⟨39, _⟩ => ⟨S1024x1024x1, .f32⟩
  | .hbm, ⟨40, _⟩ => ⟨S1024x1024x1, .f32⟩
  | .hbm, ⟨41, _⟩ => ⟨S_, .f32⟩
  | .hbm, ⟨42, _⟩ => ⟨S1024x1024x1, .f32⟩
  | .hbm, ⟨43, _⟩ => ⟨S1024x1024x1, .i1⟩
  | .hbm, ⟨44, _⟩ => ⟨S_, .f32⟩
  | .hbm, ⟨45, _⟩ => ⟨S1024x1024x1, .f32⟩
  | .hbm, ⟨46, _⟩ => ⟨S1024x1024x1, .i1⟩
  | .hbm, ⟨47, _⟩ => ⟨S_, .f32⟩
  | .hbm, ⟨48, _⟩ => ⟨S_, .f32⟩
  | .hbm, ⟨49, _⟩ => ⟨S1024x1024x1, .f32⟩
  | .hbm, ⟨50, _⟩ => ⟨S1024x1024x1, .f32⟩
  | .hbm, ⟨51, _⟩ => ⟨S1024x1024x1, .f32⟩
  | .hbm, ⟨52, _⟩ => ⟨S_, .f32⟩
  | .hbm, ⟨53, _⟩ => ⟨S1024x1024x1, .f32⟩
  | .hbm, ⟨54, _⟩ => ⟨S1024x1024x1, .f32⟩
  | .hbm, ⟨55, _⟩ => ⟨S1024x1024x1, .f32⟩
  | .hbm, ⟨56, _⟩ => ⟨S1024x1024, .f32⟩
  | .hbm, ⟨57, _⟩ => ⟨S5x128, .f32⟩
  | .hbm, ⟨58, _⟩ => ⟨S1024x128, .f32⟩
  | .hbm, ⟨59, _⟩ => ⟨S5x128, .f32⟩
  | .hbm, ⟨60, _⟩ => ⟨S1024x128, .f32⟩
  | .hbm, ⟨61, _⟩ => ⟨S1024x1x128, .f32⟩
  | .hbm, ⟨62, _⟩ => ⟨S1x1024x128, .f32⟩
  | .hbm, ⟨63, _⟩ => ⟨S1024x1024x128, .f32⟩
  | .hbm, ⟨64, _⟩ => ⟨S1024x1024x128, .f32⟩
  | .hbm, ⟨65, _⟩ => ⟨S1024x1024x128, .f32⟩
  | .hbm, ⟨66, _⟩ => ⟨S1x1x128, .f32⟩
  | .hbm, ⟨67, _⟩ => ⟨S1024x1024x128, .f32⟩
  | .hbm, ⟨68, _⟩ => ⟨S1024x1024x128, .f32⟩
  | .hbm, ⟨69, _⟩ => ⟨S_, .f32⟩
  | .hbm, ⟨70, _⟩ => ⟨S1024x1024x128, .f32⟩
  | .hbm, ⟨71, _⟩ => ⟨S1024x1024x128, .f32⟩
  | .hbm, ⟨72, _⟩ => ⟨S1024x1024x64, .f32⟩
  | .hbm, ⟨73, _⟩ => ⟨S1x1x64, .f32⟩
  | .hbm, ⟨74, _⟩ => ⟨S1024x1024x64, .f32⟩
  | .hbm, ⟨75, _⟩ => ⟨S1024x1024x64, .f32⟩
  | .hbm, ⟨76, _⟩ => ⟨S_, .f32⟩
  | .hbm, ⟨77, _⟩ => ⟨S1024x1024x64, .f32⟩
  | .hbm, ⟨78, _⟩ => ⟨S1024x1024x64, .f32⟩
  | .hbm, ⟨79, _⟩ => ⟨S1024x1024x1, .f32⟩
  | .hbm, ⟨80, _⟩ => ⟨S1x1x1, .f32⟩
  | .hbm, ⟨81, _⟩ => ⟨S1024x1024x1, .f32⟩
  | .hbm, ⟨82, _⟩ => ⟨S1024x1024x1, .f32⟩
  | .hbm, ⟨83, _⟩ => ⟨S_, .f32⟩
  | .hbm, ⟨84, _⟩ => ⟨S1024x1024x1, .f32⟩
  | .hbm, ⟨85, _⟩ => ⟨S1024x1024x1, .i1⟩
  | .hbm, ⟨86, _⟩ => ⟨S_, .f32⟩
  | .hbm, ⟨87, _⟩ => ⟨S1024x1024x1, .f32⟩
  | .hbm, ⟨88, _⟩ => ⟨S1024x1024x1, .i1⟩
  | .hbm, ⟨89, _⟩ => ⟨S_, .f32⟩
  | .hbm, ⟨90, _⟩ => ⟨S_, .f32⟩
  | .hbm, ⟨91, _⟩ => ⟨S1024x1024x1, .f32⟩
  | .hbm, ⟨92, _⟩ => ⟨S1024x1024x1, .f32⟩
  | .hbm, ⟨93, _⟩ => ⟨S1024x1024x1, .f32⟩
  | .hbm, ⟨94, _⟩ => ⟨S_, .f32⟩
  | .hbm, ⟨95, _⟩ => ⟨S1024x1024x1, .f32⟩
  | .hbm, ⟨96, _⟩ => ⟨S1024x1024x1, .f32⟩
  | .hbm, ⟨97, _⟩ => ⟨S1024x1024x1, .f32⟩
  | .hbm, ⟨98, _⟩ => ⟨S1024x1024, .f32⟩
  | .hbm, ⟨99, _⟩ => ⟨S1024x1024, .f32⟩
  | .hbm, ⟨100, _⟩ => ⟨S1048576x1, .f32⟩
  | .hbm, ⟨101, _⟩ => ⟨S1048576x1, .f32⟩
  | .hbm, ⟨102, _⟩ => ⟨S1048576x1, .f32⟩
  | .hbm, ⟨103, _⟩ => ⟨S_, .f32⟩
  | .hbm, ⟨104, _⟩ => ⟨S1048576x1, .f32⟩
  | .hbm, ⟨105, _⟩ => ⟨S1048576x1, .f32⟩
  | .hbm, ⟨106, _⟩ => ⟨S_, .f32⟩
  | .hbm, ⟨107, _⟩ => ⟨S1048576x1, .f32⟩
  | .hbm, ⟨108, _⟩ => ⟨S1048576x1, .f32⟩
  | _, _ => ⟨S1024x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call0_cst : Ref sig .tc := ⟨.hbm, 27, rfl⟩
abbrev main_call0_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call1_cst : Ref sig .tc := ⟨.hbm, 34, rfl⟩
abbrev main_call1_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_cst_0 : Ref sig .tc := ⟨.hbm, 44, rfl⟩
abbrev main_call2_v2 : Ref sig .tc := ⟨.hbm, 45, rfl⟩
abbrev main_call2_v3 : Ref sig .tc := ⟨.hbm, 46, rfl⟩
abbrev main_call2_cst_1 : Ref sig .tc := ⟨.hbm, 47, rfl⟩
abbrev main_call2_call0_v0 : Ref sig .tc := ⟨.hbm, 48, rfl⟩
abbrev main_call2_call0_v1 : Ref sig .tc := ⟨.hbm, 49, rfl⟩
abbrev main_call2_v4 : Ref sig .tc := ⟨.hbm, 50, rfl⟩
abbrev main_call2_v5 : Ref sig .tc := ⟨.hbm, 51, rfl⟩
abbrev main_call2_cst_2 : Ref sig .tc := ⟨.hbm, 52, rfl⟩
abbrev main_call2_v6 : Ref sig .tc := ⟨.hbm, 53, rfl⟩
abbrev main_call2_v7 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_call3_cst : Ref sig .tc := ⟨.hbm, 69, rfl⟩
abbrev main_call3_v0 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_call4_cst : Ref sig .tc := ⟨.hbm, 76, rfl⟩
abbrev main_call4_v0 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_call5_cst : Ref sig .tc := ⟨.hbm, 83, rfl⟩
abbrev main_call5_v0 : Ref sig .tc := ⟨.hbm, 84, rfl⟩
abbrev main_call5_v1 : Ref sig .tc := ⟨.hbm, 85, rfl⟩
abbrev main_call5_cst_0 : Ref sig .tc := ⟨.hbm, 86, rfl⟩
abbrev main_call5_v2 : Ref sig .tc := ⟨.hbm, 87, rfl⟩
abbrev main_call5_v3 : Ref sig .tc := ⟨.hbm, 88, rfl⟩
abbrev main_call5_cst_1 : Ref sig .tc := ⟨.hbm, 89, rfl⟩
abbrev main_call5_call0_v0 : Ref sig .tc := ⟨.hbm, 90, rfl⟩
abbrev main_call5_call0_v1 : Ref sig .tc := ⟨.hbm, 91, rfl⟩
abbrev main_call5_v4 : Ref sig .tc := ⟨.hbm, 92, rfl⟩
abbrev main_call5_v5 : Ref sig .tc := ⟨.hbm, 93, rfl⟩
abbrev main_call5_cst_2 : Ref sig .tc := ⟨.hbm, 94, rfl⟩
abbrev main_call5_v6 : Ref sig .tc := ⟨.hbm, 95, rfl⟩
abbrev main_call5_v7 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst : Ref sig .tc := ⟨.hbm, 103, rfl⟩
abbrev main_v52 : Ref sig .tc := ⟨.hbm, 104, rfl⟩
abbrev main_v53 : Ref sig .tc := ⟨.hbm, 105, rfl⟩
abbrev main_cst_0 : Ref sig .tc := ⟨.hbm, 106, rfl⟩
abbrev main_v54 : Ref sig .tc := ⟨.hbm, 107, rfl⟩
abbrev main_v55 : Ref sig .tc := ⟨.hbm, 108, rfl⟩

abbrev nD : Nat := 1
abbrev τ : Topo := Topo.v7x

variable {F : FTy → Type} [FloatOps F]

class Facts₀ : Prop where
  slices_S10x128_S5x128_0_0 : S10x128.Slices ![0, 0] S5x128
  slices_S10x128_S5x128_5_0 : S10x128.Slices ![5, 0] S5x128
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  bcast_S128_S1x1x128_2 : S128.BroadcastsInDim S1x1x128 (![2] : Fin 1 → Fin S1x1x128.rank)
  bcast_S1x1x128_S1024x1024x128_0_1_2 : S1x1x128.BroadcastsInDim S1024x1024x128 (![0, 1, 2] : Fin 3 → Fin S1024x1024x128.rank)
  bcast_S_S1024x1024x128 : S_.BroadcastsInDim S1024x1024x128 (![] : Fin 0 → Fin S1024x1024x128.rank)
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  bcast_S1_S1x1x1_2 : S1.BroadcastsInDim S1x1x1 (![2] : Fin 1 → Fin S1x1x1.rank)
  bcast_S1x1x1_S1024x1024x1_0_1_2 : S1x1x1.BroadcastsInDim S1024x1024x1 (![0, 1, 2] : Fin 3 → Fin S1024x1024x1.rank)
  bcast_S_S1024x1024x1 : S_.BroadcastsInDim S1024x1024x1 (![] : Fin 0 → Fin S1024x1024x1.rank)
  shapeCasts_S1024x1024x1_S1024x1024 : S1024x1024x1.ShapeCasts S1024x1024
  shapeCasts_S1024x1024_S1048576x1 : S1024x1024.ShapeCasts S1048576x1
  bcast_S_S1048576x1 : S_.BroadcastsInDim S1048576x1 (![] : Fin 0 → Fin S1048576x1.rank)
  dot_S1024x5_S5x128_S1024x128_1_0_0_1_n_n_wf : DotDims.WF S1024x5 S5x128 S1024x128 [1] [0] [0] [1] [] []
  dot_S1024x1024x128_S128x64_S1024x1024x64_2_0_01_1_n_n_wf : DotDims.WF S1024x1024x128 S128x64 S1024x1024x64 [2] [0] [0, 1] [1] [] []
  dot_S1024x1024x64_S64x1_S1024x1024x1_2_0_01_1_n_n_wf : DotDims.WF S1024x1024x64 S64x1 S1024x1024x1 [2] [0] [0, 1] [1] [] []
  dot_S1024x1024_S1024x1024_S1024x1024_1_0_0_1_n_n_wf : DotDims.WF S1024x1024 S1024x1024 S1024x1024 [1] [0] [0] [1] [] []

variable [Facts₀]

def dot_S1024x5_S5x128_S1024x128_1_0_0_1_n_n : DotDims S1024x5 S5x128 S1024x128 where
  lhsContracting := [1]
  rhsContracting := [0]
  lhsNonContracting := [0]
  rhsNonContracting := [1]
  lhsBatch := []
  rhsBatch := []
  wf := dot_S1024x5_S5x128_S1024x128_1_0_0_1_n_n_wf
def dot_S1024x1024x128_S128x64_S1024x1024x64_2_0_01_1_n_n : DotDims S1024x1024x128 S128x64 S1024x1024x64 where
  lhsContracting := [2]
  rhsContracting := [0]
  lhsNonContracting := [0, 1]
  rhsNonContracting := [1]
  lhsBatch := []
  rhsBatch := []
  wf := dot_S1024x1024x128_S128x64_S1024x1024x64_2_0_01_1_n_n_wf
def dot_S1024x1024x64_S64x1_S1024x1024x1_2_0_01_1_n_n : DotDims S1024x1024x64 S64x1 S1024x1024x1 where
  lhsContracting := [2]
  rhsContracting := [0]
  lhsNonContracting := [0, 1]
  rhsNonContracting := [1]
  lhsBatch := []
  rhsBatch := []
  wf := dot_S1024x1024x64_S64x1_S1024x1024x1_2_0_01_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.PairSpec.lean ====
/-
  One pair network over the extended reals, as a function of two feature rows.

  For a left row `xl` and a right row `xr` (five features each) the network computes
    first layer    g h  = max ((∑ d, xl d · wl d h) + (∑ d, xr d · wr d h) + b₀ h) 0        (128 units)
    second layer   g₂ k = max ((∑ h, g h · w₁ h k) + b₁ k) 0                                 (64 units)
    score          s    = (∑ k, g₂ k · wo k) + bo
    relation       elu s = s where s > 0, exp s − 1 elsewhere.
  One program adds the bias to the left product before the right product, the other after both; addition of extended
  reals is commutative and associative (even at the infinities), so the two first layers are one function. Nothing here
  asks the entries to be finite. The float patterns of 0 and 1 are the numbers 0 and 1, and 1 / (1 + exp (−x)) is the
  logistic function.
-/
import Idealize.ShloMosaic.PureOps.Ideal
import Idealize.ShloMosaic.PureOps.Ideal.Laws

noncomputable section

namespace Cert.PairSpec

open Idealize.ShloMosaic
open scoped BigOperators

/-! ## The constants -/

theorem ofBits_zero_bf16 : Ideal.ofBits .bf16 0x0000#16 = 0 := by
  simp [Ideal.ofBits, Ideal.ieee]

theorem ofBits_one_f32 : Ideal.ofBits .f32 0x3F800000#32 = 1 := by
  simp [Ideal.ofBits, Ideal.ieee, -EReal.coe_mul]; norm_num

/-! ## The layers -/

/-- The exponential linear unit: the entry where it is positive, `exp − 1` of it elsewhere. -/
def elu (s : EReal) : EReal := Scalar.select (Ideal.cmp .ogt s 0) s (Ideal.exp s - 1)

variable {D H K : ℕ}

/-- The first layer at unit `h`, the bias added after both products. -/
def hid (xl xr : Fin D → EReal) (wl wr : Fin D → Fin H → EReal) (b0 : Fin H → EReal) (h : Fin H) : EReal :=
  max (((∑ d, xl d * wl d h) + (∑ d, xr d * wr d h)) + b0 h) 0

/-- The first layer at unit `h`, the bias added to the left product first. -/
def hidLeftFirst (xl xr : Fin D → EReal) (wl wr : Fin D → Fin H → EReal) (b0 : Fin H → EReal) (h : Fin H) : EReal :=
  max (((∑ d, xl d * wl d h) + b0 h) + (∑ d, xr d * wr d h)) 0

/-- The two orders of adding the bias are one function. -/
theorem hidLeftFirst_eq (xl xr : Fin D → EReal) (wl wr : Fin D → Fin H → EReal) (b0 : Fin H → EReal) :
    hidLeftFirst xl xr wl wr b0 = hid xl xr wl wr b0 := by
  funext h
  unfold hidLeftFirst hid
  rw [add_right_comm]

/-- The second layer at unit `k`. -/
def hid2 (g : Fin H → EReal) (w1 : Fin H → Fin K → EReal) (b1 : Fin K → EReal) (k : Fin K) : EReal :=
  max ((∑ h, g h * w1 h k) + b1 k) 0

/-- The score of the pair. -/
def score (g2 : Fin K → EReal) (wo : Fin K → EReal) (bo : EReal) : EReal := (∑ k, g2 k * wo k) + bo

/-- The relation value of the pair. -/
def rel (xl xr : Fin D → EReal) (wl wr : Fin D → Fin H → EReal) (b0 : Fin H → EReal) (w1 : Fin H → Fin K → EReal)
    (b1 : Fin K → EReal) (wo : Fin K → EReal) (bo : EReal) : EReal :=
  elu (score (hid2 (hid xl xr wl wr b0) w1 b1) wo bo)

/-- The relation value depends on its nine arguments only through their entries. -/
theorem rel_congr {xl xl' xr xr' : Fin D → EReal} {wl wl' wr wr' : Fin D → Fin H → EReal} {b0 b0' : Fin H → EReal}
    {w1 w1' : Fin H → Fin K → EReal} {b1 b1' : Fin K → EReal} {wo wo' : Fin K → EReal} {bo bo' : EReal}
    (h1 : ∀ d, xl d = xl' d) (h2 : ∀ d, xr d = xr' d) (h3 : ∀ d h, wl d h = wl' d h) (h4 : ∀ d h, wr d h = wr' d h)
    (h5 : ∀ h, b0 h = b0' h) (h6 : ∀ h k, w1 h k = w1' h k) (h7 : ∀ k, b1 k = b1' k) (h8 : ∀ k, wo k = wo' k) (h9 : bo = bo') :
    rel xl xr wl wr b0 w1 b1 wo bo = rel xl' xr' wl' wr' b0' w1' b1' wo' bo' := by
  obtain rfl : xl = xl' := funext h1
  obtain rfl : xr = xr' := funext h2
  obtain rfl : wl = wl' := funext fun d => funext (h3 d)
  obtain rfl : wr = wr' := funext fun d => funext (h4 d)
  obtain rfl : b0 = b0' := funext h5
  obtain rfl : w1 = w1' := funext fun h => funext (h6 h)
  obtain rfl : b1 = b1' := funext h7
  obtain rfl : wo = wo' := funext h8
  subst h9
  rfl

/-! ## The two spellings of the exponential linear unit and of the logistic function -/

/-- Spelt with a subtraction of the pattern of one and a comparison with the pattern of zero. -/
theorem elu_sub_form (s : EReal) :
    Scalar.select (Ideal.cmp .ogt s (Ideal.ofBits .f32 0x00000000#32)) s (Ideal.exp s - Ideal.ofBits .f32 0x3F800000#32) = elu s := by
  rw [Ideal.ofBits_zero_f32, ofBits_one_f32]; rfl

/-- Spelt as `1 · expm1` of the entry with the positive entries replaced by zero before `expm1`. -/
theorem elu_expm1_form (s : EReal) :
    Scalar.select (Ideal.cmp .ogt s (Ideal.ofBits .f32 0x00000000#32)) s
        (Ideal.ofBits .f32 0x3F800000#32 *
          (Ideal.exp (Scalar.select (Ideal.cmp .ogt s (Ideal.ofBits .f32 0x00000000#32)) (Ideal.ofBits .f32 0x00000000#32) s) - 1))
      = elu s := by
  rw [Ideal.ofBits_zero_f32, ofBits_one_f32]
  unfold elu Scalar.select
  by_cases hc : Ideal.cmp .ogt s 0 = 1
  · rw [if_pos hc, if_pos hc]
  · rw [if_neg hc, if_neg hc, if_neg hc, one_mul]

/-- `1 / (1 + exp (−x))` with the pattern of one is the logistic function. -/
theorem logistic_div_form (x : EReal) :
    Ideal.div (Ideal.ofBits .f32 0x3F800000#32) (Ideal.ofBits .f32 0x3F800000#32 + Ideal.exp (-x)) = Ideal.logistic x := by
  rw [ofBits_one_f32]; rfl

end Cert.PairSpec

end
-- ==== Proof.LibPairLayers.lean ====
/-
  Layers of a pairwise network on rank-3 arrays, read at an index given by coordinates.

  A pairwise network forms, for every left row `p` and right row `q`, a vector indexed by a third axis. This file reads,
  for any extents and with no finiteness, the host operations that do it:
   • a `dot_general` that contracts the LAST axis of an `[a, b, K]` array with the first axis of a `[K, J]` matrix:
     entry `(p, q, j)` is `∑ k, lhs[p, q, k] · rhs[k, j]`;
   • `broadcast_in_dim` chains: an `[a, c]` array placed on axes 0 and 2 and repeated along axis 1 reads `(p, k)` at
     `(p, q, k)`; a `[b, c]` array placed on axes 1 and 2 and repeated along axis 0 reads `(q, k)`; a `[c]` vector placed on
     axis 2 and repeated along both others reads `k`;
   • two functions on a rank-2 index type agree once they agree at every pair of coordinates;
   • reshapes: `[a, b, 1]` to `[a, b]` forgets the unit coordinate; `[M, 1]` to `[a, b]` with `M = a · b` reads row
     `p · b + q`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.PairLayers

open Idealize.ShloMosaic Idealize.ShloMosaic.ValueIdx
open scoped BigOperators

/-! ## A contraction of the last axis -/

section Contraction
variable {a b K J : ℕ} (d : DotDims ⟨3, ![a, b, K]⟩ ⟨2, ![K, J]⟩ ⟨3, ![a, b, J]⟩)

/-- The dimension numbers of an `[a, b, K] × [K, J] → [a, b, J]` product contract ONE axis, of extent `K`: the left
    operand is read at (output's first two coordinates, contracted position), the right one at (contracted position,
    output's last coordinate). -/
structure LastTimesCols : Prop where
  rank : d.contr.rank = 1
  size : d.contr.size ⟨0, by omega⟩ = K
  lhs0 : ∀ (j : (⟨3, ![a, b, J]⟩ : Shape).Idx) (q : d.contr.Idx), (d.lhsIdx j q 0).val = (j 0).val
  lhs1 : ∀ (j : (⟨3, ![a, b, J]⟩ : Shape).Idx) (q : d.contr.Idx), (d.lhsIdx j q 1).val = (j 1).val
  lhs2 : ∀ (j : (⟨3, ![a, b, J]⟩ : Shape).Idx) (q : d.contr.Idx), (d.lhsIdx j q 2).val = (q ⟨0, by omega⟩).val
  rhs0 : ∀ (j : (⟨3, ![a, b, J]⟩ : Shape).Idx) (q : d.contr.Idx), (d.rhsIdx j q 0).val = (q ⟨0, by omega⟩).val
  rhs1 : ∀ (j : (⟨3, ![a, b, J]⟩ : Shape).Idx) (q : d.contr.Idx), (d.rhsIdx j q 1).val = (j 2).val

variable {d}

/-- The sum over the contraction's index set, re-indexed by the contracted position `k < K`. -/
theorem LastTimesCols.sum_eq (H : LastTimesCols d) (lhs : (⟨3, ![a, b, K]⟩ : Shape).Idx → EReal)
    (rhs : (⟨2, ![K, J]⟩ : Shape).Idx → EReal) (p : Fin a) (q : Fin b) (j : Fin J) :
    (∑ k : d.contr.Idx, lhs (d.lhsIdx (ix3 p q j) k) * rhs (d.rhsIdx (ix3 p q j) k))
      = ∑ k : Fin K, lhs (ix3 p q k) * rhs (ix2 k j) := by
  rw [← Equiv.sum_comp (contrEquiv1 d K H.rank H.size).symm]
  refine Finset.sum_congr rfl fun k _ => ?_
  have hk := contrEquiv1_symm_val d K H.rank H.size k
  have el : d.lhsIdx (ix3 p q j) ((contrEquiv1 d K H.rank H.size).symm k) = ix3 p q k := funext fun ax => Fin.ext (by
    match ax with
    | ⟨0, _⟩ => exact H.lhs0 _ _
    | ⟨1, _⟩ => exact H.lhs1 _ _
    | ⟨2, _⟩ => exact (H.lhs2 _ _).trans hk)
  have er : d.rhsIdx (ix3 p q j) ((contrEquiv1 d K H.rank H.size).symm k) = ix2 k j := funext fun ax => Fin.ext (by
    match ax with
    | ⟨0, _⟩ => exact (H.rhs0 _ _).trans hk
    | ⟨1, _⟩ => exact H.rhs1 _ _)
  rw [el, er]

/-- Entry `(p, q, j)` of the host's product. -/
theorem dotGeneral_last_apply {φ₁ φ₂ : FTy} (H : LastTimesCols d) (prec : Option ContractPrecision)
    (lhs : FVec Ideal ⟨3, ![a, b, K]⟩ φ₁) (rhs : FVec Ideal ⟨2, ![K, J]⟩ φ₂) (p : Fin a) (q : Fin b) (j : Fin J) :
    Host.dotGeneral (F := Ideal) d prec lhs rhs (ix3 p q j) = ∑ k : Fin K, lhs (ix3 p q k) * rhs (ix2 k j) := by
  show FloatOps.dotGeneral d prec .single lhs rhs (ix3 p q j) = _
  rw [Ideal.dotGeneral_apply]
  exact H.sum_eq lhs rhs p q j

end Contraction

/-! ## Broadcasts placed on named axes -/

section Layout
variable {α : Type}

/-- A coordinate is kept on an axis of extent other than one, and is `0` on a unit axis (where it is `0` anyway). -/
theorem keep_or_zero {n : ℕ} (p : Fin n) : p.val = if n = 1 then 0 else p.val := by
  split
  · have := p.isLt; omega
  · rfl

/-- An `[a, c]` array placed on axes 0 and 2, then repeated along axis 1. -/
theorem bcastLeft_apply {a b c : ℕ} (x : (⟨2, ![a, c]⟩ : Shape).Idx → α)
    (h1 : (⟨2, ![a, c]⟩ : Shape).BroadcastsInDim ⟨3, ![a, 1, c]⟩ ![0, 2])
    (h2 : (⟨3, ![a, 1, c]⟩ : Shape).BroadcastsInDim ⟨3, ![a, b, c]⟩ ![0, 1, 2]) (p : Fin a) (q : Fin b) (k : Fin c) :
    broadcastInDim ⟨3, ![a, b, c]⟩ ![0, 1, 2] h2 (broadcastInDim ⟨3, ![a, 1, c]⟩ ![0, 2] h1 x) (ix3 p q k) = x (ix2 p k) := by
  refine (broadcastInDim_apply _ h2 _ (ix3 p q k) (ix3 p (0 : Fin 1) k) fun ax => ?_).trans
    (broadcastInDim_apply _ h1 x (ix3 p (0 : Fin 1) k) (ix2 p k) fun ax => ?_)
  · match ax with
    | ⟨0, _⟩ => exact keep_or_zero p
    | ⟨1, _⟩ => exact (if_pos rfl).symm
    | ⟨2, _⟩ => exact keep_or_zero k
  · match ax with
    | ⟨0, _⟩ => exact keep_or_zero p
    | ⟨1, _⟩ => exact keep_or_zero k

/-- A `[b, c]` array placed on axes 1 and 2, then repeated along axis 0. -/
theorem bcastRight_apply {a b c : ℕ} (x : (⟨2, ![b, c]⟩ : Shape).Idx → α)
    (h1 : (⟨2, ![b, c]⟩ : Shape).BroadcastsInDim ⟨3, ![1, b, c]⟩ ![1, 2])
    (h2 : (⟨3, ![1, b, c]⟩ : Shape).BroadcastsInDim ⟨3, ![a, b, c]⟩ ![0, 1, 2]) (p : Fin a) (q : Fin b) (k : Fin c) :
    broadcastInDim ⟨3, ![a, b, c]⟩ ![0, 1, 2] h2 (broadcastInDim ⟨3, ![1, b, c]⟩ ![1, 2] h1 x) (ix3 p q k) = x (ix2 q k) := by
  refine (broadcastInDim_apply _ h2 _ (ix3 p q k) (ix3 (0 : Fin 1) q k) fun ax => ?_).trans
    (broadcastInDim_apply _ h1 x (ix3 (0 : Fin 1) q k) (ix2 q k) fun ax => ?_)
  · match ax with
    | ⟨0, _⟩ => exact (if_pos rfl).symm
    | ⟨1, _⟩ => exact keep_or_zero q
    | ⟨2, _⟩ => exact keep_or_zero k
  · match ax with
    | ⟨0, _⟩ => exact keep_or_zero q
    | ⟨1, _⟩ => exact keep_or_zero k

/-- A `[c]` vector placed on axis 2, then repeated along axes 0 and 1. -/
theorem bcastVec_apply {a b c : ℕ} (x : (⟨1, ![c]⟩ : Shape).Idx → α)
    (h1 : (⟨1, ![c]⟩ : Shape).BroadcastsInDim ⟨3, ![1, 1, c]⟩ ![2])
    (h2 : (⟨3, ![1, 1, c]⟩ : Shape).BroadcastsInDim ⟨3, ![a, b, c]⟩ ![0, 1, 2]) (p : Fin a) (q : Fin b) (k : Fin c) :
    broadcastInDim ⟨3, ![a, b, c]⟩ ![0, 1, 2] h2 (broadcastInDim ⟨3, ![1, 1, c]⟩ ![2] h1 x) (ix3 p q k) = x (ix1 k) := by
  refine (broadcastInDim_apply _ h2 _ (ix3 p q k) (ix3 (0 : Fin 1) (0 : Fin 1) k) fun ax => ?_).trans
    (broadcastInDim_apply _ h1 x (ix3 (0 : Fin 1) (0 : Fin 1) k) (ix1 k) fun ax => ?_)
  · match ax with
    | ⟨0, _⟩ => exact (if_pos rfl).symm
    | ⟨1, _⟩ => exact (if_pos rfl).symm
    | ⟨2, _⟩ => exact keep_or_zero k
  · match ax with
    | ⟨0, _⟩ => exact keep_or_zero k

/-- Two functions on a rank-2 index type agree once they agree at every pair of coordinates. -/
theorem funext_ix2 {n0 n1 : ℕ} {f g : (⟨2, ![n0, n1]⟩ : Shape).Idx → α} (h : ∀ (p : Fin n0) (q : Fin n1), f (ix2 p q) = g (ix2 p q)) :
    f = g :=
  funext fun j => by rw [eq_ix2 j]; exact h _ _

/-! ## Reshapes -/

/-- `[a, b, 1]` viewed `[a, b]`: entry `(p, q)` is entry `(p, q, 0)`. -/
theorem dropLast_apply {a b : ℕ} (x : (⟨3, ![a, b, 1]⟩ : Shape).Idx → α) (h : (⟨3, ![a, b, 1]⟩ : Shape).ShapeCasts ⟨2, ![a, b]⟩)
    (p : Fin a) (q : Fin b) : shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    omega)

/-- A column `[M, 1]` viewed `[a, b]` (`M = a · b`): entry `(p, q)` is the column's entry at row `p · b + q`. -/
theorem splitColumn_apply {a b M : ℕ} (x : (⟨2, ![M, 1]⟩ : Shape).Idx → α) (h : (⟨2, ![M, 1]⟩ : Shape).ShapeCasts ⟨2, ![a, b]⟩)
    (p : Fin a) (q : Fin b) (r : Fin M) (hr : r.val = p.val * b + q.val) :
    shapeCast ⟨2, ![a, b]⟩ x h (ix2 p q) = x (ix2 r (0 : Fin 1)) :=
  shapeCast_apply x h _ _ (by
    rw [Shape.rowMajor_val_two, Shape.rowMajor_val_two]
    show r.val * 1 + 0 = p.val * b + q.val
    omega)

end Layout

end Cert.PairLayers

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibMatProd.lean ====
/-
  The product of two matrices over the extended reals, entry by entry, and the one law this certificate rests on.

  `prod x w` is the `[a, b]` array whose entry `(p, q)` is `∑ k, x[p, k] · w[k, q]`. Three array programs
  compute it: a matrix product into a zero accumulator whose operands first change float format (a change of
  format is the identity on extended reals), a host `dot_general` with no accumulator, and — the law — a window
  of columns cut out of the product with two weight matrices set side by side:

      (x · [w₁ | w₂])[:, 0:A]   = x · w₁        (x · [w₁ | w₂])[:, A:A+B] = x · w₂ ,

  because entry `(k, q)` of `[w₁ | w₂]` is `w₁[k, q]` for `q < A` and `w₂[k, q - A]` beyond. Each sum is the
  same sum term by term, so nothing is asked of the entries: infinities are welcome.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171790_j45741401702576_2_alg».proof.Proof.LibRowLayers

noncomputable section

namespace Cert.MatProd

open Idealize.ShloMosaic Idealize.ShloMosaic.ValueIdx Cert.RowLayers

/-- The matrix product entry by entry: `(x · w)[p, q] = ∑ k, x[p, k] · w[k, q]`. -/
def prod {a K b : ℕ} (x : (⟨2, ![a, K]⟩ : Shape).Idx → EReal) (w : (⟨2, ![K, b]⟩ : Shape).Idx → EReal) :
    (⟨2, ![a, b]⟩ : Shape).Idx → EReal :=
  fun i => ∑ k : Fin K, rowOf x (i 0) k * w (ix2 k (i 1))

theorem prod_apply {a K b : ℕ} (x : (⟨2, ![a, K]⟩ : Shape).Idx → EReal) (w : (⟨2, ![K, b]⟩ : Shape).Idx → EReal)
    (p : Fin a) (q : Fin b) : prod x w (ix2 p q) = ∑ k : Fin K, x (ix2 p k) * w (ix2 k q) := rfl

/-! ## The programs that compute it -/

section Programs
variable {a K b : ℕ} {d : DotDims ⟨2, ![a, K]⟩ ⟨2, ![K, b]⟩ ⟨2, ![a, b]⟩} {φ₁ φ₂ : FTy}

/-- The host's product with "rows times columns" dimension numbers is `prod`. -/
theorem dotGeneral_eq_prod (H : RowsTimesCols d) (prec : Option ContractPrecision)
    (x : FVec Ideal ⟨2, ![a, K]⟩ φ₁) (w : FVec Ideal ⟨2, ![K, b]⟩ φ₂) :
    Host.dotGeneral (F := Ideal) d prec x w = prod x w := by
  funext i
  obtain ⟨p, q, rfl⟩ : ∃ (p : Fin a) (q : Fin b), i = ix2 p q := ⟨i 0, i 1, eq_ix2 i⟩
  exact congrFun (rowOf_dotGeneral H prec x w p) q

/-- The device's product into a zero accumulator is `prod`. -/
theorem matmul_zero_eq_prod (H : RowsTimesCols d) (prec : Option ContractPrecision)
    (x : FVec Ideal ⟨2, ![a, K]⟩ φ₁) (w : FVec Ideal ⟨2, ![K, b]⟩ φ₂) :
    matmul d prec x w (constant (F := Ideal) ⟨2, ![a, b]⟩ .f32 0x00000000#32) = prod x w := by
  funext i
  obtain ⟨p, q, rfl⟩ : ∃ (p : Fin a) (q : Fin b), i = ix2 p q := ⟨i 0, i 1, eq_ix2 i⟩
  exact congrFun (rowOf_matmul_zero H prec x w p) q

end Programs

/-! ## A block of rows -/

/-- Entry `(r, q)` of a product reads row `r` of the left factor only: if `x₀` holds the rows of `x` from `r₀` on,
    then `x₀ · w` at `(p, q)` is `x · w` at `(r₀ + p, q)`. -/
theorem prod_of_row_block {a₀ a K b : ℕ} (x : (⟨2, ![a, K]⟩ : Shape).Idx → EReal) (w : (⟨2, ![K, b]⟩ : Shape).Idx → EReal)
    (x₀ : (⟨2, ![a₀, K]⟩ : Shape).Idx → EReal) (r₀ : ℕ)
    (hx₀ : ∀ (y : (⟨2, ![a₀, K]⟩ : Shape).Idx) (z : (⟨2, ![a, K]⟩ : Shape).Idx),
      (z 0).val = r₀ + (y 0).val → (z 1).val = (y 1).val → x₀ y = x z)
    (j : (⟨2, ![a₀, b]⟩ : Shape).Idx) (i : (⟨2, ![a, b]⟩ : Shape).Idx)
    (hi0 : (i 0).val = r₀ + (j 0).val) (hi1 : (i 1).val = (j 1).val) :
    prod x₀ w j = prod x w i := by
  unfold prod
  refine Finset.sum_congr rfl fun k _ => ?_
  have e0 : rowOf x₀ (j 0) k = rowOf x (i 0) k := hx₀ (ix2 (j 0) k) (ix2 (i 0) k) hi0 rfl
  have e1 : (ix2 k (j 1) : (⟨2, ![K, b]⟩ : Shape).Idx) = ix2 k (i 1) := congrArg (ix2 k) (Fin.ext hi1.symm)
  exact congrArg₂ (· * ·) e0 (congrArg w e1)

/-! ## Two weight matrices side by side -/

section SideBySide
variable {K A B C : ℕ}

/-- Left of the seam the joined matrix is the first one. -/
theorem concat_cols_left (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : j.val < A) :
    concatenate ⟨2, ![K, C]⟩ 1 [⟨⟨2, ![K, A]⟩, w₁⟩, ⟨⟨2, ![K, B]⟩, w₂⟩] hc (ix2 k j) = w₁ (ix2 k ⟨j.val, hj⟩) :=
  (congrFun (rowOf_concat_cols w₁ w₂ hc hC k) j).trans (dif_pos hj)

/-- From the seam on it is the second one. -/
theorem concat_cols_right (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : ¬ j.val < A) :
    concatenate ⟨2, ![K, C]⟩ 1 [⟨⟨2, ![K, A]⟩, w₁⟩, ⟨⟨2, ![K, B]⟩, w₂⟩] hc (ix2 k j)
      = w₂ (ix2 k ⟨j.val - A, by have := j.isLt; omega⟩) :=
  (congrFun (rowOf_concat_cols w₁ w₂ hc hC k) j).trans (dif_neg hj)

variable {a : ℕ}

/-- THE LAW, left half: the first `A` columns of `x · [w₁ | w₂]` are `x · w₁`. -/
theorem slice_prod_concat_left (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, 0] ⟨2, ![a, A]⟩) :
    extractStridedSlice ⟨2, ![a, A]⟩ ![0, 0]
        (prod x (concatenate ⟨2, ![K, C]⟩ 1 [⟨⟨2, ![K, A]⟩, w₁⟩, ⟨⟨2, ![K, B]⟩, w₂⟩] hc)) hs
      = prod x w₁ := by
  funext i
  obtain ⟨p, q, rfl⟩ : ∃ (p : Fin a) (q : Fin A), i = ix2 p q := ⟨i 0, i 1, eq_ix2 i⟩
  rw [slice2_axis1_eq]
  refine Finset.sum_congr rfl fun k _ => congrArg (rowOf x p k * ·) ?_
  refine (concat_cols_left w₁ w₂ hc hC k _ (by show 0 + q.val < A; have := q.isLt; omega)).trans ?_
  exact congrArg (fun z => w₁ (ix2 k z)) (Fin.ext (Nat.zero_add q.val))

/-- THE LAW, right half: the next `B` columns of `x · [w₁ | w₂]` are `x · w₂`. -/
theorem slice_prod_concat_right (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, A] ⟨2, ![a, B]⟩) :
    extractStridedSlice ⟨2, ![a, B]⟩ ![0, A]
        (prod x (concatenate ⟨2, ![K, C]⟩ 1 [⟨⟨2, ![K, A]⟩, w₁⟩, ⟨⟨2, ![K, B]⟩, w₂⟩] hc)) hs
      = prod x w₂ := by
  funext i
  obtain ⟨p, q, rfl⟩ : ∃ (p : Fin a) (q : Fin B), i = ix2 p q := ⟨i 0, i 1, eq_ix2 i⟩
  rw [slice2_axis1_eq]
  refine Finset.sum_congr rfl fun k _ => congrArg (rowOf x p k * ·) ?_
  refine (concat_cols_right w₁ w₂ hc hC k _ (by show ¬ A + q.val < A; omega)).trans ?_
  exact congrArg (fun z => w₂ (ix2 k z)) (Fin.ext (by show A + q.val - A = q.val; omega))

end SideBySide

end Cert.MatProd

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171790_j45741401702576_2_alg».proof.Proof.LibRowLayers
import proofs.«171790_j45741401702576_2_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibRelayout.lean ====
/-
  Re-layouts of an array read at an index given by its coordinates.

  A row-major reshape keeps the position of every entry in the flat order. So a reshape that MERGES leading axes
  ([a, b, c] to [a·b, c]) reads, at row `p·b + q`, the entry `(p, q, ·)`; one that SPLITS them back reads the same the other
  way; one that INSERTS a unit axis forgets the unit coordinate. A broadcast along an axis of extent one reads the one
  entry there is on that axis. Each statement below names both indices by coordinates, for any extents, so that a chain of
  such operations is walked by `rw`, outermost operation first.
-/
import Idealize.ShloMosaic.Lib.ValueIdx
import Idealize.ShloMosaic.Lib.ValueLayout
import Idealize.ShloMosaic.Lib.Pipeline.Value

namespace Cert.Relayout

open Idealize.ShloMosaic Idealize.ShloMosaic.ValueIdx

variable {α : Type}

/-! ## Merging and splitting leading axes -/

/-- `[a, b, c]` merged to `[M, c]`: row `p·b + q` is `(p, q, ·)`. -/
theorem merge_ab_apply {a b c M : ℕ} (x : (⟨3, ![a, b, c]⟩ : Shape).Idx → α) (h : (⟨3, ![a, b, c]⟩ : Shape).ShapeCasts ⟨2, ![M, c]⟩)
    (p : Fin a) (q : Fin b) (k : Fin c) (r : Fin M) (hr : r.val = p.val * b + q.val) :
    shapeCast ⟨2, ![M, c]⟩ x h (ix2 r k) = x (ix3 p q k) :=
  shapeCast_apply x h _ _ (by
    rw [Shape.rowMajor_val_three, Shape.rowMajor_val_two]
    show (p.val * b + q.val) * c + k.val = r.val * c + k.val
    rw [hr])

/-- `[M, c]` split to `[a, b, c]`: `(p, q, ·)` is row `p·b + q`. -/
theorem split_ab_apply {a b c M : ℕ} (x : (⟨2, ![M, c]⟩ : Shape).Idx → α) (h : (⟨2, ![M, c]⟩ : Shape).ShapeCasts ⟨3, ![a, b, c]⟩)
    (p : Fin a) (q : Fin b) (k : Fin c) (r : Fin M) (hr : r.val = p.val * b + q.val) :
    shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- `[a, b, c, d]` merged to `[M, d]`: row `(p·b + q)·c + s` is `(p, q, s, ·)`. -/
theorem merge_abc_apply {a b c d M : ℕ} (x : (⟨4, ![a, b, c, d]⟩ : Shape).Idx → α) (h : (⟨4, ![a, b, c, d]⟩ : Shape).ShapeCasts ⟨2, ![M, d]⟩)
    (p : Fin a) (q : Fin b) (s : Fin c) (k : Fin d) (r : Fin M) (hr : r.val = (p.val * b + q.val) * c + s.val) :
    shapeCast ⟨2, ![M, d]⟩ x h (ix2 r k) = x (ix4 p q s k) :=
  shapeCast_apply x h _ _ (by
    rw [Shape.rowMajor_val_four, Shape.rowMajor_val_two]
    show ((p.val * b + q.val) * c + s.val) * d + k.val = r.val * d + k.val
    rw [hr])

/-- `[M, d]` split to `[a, b, c, d]`: `(p, q, s, ·)` is row `(p·b + q)·c + s`. -/
theorem split_abc_apply {a b c d M : ℕ} (x : (⟨2, ![M, d]⟩ : Shape).Idx → α) (h : (⟨2, ![M, d]⟩ : Shape).ShapeCasts ⟨4, ![a, b, c, d]⟩)
    (p : Fin a) (q : Fin b) (s : Fin c) (k : Fin d) (r : Fin M) (hr : r.val = (p.val * b + q.val) * c + s.val) :
    shapeCast ⟨4, ![a, b, c, d]⟩ x h (ix4 p q s k) = x (ix2 r k) :=
  shapeCast_apply x h _ _ (by
    rw [Shape.rowMajor_val_four, Shape.rowMajor_val_two]
    show r.val * d + k.val = ((p.val * b + q.val) * c + s.val) * d + k.val
    rw [hr])

/-- `[a, b, c, d]` with its two leading axes merged, `[N, c, d]`: leading coordinate `p·b + q` is `(p, q, ·, ·)`. -/
theorem mergeLead_apply {a b c d N : ℕ} (x : (⟨4, ![a, b, c, d]⟩ : Shape).Idx → α) (h : (⟨4, ![a, b, c, d]⟩ : Shape).ShapeCasts ⟨3, ![N, c, d]⟩)
    (p : Fin a) (q : Fin b) (s : Fin c) (k : Fin d) (n : Fin N) (hn : n.val = p.val * b + q.val) :
    shapeCast ⟨3, ![N, c, d]⟩ x h (ix3 n s k) = x (ix4 p q s k) :=
  shapeCast_apply x h _ _ (by
    rw [Shape.rowMajor_val_four, Shape.rowMajor_val_three]
    show ((p.val * b + q.val) * c + s.val) * d + k.val = (n.val * c + s.val) * d + k.val
    rw [hn])

/-! ## A unit axis inserted in the middle -/

/-- `[a, b, c]` viewed `[a, 1, b, c]`. -/
theorem unitSecond_apply {a b c : ℕ} (x : (⟨3, ![a, b, c]⟩ : Shape).Idx → α) (h : (⟨3, ![a, b, c]⟩ : Shape).ShapeCasts ⟨4, ![a, 1, b, c]⟩)
    (p : Fin a) (u : Fin 1) (q : Fin b) (k : Fin c) :
    shapeCast ⟨4, ![a, 1, b, c]⟩ x h (ix4 p u q k) = x (ix3 p q k) :=
  shapeCast_apply x h _ _ (by
    have hu : u.val = 0 := by omega
    rw [Shape.rowMajor_val_four, Shape.rowMajor_val_three]
    show (p.val * b + q.val) * c + k.val = ((p.val * 1 + u.val) * b + q.val) * c + k.val
    rw [hu, Nat.mul_one, Nat.add_zero])

/-- `[a, b, c]` viewed `[a, b, 1, c]`. -/
theorem unitThird_apply {a b c : ℕ} (x : (⟨3, ![a, b, c]⟩ : Shape).Idx → α) (h : (⟨3, ![a, b, c]⟩ : Shape).ShapeCasts ⟨4, ![a, b, 1, c]⟩)
    (p : Fin a) (q : Fin b) (u : Fin 1) (k : Fin c) :
    shapeCast ⟨4, ![a, b, 1, c]⟩ x h (ix4 p q u k) = x (ix3 p q k) :=
  shapeCast_apply x h _ _ (by
    have hu : u.val = 0 := by omega
    rw [Shape.rowMajor_val_four, Shape.rowMajor_val_three]
    show (p.val * b + q.val) * c + k.val = ((p.val * b + q.val) * 1 + u.val) * c + k.val
    rw [hu, Nat.mul_one, Nat.add_zero])

/-- A row `[1, c]` viewed `[1, 1, 1, c]`. -/
theorem rowToUnits_apply {c : ℕ} (x : (⟨2, ![1, c]⟩ : Shape).Idx → α) (h : (⟨2, ![1, c]⟩ : Shape).ShapeCasts ⟨4, ![1, 1, 1, c]⟩)
    (u1 u2 u3 : Fin 1) (k : Fin c) :
    shapeCast ⟨4, ![1, 1, 1, c]⟩ x h (ix4 u1 u2 u3 k) = x (ix2 (0 : Fin 1) k) :=
  shapeCast_apply x h _ _ (by
    have h1 : u1.val = 0 := by omega
    have h2 : u2.val = 0 := by omega
    have h3 : u3.val = 0 := by omega
    rw [Shape.rowMajor_val_four, Shape.rowMajor_val_two]
    show 0 * c + k.val = ((u1.val * 1 + u2.val) * 1 + u3.val) * c + k.val
    rw [h1, h2, h3])

/-! ## Broadcasts along one axis of a rank-4 array -/

/-- `[a, 1, c, d]` broadcast to `[a, b, c, d]`. -/
theorem bcastSecond_apply {a b c d : ℕ} (x : (⟨4, ![a, 1, c, d]⟩ : Shape).Idx → α) (h : (⟨4, ![a, 1, c, d]⟩ : Shape).Broadcasts ⟨4, ![a, b, c, d]⟩)
    (p : Fin a) (q : Fin b) (s : Fin c) (k : Fin d) :
    broadcastTo ⟨4, ![a, b, c, d]⟩ x h (ix4 p q s k) = x (ix4 p (0 : Fin 1) s k) :=
  broadcastTo_apply x h _ _ fun ax => by
    match ax with
    | ⟨0, _⟩ => show p.val = if a = 1 then 0 else p.val; split <;> [(have := p.isLt; omega); rfl]
    | ⟨1, _⟩ => show (0 : ℕ) = if (1 : ℕ) = 1 then 0 else q.val; rw [if_pos rfl]
    | ⟨2, _⟩ => show s.val = if c = 1 then 0 else s.val; split <;> [(have := s.isLt; omega); rfl]
    | ⟨3, _⟩ => show k.val = if d = 1 then 0 else k.val; split <;> [(have := k.isLt; omega); rfl]

/-- `[a, b, 1, d]` broadcast to `[a, b, c, d]`. -/
theorem bcastThird_apply {a b c d : ℕ} (x : (⟨4, ![a, b, 1, d]⟩ : Shape).Idx → α) (h : (⟨4, ![a, b, 1, d]⟩ : Shape).Broadcasts ⟨4, ![a, b, c, d]⟩)
    (p : Fin a) (q : Fin b) (s : Fin c) (k : Fin d) :
    broadcastTo ⟨4, ![a, b, c, d]⟩ x h (ix4 p q s k) = x (ix4 p q (0 : Fin 1) k) :=
  broadcastTo_apply x h _ _ fun ax => by
    match ax with
    | ⟨0, _⟩ => show p.val = if a = 1 then 0 else p.val; split <;> [(have := p.isLt; omega); rfl]
    | ⟨1, _⟩ => show q.val = if b = 1 then 0 else q.val; split <;> [(have := q.isLt; omega); rfl]
    | ⟨2, _⟩ => show (0 : ℕ) = if (1 : ℕ) = 1 then 0 else s.val; rw [if_pos rfl]
    | ⟨3, _⟩ => show k.val = if d = 1 then 0 else k.val; split <;> [(have := k.isLt; omega); rfl]

/-- `[1, 1, 1, d]` broadcast to `[a, b, c, d]`: one row for every `(p, q, s)`. -/
theorem bcastRow_apply {a b c d : ℕ} (x : (⟨4, ![1, 1, 1, d]⟩ : Shape).Idx → α) (h : (⟨4, ![1, 1, 1, d]⟩ : Shape).Broadcasts ⟨4, ![a, b, c, d]⟩)
    (p : Fin a) (q : Fin b) (s : Fin c) (k : Fin d) :
    broadcastTo ⟨4, ![a, b, c, d]⟩ x h (ix4 p q s k) = x (ix4 (0 : Fin 1) (0 : Fin 1) (0 : Fin 1) k) :=
  broadcastTo_apply x h _ _ fun ax => by
    match ax with
    | ⟨0, _⟩ => show (0 : ℕ) = if (1 : ℕ) = 1 then 0 else p.val; rw [if_pos rfl]
    | ⟨1, _⟩ => show (0 : ℕ) = if (1 : ℕ) = 1 then 0 else q.val; rw [if_pos rfl]
    | ⟨2, _⟩ => show (0 : ℕ) = if (1 : ℕ) = 1 then 0 else s.val; rw [if_pos rfl]
    | ⟨3, _⟩ => show k.val = if d = 1 then 0 else k.val; split <;> [(have := k.isLt; omega); rfl]

end Cert.Relayout
-- ==== Proof.LibSumBlocks.lean ====
/-
  A sum over an index range made of consecutive blocks, and rank-3 re-layouts read at coordinates.

  In any commutative additive monoid (the extended reals included; nothing here needs finiteness) a sum over
  `n₁ + n₂ + n₃ + n₄` consecutive indices is the sum of the four blocks' sums: this is what splits a contraction over a
  concatenated feature axis into one contraction per concatenated piece. The second half reads, at an index given by
  its coordinates, the rank-3 broadcasts along one or two unit axes and the casts that insert those unit axes.
-/
import Mathlib.Algebra.BigOperators.Fin
import Idealize.ShloMosaic.Lib.ValueIdx
import Idealize.ShloMosaic.Lib.ValueLayout
import Idealize.ShloMosaic.Lib.Pipeline.Value

open scoped BigOperators

namespace Cert.SumBlocks

/-- A sum over `N = n₁ + n₂ + n₃ + n₄` indices, block by block: the first `n₁` indices, the next `n₂`, the next
    `n₃`, the last `n₄`. -/
theorem sum_four_blocks {M : Type*} [AddCommMonoid M] {n₁ n₂ n₃ n₄ N : ℕ} (hN : N = n₁ + n₂ + n₃ + n₄) (g : Fin N → M) :
    ∑ f, g f
      = ((∑ k : Fin n₁, g ⟨k.val, by have := k.isLt; omega⟩) + (∑ k : Fin n₂, g ⟨n₁ + k.val, by have := k.isLt; omega⟩))
        + ((∑ k : Fin n₃, g ⟨n₁ + n₂ + k.val, by have := k.isLt; omega⟩)
          + (∑ k : Fin n₄, g ⟨n₁ + n₂ + n₃ + k.val, by have := k.isLt; omega⟩)) := by
  subst hN
  rw [Fin.sum_univ_add, Fin.sum_univ_add, Fin.sum_univ_add, add_assoc]
  rfl

end Cert.SumBlocks

namespace Cert.RankThree

open Idealize.ShloMosaic Idealize.ShloMosaic.ValueIdx

variable {α : Type}

/-- `[a, 1, c]` broadcast to `[a, b, c]`: every position on the second axis reads the one there is. -/
theorem bcastMid_apply {a b c : ℕ} (x : (⟨3, ![a, 1, c]⟩ : Shape).Idx → α) (h : (⟨3, ![a, 1, c]⟩ : Shape).Broadcasts ⟨3, ![a, b, c]⟩)
    (p : Fin a) (q : Fin b) (k : Fin c) : broadcastTo ⟨3, ![a, b, c]⟩ x h (ix3 p q k) = x (ix3 p (0 : Fin 1) k) :=
  broadcastTo_apply x h _ _ fun ax => by
    match ax with
    | ⟨0, _⟩ => show p.val = if a = 1 then 0 else p.val; split <;> [(have := p.isLt; omega); rfl]
    | ⟨1, _⟩ => show (0 : ℕ) = if (1 : ℕ) = 1 then 0 else q.val; rw [if_pos rfl]
    | ⟨2, _⟩ => show k.val = if c = 1 then 0 else k.val; split <;> [(have := k.isLt; omega); rfl]

/-- `[1, b, c]` broadcast to `[a, b, c]`: every position on the first axis reads the one there is. -/
theorem bcastLead_apply {a b c : ℕ} (x : (⟨3, ![1, b, c]⟩ : Shape).Idx → α) (h : (⟨3, ![1, b, c]⟩ : Shape).Broadcasts ⟨3, ![a, b, c]⟩)
    (p : Fin a) (q : Fin b) (k : Fin c) : broadcastTo ⟨3, ![a, b, c]⟩ x h (ix3 p q k) = x (ix3 (0 : Fin 1) q k) :=
  broadcastTo_apply x h _ _ fun ax => by
    match ax with
    | ⟨0, _⟩ => show (0 : ℕ) = if (1 : ℕ) = 1 then 0 else p.val; rw [if_pos rfl]
    | ⟨1, _⟩ => show q.val = if b = 1 then 0 else q.val; split <;> [(have := q.isLt; omega); rfl]
    | ⟨2, _⟩ => show k.val = if c = 1 then 0 else k.val; split <;> [(have := k.isLt; omega); rfl]

/-- `[1, 1, c]` broadcast to `[a, b, c]`: one row for every `(p, q)`. -/
theorem bcastRow_apply {a b c : ℕ} (x : (⟨3, ![1, 1, c]⟩ : Shape).Idx → α) (h : (⟨3, ![1, 1, c]⟩ : Shape).Broadcasts ⟨3, ![a, b, c]⟩)
    (p : Fin a) (q : Fin b) (k : Fin c) : broadcastTo ⟨3, ![a, b, c]⟩ x h (ix3 p q k) = x (ix3 (0 : Fin 1) (0 : Fin 1) k) :=
  broadcastTo_apply x h _ _ fun ax => by
    match ax with
    | ⟨0, _⟩ => show (0 : ℕ) = if (1 : ℕ) = 1 then 0 else p.val; rw [if_pos rfl]
    | ⟨1, _⟩ => show (0 : ℕ) = if (1 : ℕ) = 1 then 0 else q.val; rw [if_pos rfl]
    | ⟨2, _⟩ => show k.val = if c = 1 then 0 else k.val; split <;> [(have := k.isLt; omega); rfl]

/-- `[a, c]` viewed `[a, 1, c]`. -/
theorem unitMid_apply {a c : ℕ} (x : (⟨2, ![a, c]⟩ : Shape).Idx → α) (h : (⟨2, ![a, c]⟩ : Shape).ShapeCasts ⟨3, ![a, 1, c]⟩)
    (p : Fin a) (u : Fin 1) (k : Fin c) : shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- `[c]` viewed `[1, 1, c]`. -/
theorem vecToUnits_apply {c : ℕ} (x : (⟨1, ![c]⟩ : Shape).Idx → α) (h : (⟨1, ![c]⟩ : Shape).ShapeCasts ⟨3, ![1, 1, c]⟩)
    (u₁ u₂ : Fin 1) (k : Fin c) : shapeCast ⟨3, ![1, 1, c]⟩ x h (ix3 u₁ u₂ k) = x (ix1 k) :=
  shapeCast_apply x h _ _ (by
    have h1 : u₁.val = 0 := by omega
    have h2 : u₂.val = 0 := by omega
    rw [Shape.rowMajor_val_three, Shape.rowMajor_val_one]
    show k.val = (u₁.val * 1 + u₂.val) * c + k.val
    rw [h1, h2]; simp)

/-- The transpose that swaps the two leading axes of an `[a, b, c]` array. -/
theorem swapLead_apply {a b c : ℕ} (x : (⟨3, ![a, b, c]⟩ : Shape).Idx → α)
    (h : (⟨3, ![a, b, c]⟩ : Shape).Transposes [1, 0, 2] ⟨3, ![b, a, c]⟩) (q : Fin b) (p : Fin a) (k : Fin c) :
    transpose ⟨3, ![b, a, c]⟩ [1, 0, 2] x h (ix3 q p k) = x (ix3 p q k) :=
  transpose_apply _ x h _ _ fun ax => match ax with | ⟨0, _⟩ => rfl | ⟨1, _⟩ => rfl | ⟨2, _⟩ => rfl

end Cert.RankThree
-- ==== Proof.KerBlock.lean ====
/-
  One grid point of the pair kernel, and one of the product kernel, entry by entry.

  At a grid point the pair kernel holds a block of 128 left rows, a block of 128 right rows and the whole weights. Its
  body forms, for every left row `p` and right row `q` of the blocks, the first layer (bias added to the left product
  first), lays the 128 × 128 pairs out as 16384 rows (pair `(p, q)` is row `p · 128 + q`), applies the second layer to
  every row, sums each row against the output weights over the lanes, adds the output bias, lays the 16384 scores back
  out as 128 × 128 and applies the exponential linear unit. So entry `(p, q)` of what it stores is the specification's
  relation value of the two rows. The changes of float format on the way are the identity on extended reals.
  The product kernel stores the logistic function of the product of its two blocks.
-/
import proofs.«171790_j45741401702576_2_alg».proof.Proof.Gen.KernelIdeal.Skeleton
import proofs.«171790_j45741401702576_2_alg».proof.Proof.PairSpec
import proofs.«171790_j45741401702576_2_alg».proof.Proof.LibPairLayers
import proofs.«171790_j45741401702576_2_alg».proof.Proof.LibRowLayers
import proofs.«171790_j45741401702576_2_alg».proof.Proof.LibMatProd
import proofs.«171790_j45741401702576_2_alg».proof.Proof.LibChebRows
import proofs.«171790_j45741401702576_2_alg».proof.Proof.LibRelayout
import proofs.«171790_j45741401702576_2_alg».proof.Proof.LibSumBlocks

set_option maxRecDepth 16384

noncomputable section

namespace Cert.KernelIdeal.Block

open Cert.KernelIdeal Cert.KernelIdeal.Gen
open Idealize.ShloMosaic Idealize.ShloMosaic.ValueIdx
open Cert.PairSpec Cert.PairLayers Cert.RowLayers Cert.MatProd
open scoped BigOperators

/-! ## The printed dimension numbers -/

theorem rtc_5 : RowsTimesCols dot_S128x5_S5x128_S128x128_1_0_0_1_n_n :=
  ⟨rfl, rfl, fun _ _ => rfl, fun _ _ => rfl, fun _ _ => rfl, fun _ _ => rfl⟩

theorem rtc_128 : RowsTimesCols dot_S16384x128_S128x64_S16384x64_1_0_0_1_n_n :=
  ⟨rfl, rfl, fun _ _ => rfl, fun _ _ => rfl, fun _ _ => rfl, fun _ _ => rfl⟩

theorem rtc_1024 : RowsTimesCols dot_S256x1024_S1024x256_S256x256_1_0_0_1_n_n :=
  ⟨rfl, rfl, fun _ _ => rfl, fun _ _ => rfl, fun _ _ => rfl, fun _ _ => rfl⟩

/-! ## The pairwise sum, rectified and laid out as rows -/

/-- For `A : [a, c]` and `B : [b, c]`: `A` given a unit second axis and repeated along it, `B` given a unit first axis and
    repeated along it, added, rectified at `z`, and the two leading axes merged: row `p · b + q` reads
    `max (A[p, k] + B[q, k]) z`. -/
theorem pairFlat_apply {a b c M : ℕ} {φ : FTy} (A : FVec Ideal ⟨2, ![a, c]⟩ φ) (B : FVec Ideal ⟨2, ![b, c]⟩ φ) (z : Ideal φ)
    (h1 : (⟨2, ![a, c]⟩ : Shape).ShapeCasts ⟨3, ![a, 1, c]⟩) (h2 : (⟨3, ![a, 1, c]⟩ : Shape).Broadcasts ⟨3, ![a, b, c]⟩)
    (h3 : (⟨2, ![b, c]⟩ : Shape).ShapeCasts ⟨3, ![1, b, c]⟩) (h4 : (⟨3, ![1, b, c]⟩ : Shape).Broadcasts ⟨3, ![a, b, c]⟩)
    (h5 : (⟨3, ![a, b, c]⟩ : Shape).ShapeCasts ⟨2, ![M, c]⟩)
    (p : Fin a) (q : Fin b) (k : Fin c) (n : Fin M) (hn : n.val = p.val * b + q.val) :
    shapeCast ⟨2, ![M, c]⟩
        (maximumf (addf (broadcastTo ⟨3, ![a, b, c]⟩ (shapeCast ⟨3, ![a, 1, c]⟩ A h1) h2)
            (broadcastTo ⟨3, ![a, b, c]⟩ (shapeCast ⟨3, ![1, b, c]⟩ B h3) h4))
          (broadcast ⟨3, ![a, b, c]⟩ z)) h5 (ix2 n k)
      = max (A (ix2 p k) + B (ix2 q k)) z := by
  refine (Cert.Relayout.merge_ab_apply _ h5 p q k n hn).trans ?_
  exact congrArg₂ max
    (congrArg₂ (· + ·)
      ((Cert.RankThree.bcastMid_apply _ h2 p q k).trans (Cert.RankThree.unitMid_apply A h1 p (0 : Fin 1) k))
      ((Cert.RankThree.bcastLead_apply _ h4 p q k).trans (shapeCast_ab_1ab_apply B h3 (0 : Fin 1) q k)))
    rfl

/-! ## The pair kernel's payloads -/

/-- The second hidden layer at row `n = p · 128 + q` of the 16384 pair rows, unit `k`. -/
theorem pay3_apply (x0 x1 : Vec Ideal S128x5 .f32) (x2 x3 : Vec Ideal S5x128 .f32) (x4 : Vec Ideal S1x128 .f32)
    (x5 : Vec Ideal S128x64 .f32) (x6 : Vec Ideal S1x64 .f32)
    (p q : Fin 128) (n : Fin 16384) (hn : n.val = p.val * 128 + q.val) (k : Fin 64) :
    k0_pay3 x0 x1 x2 x3 x4 x5 x6 (ix2 n k)
      = hid2 (hidLeftFirst (fun d => x0 (ix2 p d)) (fun d => x1 (ix2 q d)) (fun d h => x2 (ix2 d h)) (fun d h => x3 (ix2 d h))
            (fun h => x4 (ix2 (0 : Fin 1) h)))
          (fun h k => x5 (ix2 h k)) (fun k => x6 (ix2 (0 : Fin 1) k)) k := by
  unfold k0_pay3
  simp only [shapeCast_self]
  unfold hid2
  rw [← Ideal.ofBits_zero_f32]
  refine (congrArg (max · _) (congrFun (rowOf_dense_device rtc_128 none _ _ _ _ n) k)).trans ?_
  refine congrArg₂ max (congrArg₂ (· + ·) (Finset.sum_congr rfl fun h _ => congrArg (· * _) ?_) rfl) rfl
  refine (pairFlat_apply _ _ _ shapeCasts_S128x128_S128x1x128 broadcasts_S128x1x128_S128x128x128
    shapeCasts_S128x128_S1x128x128 broadcasts_S1x128x128_S128x128x128 shapeCasts_S128x128x128_S16384x128 p q h n hn).trans ?_
  unfold hidLeftFirst
  rw [← ofBits_zero_bf16]
  exact congrArg₂ max
    (congrArg₂ (· + ·) (congrFun (rowOf_dense_device rtc_5 none _ _ _ _ p) h) (congrFun (rowOf_matmul_zero rtc_5 none _ _ q) h))
    rfl

/-- The device's exponential linear unit on an array, at an index. -/
theorem eluVec_apply {s : Shape} (v : FVec Ideal s .f32) (i : s.Idx) :
    select (cmpf .ogt v (broadcast s (Scalar.ofBits .f32 0x00000000#32))) v
        (subf (exp v) (broadcast s (Scalar.ofBits .f32 0x3F800000#32))) i = elu (v i) :=
  elu_sub_form (v i)

/-- The stored relation value at `(p, q)` from the 16384 second-layer rows. -/
theorem pay1_apply (v34 : FVec Ideal S16384x64 .f32) (v36 : FVec Ideal S1x64 .f32) (v41 : Vec Ideal S1x1 .f32)
    (p q : Fin 128) (n : Fin 16384) (hn : n.val = p.val * 128 + q.val) :
    k0_pay1 v34 v36 v41 (ix2 p q)
      = elu (score (fun k => v34 (ix2 n k)) (fun k => v36 (ix2 (0 : Fin 1) k)) (v41 (ix2 (0 : Fin 1) (0 : Fin 1)))) := by
  unfold k0_pay1
  simp only [shapeCast_self]
  refine (eluVec_apply _ (ix2 p q)).trans (congrArg elu ?_)
  refine (splitColumn_apply _ shapeCasts_S16384x1_S128x128 p q n hn).trans ?_
  unfold score
  refine congrArg₂ (· + ·) ?_ (broadcastTo_1b_ab_apply v41 broadcasts_S1x1_S16384x1 n (0 : Fin 1))
  refine (Cert.ChebRows.shapeCast_a_a1_apply _ shapeCasts_S16384_S16384x1 n (0 : Fin 1)).trans ?_
  refine (Cert.ChebRows.multiReduction_add_row _ _ reduces_S16384x64_S16384 _ _ n).trans ?_
  exact Finset.sum_congr rfl fun k _ => congrArg (v34 (ix2 n k) * ·) (broadcastTo_1b_ab_apply v36 broadcasts_S1x64_S16384x64 n k)

/-- The second pair kernel's payloads are the first's. -/
theorem pay1_second : k1_pay1 (F := Ideal) = k0_pay1 (F := Ideal) := rfl
theorem pay2_second : k1_pay2 (F := Ideal) = k0_pay2 (F := Ideal) := rfl
theorem pay3_second : k1_pay3 (F := Ideal) = k0_pay3 (F := Ideal) := rfl
theorem pay4_second : k1_pay4 (F := Ideal) = k0_pay4 (F := Ideal) := rfl

/-- Entry `(p, q)` of the stored block: the relation value of left row `p` and right row `q`. -/
theorem relBlock_apply (x0 x1 : Vec Ideal S128x5 .f32) (x2 x3 : Vec Ideal S5x128 .f32) (x4 : Vec Ideal S1x128 .f32)
    (x5 : Vec Ideal S128x64 .f32) (x6 x7 : Vec Ideal S1x64 .f32) (x8 : Vec Ideal S1x1 .f32) (p q : Fin 128) :
    k0_pay1 (k0_pay3 x0 x1 x2 x3 x4 x5 x6) (k0_pay4 x7) x8 (ix2 p q)
      = rel (fun d => x0 (ix2 p d)) (fun d => x1 (ix2 q d)) (fun d h => x2 (ix2 d h)) (fun d h => x3 (ix2 d h))
          (fun h => x4 (ix2 (0 : Fin 1) h)) (fun h k => x5 (ix2 h k)) (fun k => x6 (ix2 (0 : Fin 1) k))
          (fun k => x7 (ix2 (0 : Fin 1) k)) (x8 (ix2 (0 : Fin 1) (0 : Fin 1))) := by
  have hn : (⟨p.val * 128 + q.val, by have := p.isLt; have := q.isLt; omega⟩ : Fin 16384).val = p.val * 128 + q.val := rfl
  rw [pay1_apply _ _ _ p q _ hn]
  unfold rel
  rw [← hidLeftFirst_eq]
  refine congrArg elu (congrArg₂ (fun g2 wo => score g2 wo _) (funext fun k => pay3_apply x0 x1 x2 x3 x4 x5 x6 p q _ hn k) ?_)
  unfold k0_pay4
  rw [shapeCast_self]

/-- The copy stored in the narrower float format holds the same extended reals. -/
theorem relBlock_narrow_apply (x0 x1 : Vec Ideal S128x5 .f32) (x2 x3 : Vec Ideal S5x128 .f32) (x4 : Vec Ideal S1x128 .f32)
    (x5 : Vec Ideal S128x64 .f32) (x6 x7 : Vec Ideal S1x64 .f32) (x8 : Vec Ideal S1x1 .f32) (p q : Fin 128) :
    k0_pay2 (k0_pay3 x0 x1 x2 x3 x4 x5 x6) (k0_pay4 x7) x8 (ix2 p q)
      = rel (fun d => x0 (ix2 p d)) (fun d => x1 (ix2 q d)) (fun d h => x2 (ix2 d h)) (fun d h => x3 (ix2 d h))
          (fun h => x4 (ix2 (0 : Fin 1) h)) (fun h k => x5 (ix2 h k)) (fun k => x6 (ix2 (0 : Fin 1) k))
          (fun k => x7 (ix2 (0 : Fin 1) k)) (x8 (ix2 (0 : Fin 1) (0 : Fin 1))) := by
  unfold k0_pay2
  exact (truncf_apply (k0_pay1 (k0_pay3 x0 x1 x2 x3 x4 x5 x6) (k0_pay4 x7) x8) bitsLt_bf16_f32 (ix2 p q)).trans
    (relBlock_apply x0 x1 x2 x3 x4 x5 x6 x7 x8 p q)

/-! ## The product kernel's payload -/

/-- Entry `(p, q)` of the stored block: the logistic function of the product's entry. -/
theorem pay_product (x0 : Vec Ideal S256x1024 .bf16) (x1 : Vec Ideal S1024x256 .bf16) :
    k2_pay1 x0 x1 = fun i => Ideal.logistic (prod x0 x1 i) := by
  unfold k2_pay1
  simp only [shapeCast_self]
  funext i
  exact congrArg Ideal.logistic (congrFun (matmul_zero_eq_prod rtc_1024 none x0 x1) i)

/-- A block of the product kernel read in the whole matrices: if row `p` of the first block is row `l` of the first matrix
    and column `q` of the second block is column `r` of the second, the stored entry `(p, q)` is the logistic of entry
    `(l, r)` of the whole product. -/
theorem product_block (x0 : Vec Ideal S256x1024 .bf16) (x1 : Vec Ideal S1024x256 .bf16)
    (B0 B1 : (⟨2, ![1024, 1024]⟩ : Shape).Idx → EReal) (p q : Fin 256) (l r : Fin 1024)
    (h0 : ∀ k : Fin 1024, x0 (ix2 p k) = B0 (ix2 l k)) (h1 : ∀ k : Fin 1024, x1 (ix2 k q) = B1 (ix2 k r)) :
    k2_pay1 x0 x1 (ix2 p q) = Ideal.logistic (prod B0 B1 (ix2 l r)) := by
  rw [pay_product]
  refine congrArg Ideal.logistic ?_
  unfold prod
  exact Finset.sum_congr rfl fun k _ => congrArg₂ (· * ·) (h0 k) (h1 k)

end Cert.KernelIdeal.Block

end
-- ==== Proof.KerValue.lean ====
/-
  From blocks to arrays: what each kernel region leaves in its output arrays, as whole-array functions of the arrays the
  region finds on entry.

  A pair kernel's grid is 8 × 8. At point `(i, j)` it reads rows `128 i …` of the left features, rows `128 j …` of the right
  features and the whole weights, and writes block `(i, j)` of both outputs; entry `(p, q)` of the block is the relation
  value of left row `128 i + p` and right row `128 j + q`, which is entry `(128 i + p, 128 j + q)` of ONE function of the
  entry arrays (`relArr`). The 64 blocks tile the 1024 × 1024 arrays, so after the region both output arrays are that
  function. The product kernel's grid is 4 × 4 with 256 × 256 output blocks, each the logistic function of the product of
  256 whole rows of the first matrix and 256 whole columns of the second: after it the output is `prodArr`.
-/
import proofs.«171790_j45741401702576_2_alg».proof.Proof.Gen.KernelIdeal.Frame
import proofs.«171790_j45741401702576_2_alg».proof.Proof.KerBlock

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.PairSpec Cert.MatProd
open scoped BigOperators

theorem hz : (![0, 0] : Fin 2 → Nat) = fun _ => 0 := funext fun a => by fin_cases a <;> rfl

/-- The relation value of left row `l` and right row `r` from the nine arrays a pair kernel's region finds. -/
def relAt (A0 A1 : S1024x5.Idx → EReal) (A2 A3 : S5x128.Idx → EReal) (A4 : S1x128.Idx → EReal) (A5 : S128x64.Idx → EReal)
    (A6 A7 : S1x64.Idx → EReal) (A8 : S1x1.Idx → EReal) (l r : Fin 1024) : EReal :=
  rel (fun d : Fin 5 => A0 (ix2 l d)) (fun d : Fin 5 => A1 (ix2 r d)) (fun (d : Fin 5) (h : Fin 128) => A2 (ix2 d h))
    (fun (d : Fin 5) (h : Fin 128) => A3 (ix2 d h)) (fun h : Fin 128 => A4 (ix2 (0 : Fin 1) h)) (fun (h : Fin 128) (k : Fin 64) => A5 (ix2 h k))
    (fun k : Fin 64 => A6 (ix2 (0 : Fin 1) k)) (fun k : Fin 64 => A7 (ix2 (0 : Fin 1) k)) (A8 (ix2 (0 : Fin 1) (0 : Fin 1)))

/-- The whole relation array. -/
def relArr (A0 A1 : S1024x5.Idx → EReal) (A2 A3 : S5x128.Idx → EReal) (A4 : S1x128.Idx → EReal) (A5 : S128x64.Idx → EReal)
    (A6 A7 : S1x64.Idx → EReal) (A8 : S1x1.Idx → EReal) : S1024x1024.Idx → EReal :=
  fun i => relAt A0 A1 A2 A3 A4 A5 A6 A7 A8 ⟨(i 0).val, idx2_lt0 i⟩ ⟨(i 1).val, idx2_lt1 i⟩

theorem relArr_ix2 (A0 A1 : S1024x5.Idx → EReal) (A2 A3 : S5x128.Idx → EReal) (A4 : S1x128.Idx → EReal) (A5 : S128x64.Idx → EReal)
    (A6 A7 : S1x64.Idx → EReal) (A8 : S1x1.Idx → EReal) (l r : Fin 1024) :
    relArr A0 A1 A2 A3 A4 A5 A6 A7 A8 (ix2 l r) = relAt A0 A1 A2 A3 A4 A5 A6 A7 A8 l r := rfl

/-- The logistic function of the product of two matrices. -/
def prodArr (B0 B1 : S1024x1024.Idx → EReal) : S1024x1024.Idx → EReal := fun i => Ideal.logistic (prod B0 B1 i)

variable (V : (c : Dev nD) → (b : Ref sig .tc) → Buf (Elt Ideal) ((c : Thread nD τ).loc b))

/-! ## Region 0: the first pair kernel -/

/-- The printed index maps, decided over the 8 × 8 grid: the left rows move with the output's block row, the right rows
    with its block column, the weights stay, and both outputs move together. -/
theorem idx_facts0 : ∀ t : Fin cfg0.N, win0_0.index t (0 : Fin 2) = win0_9.index t (0 : Fin 2)
    ∧ win0_0.index t (1 : Fin 2) = 0
    ∧ win0_1.index t (0 : Fin 2) = win0_9.index t (1 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_10.index t (0 : Fin 2) = win0_9.index t (0 : Fin 2)
    ∧ win0_10.index t (1 : Fin 2) = win0_9.index t (1 : Fin 2)
    ∧ win0_9.index t (0 : Fin 2) ≤ 7
    ∧ win0_9.index t (1 : Fin 2) ≤ 7 :=
  (by decide +kernel : ∀ t : Fin grid0.N, _)

theorem idx_onto0_9 : ∀ (q0 q1 : Fin 8), ∃ t : Fin cfg0.N, win0_9.index t = ![q0.val, q1.val] :=
  (by decide +kernel : ∀ (q0 q1 : Fin 8), ∃ t : Fin grid0.N, win0_9.index t = ![q0.val, q1.val])

theorem idx_onto0_10 : ∀ (q0 q1 : Fin 8), ∃ t : Fin cfg0.N, win0_10.index t = ![q0.val, q1.val] :=
  (by decide +kernel : ∀ (q0 q1 : Fin 8), ∃ t : Fin grid0.N, win0_10.index t = ![q0.val, q1.val])

/-- What point `t` writes back through window 9 is block `t` of the relation array of the region's entry arrays. -/
theorem flushed0_9_eq (c : Dev nD) (t : Fin cfg0.N) :
    (dat0 (F := Ideal) V c).flushed 9 t = ((cfg0.win 9).blk t).view.read (Elt Ideal) (relArr (V c main_arg0) (V c main_arg1) (V c main_v0) (V c main_v1) (V c main_v2) (V c main_arg5) (V c main_v3) (V c main_v4) (V c main_v5)) := by
  show (cfg0.win 9).cut (grid0.coords t) ((dat0 (F := Ideal) V c).after 9 t) = _
  rw [after0_9]
  unfold out0_9
  rw [View.canon_unit_zero hz]
  simp only [View.ld_unit_zero (S := S128x5) hz, View.ld_unit_zero (S := S5x128) hz, View.ld_unit_zero (S := S1x128) hz,
    View.ld_unit_zero (S := S128x64) hz, View.ld_unit_zero (S := S1x64) hz, View.ld_unit_zero (S := S1x1) hz]
  obtain ⟨e0a, e0b, e1a, e1b, e2a, e2b, e3a, e3b, e4a, e4b, e5a, e5b, e6a, e6b, e7a, e7b, e8a, e8b, e10a, e10b, hb0, hb1⟩ := idx_facts0 t
  refine Cert.PairLayers.funext_ix2 (n0 := 128) (n1 := 128) fun p q => ?_
  show k0_pay1 (k0_pay3 (iblk0 V c 0 t) (iblk0 V c 1 t) (iblk0 V c 2 t) (iblk0 V c 3 t) (iblk0 V c 4 t) (iblk0 V c 5 t) (iblk0 V c 6 t)) (k0_pay4 (iblk0 V c 7 t)) (iblk0 V c 8 t) (ix2 p q)
        = relArr (V c main_arg0) (V c main_arg1) (V c main_v0) (V c main_v1) (V c main_v2) (V c main_arg5) (V c main_v3) (V c main_v4) (V c main_v5) (((cfg0.win 9).blk t).view.emb (ix2 p q))
  have hp : p.val < 128 := p.isLt
  have hq : q.val < 128 := q.isLt
  refine (Cert.KernelIdeal.Block.relBlock_apply (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  show _ = relAt (V c main_arg0) (V c main_arg1) (V c main_v0) (V c main_v1) (V c main_v2) (V c main_arg5) (V c main_v3) (V c main_v4) (V c main_v5)
      (⟨win0_9.index t (0 : Fin 2) * 128 + 1 * p.val, by omega⟩ : Fin 1024)
      (⟨win0_9.index t (1 : Fin 2) * 128 + 1 * q.val, by omega⟩ : Fin 1024)
  exact rel_congr
    (fun d => (congrArg (V c main_arg0) (funext fun a => Fin.ext (by
      match a with
      | ⟨0, _⟩ => show win0_0.index t (0 : Fin 2) * 128 + 1 * p.val = win0_9.index t (0 : Fin 2) * 128 + 1 * p.val; omega
      | ⟨1, _⟩ => show win0_0.index t (1 : Fin 2) * 5 + 1 * d.val = d.val; omega))))
    (fun d => (congrArg (V c main_arg1) (funext fun a => Fin.ext (by
      match a with
      | ⟨0, _⟩ => show win0_1.index t (0 : Fin 2) * 128 + 1 * q.val = win0_9.index t (1 : Fin 2) * 128 + 1 * q.val; omega
      | ⟨1, _⟩ => show win0_1.index t (1 : Fin 2) * 5 + 1 * d.val = d.val; omega))))
    (fun d h => (congrArg (V c main_v0) (funext fun a => Fin.ext (by
      match a with
      | ⟨0, _⟩ => show win0_2.index t (0 : Fin 2) * 5 + 1 * d.val = d.val; omega
      | ⟨1, _⟩ => show win0_2.index t (1 : Fin 2) * 128 + 1 * h.val = h.val; omega))))
    (fun d h => (congrArg (V c main_v1) (funext fun a => Fin.ext (by
      match a with
      | ⟨0, _⟩ => show win0_3.index t (0 : Fin 2) * 5 + 1 * d.val = d.val; omega
      | ⟨1, _⟩ => show win0_3.index t (1 : Fin 2) * 128 + 1 * h.val = h.val; omega))))
    (fun h => (congrArg (V c main_v2) (funext fun a => Fin.ext (by
      match a with
      | ⟨0, _⟩ => show win0_4.index t (0 : Fin 2) * 1 + 1 * (0 : Fin 1).val = (0 : Fin 1).val; omega
      | ⟨1, _⟩ => show win0_4.index t (1 : Fin 2) * 128 + 1 * h.val = h.val; omega))))
    (fun h k => (congrArg (V c main_arg5) (funext fun a => Fin.ext (by
      match a with
      | ⟨0, _⟩ => show win0_5.index t (0 : Fin 2) * 128 + 1 * h.val = h.val; omega
      | ⟨1, _⟩ => show win0_5.index t (1 : Fin 2) * 64 + 1 * k.val = k.val; omega))))
    (fun k => (congrArg (V c main_v3) (funext fun a => Fin.ext (by
      match a with
      | ⟨0, _⟩ => show win0_6.index t (0 : Fin 2) * 1 + 1 * (0 : Fin 1).val = (0 : Fin 1).val; omega
      | ⟨1, _⟩ => show win0_6.index t (1 : Fin 2) * 64 + 1 * k.val = k.val; omega))))
    (fun k => (congrArg (V c main_v4) (funext fun a => Fin.ext (by
      match a with
      | ⟨0, _⟩ => show win0_7.index t (0 : Fin 2) * 1 + 1 * (0 : Fin 1).val = (0 : Fin 1).val; omega
      | ⟨1, _⟩ => show win0_7.index t (1 : Fin 2) * 64 + 1 * k.val = k.val; omega))))
    (congrArg (V c main_v5) (funext fun a => Fin.ext (by
      match a with
      | ⟨0, _⟩ => show win0_8.index t (0 : Fin 2) * 1 + 1 * (0 : Fin 1).val = (0 : Fin 1).val; omega
      | ⟨1, _⟩ => show win0_8.index t (1 : Fin 2) * 1 + 1 * (0 : Fin 1).val = (0 : Fin 1).val; omega)))

/-- What point `t` writes back through window 10 is block `t` of the relation array of the region's entry arrays. -/
theorem flushed0_10_eq (c : Dev nD) (t : Fin cfg0.N) :
    (dat0 (F := Ideal) V c).flushed 10 t = ((cfg0.win 10).blk t).view.read (Elt Ideal) (relArr (V c main_arg0) (V c main_arg1) (V c main_v0) (V c main_v1) (V c main_v2) (V c main_arg5) (V c main_v3) (V c main_v4) (V c main_v5)) := by
  show (cfg0.win 10).cut (grid0.coords t) ((dat0 (F := Ideal) V c).after 10 t) = _
  rw [after0_10]
  unfold out0_10
  rw [View.canon_unit_zero hz]
  simp only [View.ld_unit_zero (S := S128x5) hz, View.ld_unit_zero (S := S5x128) hz, View.ld_unit_zero (S := S1x128) hz,
    View.ld_unit_zero (S := S128x64) hz, View.ld_unit_zero (S := S1x64) hz, View.ld_unit_zero (S := S1x1) hz]
  obtain ⟨e0a, e0b, e1a, e1b, e2a, e2b, e3a, e3b, e4a, e4b, e5a, e5b, e6a, e6b, e7a, e7b, e8a, e8b, e10a, e10b, hb0, hb1⟩ := idx_facts0 t
  refine Cert.PairLayers.funext_ix2 (n0 := 128) (n1 := 128) fun p q => ?_
  show k0_pay2 (k0_pay3 (iblk0 V c 0 t) (iblk0 V c 1 t) (iblk0 V c 2 t) (iblk0 V c 3 t) (iblk0 V c 4 t) (iblk0 V c 5 t) (iblk0 V c 6 t)) (k0_pay4 (iblk0 V c 7 t)) (iblk0 V c 8 t) (ix2 p q)
        = relArr (V c main_arg0) (V c main_arg1) (V c main_v0) (V c main_v1) (V c main_v2) (V c main_arg5) (V c main_v3) (V c main_v4) (V c main_v5) (((cfg0.win 10).blk t).view.emb (ix2 p q))
  have hp : p.val < 128 := p.isLt
  have hq : q.val < 128 := q.isLt
  refine (Cert.KernelIdeal.Block.relBlock_narrow_apply (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  show _ = relAt (V c main_arg0) (V c main_arg1) (V c main_v0) (V c main_v1) (V c main_v2) (V c main_arg5) (V c main_v3) (V c main_v4) (V c main_v5)
      (⟨win0_10.index t (0 : Fin 2) * 128 + 1 * p.val, by omega⟩ : Fin 1024)
      (⟨win0_10.index t (1 : Fin 2) * 128 + 1 * q.val, by omega⟩ : Fin 1024)
  exact rel_congr
    (fun d => (congrArg (V c main_arg0) (funext fun a => Fin.ext (by
      match a with
      | ⟨0, _⟩ => show win0_0.index t (0 : Fin 2) * 128 + 1 * p.val = win0_10.index t (0 : Fin 2) * 128 + 1 * p.val; omega
      | ⟨1, _⟩ => show win0_0.index t (1 : Fin 2) * 5 + 1 * d.val = d.val; omega))))
    (fun d => (congrArg (V c main_arg1) (funext fun a => Fin.ext (by
      match a with
      | ⟨0, _⟩ => show win0_1.index t (0 : Fin 2) * 128 + 1 * q.val = win0_10.index t (1 : Fin 2) * 128 + 1 * q.val; omega
      | ⟨1, _⟩ => show win0_1.index t (1 : Fin 2) * 5 + 1 * d.val = d.val; omega))))
    (fun d h => (congrArg (V c main_v0) (funext fun a => Fin.ext (by
      match a with
      | ⟨0, _⟩ => show win0_2.index t (0 : Fin 2) * 5 + 1 * d.val = d.val; omega
      | ⟨1, _⟩ => show win0_2.index t (1 : Fin 2) * 128 + 1 * h.val = h.val; omega))))
    (fun d h => (congrArg (V c main_v1) (funext fun a => Fin.ext (by
      match a with
      | ⟨0, _⟩ => show win0_3.index t (0 : Fin 2) * 5 + 1 * d.val = d.val; omega
      | ⟨1, _⟩ => show win0_3.index t (1 : Fin 2) * 128 + 1 * h.val = h.val; omega))))
    (fun h => (congrArg (V c main_v2) (funext fun a => Fin.ext (by
      match a with
      | ⟨0, _⟩ => show win0_4.index t (0 : Fin 2) * 1 + 1 * (0 : Fin 1).val = (0 : Fin 1).val; omega
      | ⟨1, _⟩ => show win0_4.index t (1 : Fin 2) * 128 + 1 * h.val = h.val; omega))))
    (fun h k => (congrArg (V c main_arg5) (funext fun a => Fin.ext (by
      match a with
      | ⟨0, _⟩ => show win0_5.index t (0 : Fin 2) * 128 + 1 * h.val = h.val; omega
      | ⟨1, _⟩ => show win0_5.index t (1 : Fin 2) * 64 + 1 * k.val = k.val; omega))))
    (fun k => (congrArg (V c main_v3) (funext fun a => Fin.ext (by
      match a with
      | ⟨0, _⟩ => show win0_6.index t (0 : Fin 2) * 1 + 1 * (0 : Fin 1).val = (0 : Fin 1).val; omega
      | ⟨1, _⟩ => show win0_6.index t (1 : Fin 2) * 64 + 1 * k.val = k.val; omega))))
    (fun k => (congrArg (V c main_v4) (funext fun a => Fin.ext (by
      match a with
      | ⟨0, _⟩ => show win0_7.index t (0 : Fin 2) * 1 + 1 * (0 : Fin 1).val = (0 : Fin 1).val; omega
      | ⟨1, _⟩ => show win0_7.index t (1 : Fin 2) * 64 + 1 * k.val = k.val; omega))))
    (congrArg (V c main_v5) (funext fun a => Fin.ext (by
      match a with
      | ⟨0, _⟩ => show win0_8.index t (0 : Fin 2) * 1 + 1 * (0 : Fin 1).val = (0 : Fin 1).val; omega
      | ⟨1, _⟩ => show win0_8.index t (1 : Fin 2) * 1 + 1 * (0 : Fin 1).val = (0 : Fin 1).val; omega)))

theorem mem_blk0_9 (t : Fin cfg0.N) (i : S1024x1024.Idx) :
    i ∈ ((cfg0.win 9).blk t).view.set ↔ ∀ a : Fin 2, win0_9.index t a * S128x128.size a ≤ (i a).val ∧ (i a).val < win0_9.index t a * S128x128.size a + S128x128.size a := by
  show i ∈ ((View.whole main_v6_0).slice (win0_9.rect t)).set ↔ _
  rw [View.set_slice_whole, Rect.mem_set_unit]
  exact Iff.rfl

/-- Every entry of the array is in some point's block: the point whose block row and column are the entry's
    coordinates divided by 128. -/
theorem covered0_9 (i : S1024x1024.Idx) :
    ∃ t : Fin cfg0.N, (cfg0.win 9).flush t = true ∧ i ∈ ((cfg0.win 9).blk t).view.set := by
  have hi0 : (i 0).val < 1024 := (i 0).isLt
  have hi1 : (i 1).val < 1024 := (i 1).isLt
  obtain ⟨t, ht⟩ := idx_onto0_9 ⟨(i 0).val / 128, by omega⟩ ⟨(i 1).val / 128, by omega⟩
  have q0 : win0_9.index t (0 : Fin 2) = (i 0).val / 128 := congrFun ht 0
  have q1 : win0_9.index t (1 : Fin 2) = (i 1).val / 128 := congrFun ht 1
  refine ⟨t, flush0_9 t, ?_⟩
  rw [mem_blk0_9]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 128 ≤ (i 1).val ∧ (i 1).val < win0_9.index t (1 : Fin 2) * 128 + 128; omega

/-- After the region, window 9's array is the relation array of the region's entry arrays. -/
theorem final0_9 (c : Dev nD) : (dat0 (F := Ideal) V c).arrAt 9 cfg0.N = relArr (V c main_arg0) (V c main_arg1) (V c main_v0) (V c main_v1) (V c main_v2) (V c main_arg5) (V c main_v3) (V c main_v4) (V c main_v5) :=
  (dat0 (F := Ideal) V c).arrAt_eq_of_cover 9 _ (fun t _ => flushed0_9_eq V c t) (covered0_9)

theorem mem_blk0_10 (t : Fin cfg0.N) (i : S1024x1024.Idx) :
    i ∈ ((cfg0.win 10).blk t).view.set ↔ ∀ a : Fin 2, win0_10.index t a * S128x128.size a ≤ (i a).val ∧ (i a).val < win0_10.index t a * S128x128.size a + S128x128.size a := by
  show i ∈ ((View.whole main_v6_1).slice (win0_10.rect t)).set ↔ _
  rw [View.set_slice_whole, Rect.mem_set_unit]
  exact Iff.rfl

/-- Every entry of the array is in some point's block: the point whose block row and column are the entry's
    coordinates divided by 128. -/
theorem covered0_10 (i : S1024x1024.Idx) :
    ∃ t : Fin cfg0.N, (cfg0.win 10).flush t = true ∧ i ∈ ((cfg0.win 10).blk t).view.set := by
  have hi0 : (i 0).val < 1024 := (i 0).isLt
  have hi1 : (i 1).val < 1024 := (i 1).isLt
  obtain ⟨t, ht⟩ := idx_onto0_10 ⟨(i 0).val / 128, by omega⟩ ⟨(i 1).val / 128, by omega⟩
  have q0 : win0_10.index t (0 : Fin 2) = (i 0).val / 128 := congrFun ht 0
  have q1 : win0_10.index t (1 : Fin 2) = (i 1).val / 128 := congrFun ht 1
  refine ⟨t, flush0_10 t, ?_⟩
  rw [mem_blk0_10]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 128 ≤ (i 1).val ∧ (i 1).val < win0_10.index t (1 : Fin 2) * 128 + 128; omega

/-- After the region, window 10's array is the relation array of the region's entry arrays. -/
theorem final0_10 (c : Dev nD) : (dat0 (F := Ideal) V c).arrAt 10 cfg0.N = relArr (V c main_arg0) (V c main_arg1) (V c main_v0) (V c main_v1) (V c main_v2) (V c main_arg5) (V c main_v3) (V c main_v4) (V c main_v5) :=
  (dat0 (F := Ideal) V c).arrAt_eq_of_cover 10 _ (fun t _ => flushed0_10_eq V c t) (covered0_10)

/-! ## Region 1: the second pair kernel -/

/-- The printed index maps, decided over the 8 × 8 grid: the left rows move with the output's block row, the right rows
    with its block column, the weights stay, and both outputs move together. -/
theorem idx_facts1 : ∀ t : Fin cfg1.N, win1_0.index t (0 : Fin 2) = win1_9.index t (0 : Fin 2)
    ∧ win1_0.index t (1 : Fin 2) = 0
    ∧ win1_1.index t (0 : Fin 2) = win1_9.index t (1 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_10.index t (0 : Fin 2) = win1_9.index t (0 : Fin 2)
    ∧ win1_10.index t (1 : Fin 2) = win1_9.index t (1 : Fin 2)
    ∧ win1_9.index t (0 : Fin 2) ≤ 7
    ∧ win1_9.index t (1 : Fin 2) ≤ 7 :=
  (by decide +kernel : ∀ t : Fin grid1.N, _)

theorem idx_onto1_9 : ∀ (q0 q1 : Fin 8), ∃ t : Fin cfg1.N, win1_9.index t = ![q0.val, q1.val] :=
  (by decide +kernel : ∀ (q0 q1 : Fin 8), ∃ t : Fin grid1.N, win1_9.index t = ![q0.val, q1.val])

theorem idx_onto1_10 : ∀ (q0 q1 : Fin 8), ∃ t : Fin cfg1.N, win1_10.index t = ![q0.val, q1.val] :=
  (by decide +kernel : ∀ (q0 q1 : Fin 8), ∃ t : Fin grid1.N, win1_10.index t = ![q0.val, q1.val])

/-- What point `t` writes back through window 9 is block `t` of the relation array of the region's entry arrays. -/
theorem flushed1_9_eq (c : Dev nD) (t : Fin cfg1.N) :
    (dat1 (F := Ideal) V c).flushed 9 t = ((cfg1.win 9).blk t).view.read (Elt Ideal) (relArr (V c main_arg1) (V c main_arg2) (V c main_v7) (V c main_v8) (V c main_v9) (V c main_arg11) (V c main_v10) (V c main_v11) (V c main_v12)) := by
  show (cfg1.win 9).cut (grid1.coords t) ((dat1 (F := Ideal) V c).after 9 t) = _
  rw [after1_9]
  unfold out1_9
  rw [View.canon_unit_zero hz]
  simp only [View.ld_unit_zero (S := S128x5) hz, View.ld_unit_zero (S := S5x128) hz, View.ld_unit_zero (S := S1x128) hz,
    View.ld_unit_zero (S := S128x64) hz, View.ld_unit_zero (S := S1x64) hz, View.ld_unit_zero (S := S1x1) hz]
  rw [Cert.KernelIdeal.Block.pay1_second, Cert.KernelIdeal.Block.pay3_second, Cert.KernelIdeal.Block.pay4_second]
  obtain ⟨e0a, e0b, e1a, e1b, e2a, e2b, e3a, e3b, e4a, e4b, e5a, e5b, e6a, e6b, e7a, e7b, e8a, e8b, e10a, e10b, hb0, hb1⟩ := idx_facts1 t
  refine Cert.PairLayers.funext_ix2 (n0 := 128) (n1 := 128) fun p q => ?_
  show k0_pay1 (k0_pay3 (iblk1 V c 0 t) (iblk1 V c 1 t) (iblk1 V c 2 t) (iblk1 V c 3 t) (iblk1 V c 4 t) (iblk1 V c 5 t) (iblk1 V c 6 t)) (k0_pay4 (iblk1 V c 7 t)) (iblk1 V c 8 t) (ix2 p q)
        = relArr (V c main_arg1) (V c main_arg2) (V c main_v7) (V c main_v8) (V c main_v9) (V c main_arg11) (V c main_v10) (V c main_v11) (V c main_v12) (((cfg1.win 9).blk t).view.emb (ix2 p q))
  have hp : p.val < 128 := p.isLt
  have hq : q.val < 128 := q.isLt
  refine (Cert.KernelIdeal.Block.relBlock_apply (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  show _ = relAt (V c main_arg1) (V c main_arg2) (V c main_v7) (V c main_v8) (V c main_v9) (V c main_arg11) (V c main_v10) (V c main_v11) (V c main_v12)
      (⟨win1_9.index t (0 : Fin 2) * 128 + 1 * p.val, by omega⟩ : Fin 1024)
      (⟨win1_9.index t (1 : Fin 2) * 128 + 1 * q.val, by omega⟩ : Fin 1024)
  exact rel_congr
    (fun d => (congrArg (V c main_arg1) (funext fun a => Fin.ext (by
      match a with
      | ⟨0, _⟩ => show win1_0.index t (0 : Fin 2) * 128 + 1 * p.val = win1_9.index t (0 : Fin 2) * 128 + 1 * p.val; omega
      | ⟨1, _⟩ => show win1_0.index t (1 : Fin 2) * 5 + 1 * d.val = d.val; omega))))
    (fun d => (congrArg (V c main_arg2) (funext fun a => Fin.ext (by
      match a with
      | ⟨0, _⟩ => show win1_1.index t (0 : Fin 2) * 128 + 1 * q.val = win1_9.index t (1 : Fin 2) * 128 + 1 * q.val; omega
      | ⟨1, _⟩ => show win1_1.index t (1 : Fin 2) * 5 + 1 * d.val = d.val; omega))))
    (fun d h => (congrArg (V c main_v7) (funext fun a => Fin.ext (by
      match a with
      | ⟨0, _⟩ => show win1_2.index t (0 : Fin 2) * 5 + 1 * d.val = d.val; omega
      | ⟨1, _⟩ => show win1_2.index t (1 : Fin 2) * 128 + 1 * h.val = h.val; omega))))
    (fun d h => (congrArg (V c main_v8) (funext fun a => Fin.ext (by
      match a with
      | ⟨0, _⟩ => show win1_3.index t (0 : Fin 2) * 5 + 1 * d.val = d.val; omega
      | ⟨1, _⟩ => show win1_3.index t (1 : Fin 2) * 128 + 1 * h.val = h.val; omega))))
    (fun h => (congrArg (V c main_v9) (funext fun a => Fin.ext (by
      match a with
      | ⟨0, _⟩ => show win1_4.index t (0 : Fin 2) * 1 + 1 * (0 : Fin 1).val = (0 : Fin 1).val; omega
      | ⟨1, _⟩ => show win1_4.index t (1 : Fin 2) * 128 + 1 * h.val = h.val; omega))))
    (fun h k => (congrArg (V c main_arg11) (funext fun a => Fin.ext (by
      match a with
      | ⟨0, _⟩ => show win1_5.index t (0 : Fin 2) * 128 + 1 * h.val = h.val; omega
      | ⟨1, _⟩ => show win1_5.index t (1 : Fin 2) * 64 + 1 * k.val = k.val; omega))))
    (fun k => (congrArg (V c main_v10) (funext fun a => Fin.ext (by
      match a with
      | ⟨0, _⟩ => show win1_6.index t (0 : Fin 2) * 1 + 1 * (0 : Fin 1).val = (0 : Fin 1).val; omega
      | ⟨1, _⟩ => show win1_6.index t (1 : Fin 2) * 64 + 1 * k.val = k.val; omega))))
    (fun k => (congrArg (V c main_v11) (funext fun a => Fin.ext (by
      match a with
      | ⟨0, _⟩ => show win1_7.index t (0 : Fin 2) * 1 + 1 * (0 : Fin 1).val = (0 : Fin 1).val; omega
      | ⟨1, _⟩ => show win1_7.index t (1 : Fin 2) * 64 + 1 * k.val = k.val; omega))))
    (congrArg (V c main_v12) (funext fun a => Fin.ext (by
      match a with
      | ⟨0, _⟩ => show win1_8.index t (0 : Fin 2) * 1 + 1 * (0 : Fin 1).val = (0 : Fin 1).val; omega
      | ⟨1, _⟩ => show win1_8.index t (1 : Fin 2) * 1 + 1 * (0 : Fin 1).val = (0 : Fin 1).val; omega)))

/-- What point `t` writes back through window 10 is block `t` of the relation array of the region's entry arrays. -/
theorem flushed1_10_eq (c : Dev nD) (t : Fin cfg1.N) :
    (dat1 (F := Ideal) V c).flushed 10 t = ((cfg1.win 10).blk t).view.read (Elt Ideal) (relArr (V c main_arg1) (V c main_arg2) (V c main_v7) (V c main_v8) (V c main_v9) (V c main_arg11) (V c main_v10) (V c main_v11) (V c main_v12)) := by
  show (cfg1.win 10).cut (grid1.coords t) ((dat1 (F := Ideal) V c).after 10 t) = _
  rw [after1_10]
  unfold out1_10
  rw [View.canon_unit_zero hz]
  simp only [View.ld_unit_zero (S := S128x5) hz, View.ld_unit_zero (S := S5x128) hz, View.ld_unit_zero (S := S1x128) hz,
    View.ld_unit_zero (S := S128x64) hz, View.ld_unit_zero (S := S1x64) hz, View.ld_unit_zero (S := S1x1) hz]
  rw [Cert.KernelIdeal.Block.pay2_second, Cert.KernelIdeal.Block.pay3_second, Cert.KernelIdeal.Block.pay4_second]
  obtain ⟨e0a, e0b, e1a, e1b, e2a, e2b, e3a, e3b, e4a, e4b, e5a, e5b, e6a, e6b, e7a, e7b, e8a, e8b, e10a, e10b, hb0, hb1⟩ := idx_facts1 t
  refine Cert.PairLayers.funext_ix2 (n0 := 128) (n1 := 128) fun p q => ?_
  show k0_pay2 (k0_pay3 (iblk1 V c 0 t) (iblk1 V c 1 t) (iblk1 V c 2 t) (iblk1 V c 3 t) (iblk1 V c 4 t) (iblk1 V c 5 t) (iblk1 V c 6 t)) (k0_pay4 (iblk1 V c 7 t)) (iblk1 V c 8 t) (ix2 p q)
        = relArr (V c main_arg1) (V c main_arg2) (V c main_v7) (V c main_v8) (V c main_v9) (V c main_arg11) (V c main_v10) (V c main_v11) (V c main_v12) (((cfg1.win 10).blk t).view.emb (ix2 p q))
  have hp : p.val < 128 := p.isLt
  have hq : q.val < 128 := q.isLt
  refine (Cert.KernelIdeal.Block.relBlock_narrow_apply (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  show _ = relAt (V c main_arg1) (V c main_arg2) (V c main_v7) (V c main_v8) (V c main_v9) (V c main_arg11) (V c main_v10) (V c main_v11) (V c main_v12)
      (⟨win1_10.index t (0 : Fin 2) * 128 + 1 * p.val, by omega⟩ : Fin 1024)
      (⟨win1_10.index t (1 : Fin 2) * 128 + 1 * q.val, by omega⟩ : Fin 1024)
  exact rel_congr
    (fun d => (congrArg (V c main_arg1) (funext fun a => Fin.ext (by
      match a with
      | ⟨0, _⟩ => show win1_0.index t (0 : Fin 2) * 128 + 1 * p.val = win1_10.index t (0 : Fin 2) * 128 + 1 * p.val; omega
      | ⟨1, _⟩ => show win1_0.index t (1 : Fin 2) * 5 + 1 * d.val = d.val; omega))))
    (fun d => (congrArg (V c main_arg2) (funext fun a => Fin.ext (by
      match a with
      | ⟨0, _⟩ => show win1_1.index t (0 : Fin 2) * 128 + 1 * q.val = win1_10.index t (1 : Fin 2) * 128 + 1 * q.val; omega
      | ⟨1, _⟩ => show win1_1.index t (1 : Fin 2) * 5 + 1 * d.val = d.val; omega))))
    (fun d h => (congrArg (V c main_v7) (funext fun a => Fin.ext (by
      match a with
      | ⟨0, _⟩ => show win1_2.index t (0 : Fin 2) * 5 + 1 * d.val = d.val; omega
      | ⟨1, _⟩ => show win1_2.index t (1 : Fin 2) * 128 + 1 * h.val = h.val; omega))))
    (fun d h => (congrArg (V c main_v8) (funext fun a => Fin.ext (by
      match a with
      | ⟨0, _⟩ => show win1_3.index t (0 : Fin 2) * 5 + 1 * d.val = d.val; omega
      | ⟨1, _⟩ => show win1_3.index t (1 : Fin 2) * 128 + 1 * h.val = h.val; omega))))
    (fun h => (congrArg (V c main_v9) (funext fun a => Fin.ext (by
      match a with
      | ⟨0, _⟩ => show win1_4.index t (0 : Fin 2) * 1 + 1 * (0 : Fin 1).val = (0 : Fin 1).val; omega
      | ⟨1, _⟩ => show win1_4.index t (1 : Fin 2) * 128 + 1 * h.val = h.val; omega))))
    (fun h k => (congrArg (V c main_arg11) (funext fun a => Fin.ext (by
      match a with
      | ⟨0, _⟩ => show win1_5.index t (0 : Fin 2) * 128 + 1 * h.val = h.val; omega
      | ⟨1, _⟩ => show win1_5.index t (1 : Fin 2) * 64 + 1 * k.val = k.val; omega))))
    (fun k => (congrArg (V c main_v10) (funext fun a => Fin.ext (by
      match a with
      | ⟨0, _⟩ => show win1_6.index t (0 : Fin 2) * 1 + 1 * (0 : Fin 1).val = (0 : Fin 1).val; omega
      | ⟨1, _⟩ => show win1_6.index t (1 : Fin 2) * 64 + 1 * k.val = k.val; omega))))
    (fun k => (congrArg (V c main_v11) (funext fun a => Fin.ext (by
      match a with
      | ⟨0, _⟩ => show win1_7.index t (0 : Fin 2) * 1 + 1 * (0 : Fin 1).val = (0 : Fin 1).val; omega
      | ⟨1, _⟩ => show win1_7.index t (1 : Fin 2) * 64 + 1 * k.val = k.val; omega))))
    (congrArg (V c main_v12) (funext fun a => Fin.ext (by
      match a with
      | ⟨0, _⟩ => show win1_8.index t (0 : Fin 2) * 1 + 1 * (0 : Fin 1).val = (0 : Fin 1).val; omega
      | ⟨1, _⟩ => show win1_8.index t (1 : Fin 2) * 1 + 1 * (0 : Fin 1).val = (0 : Fin 1).val; omega)))

theorem mem_blk1_9 (t : Fin cfg1.N) (i : S1024x1024.Idx) :
    i ∈ ((cfg1.win 9).blk t).view.set ↔ ∀ a : Fin 2, win1_9.index t a * S128x128.size a ≤ (i a).val ∧ (i a).val < win1_9.index t a * S128x128.size a + S128x128.size a := by
  show i ∈ ((View.whole main_v13_0).slice (win1_9.rect t)).set ↔ _
  rw [View.set_slice_whole, Rect.mem_set_unit]
  exact Iff.rfl

/-- Every entry of the array is in some point's block: the point whose block row and column are the entry's
    coordinates divided by 128. -/
theorem covered1_9 (i : S1024x1024.Idx) :
    ∃ t : Fin cfg1.N, (cfg1.win 9).flush t = true ∧ i ∈ ((cfg1.win 9).blk t).view.set := by
  have hi0 : (i 0).val < 1024 := (i 0).isLt
  have hi1 : (i 1).val < 1024 := (i 1).isLt
  obtain ⟨t, ht⟩ := idx_onto1_9 ⟨(i 0).val / 128, by omega⟩ ⟨(i 1).val / 128, by omega⟩
  have q0 : win1_9.index t (0 : Fin 2) = (i 0).val / 128 := congrFun ht 0
  have q1 : win1_9.index t (1 : Fin 2) = (i 1).val / 128 := congrFun ht 1
  refine ⟨t, flush1_9 t, ?_⟩
  rw [mem_blk1_9]
  intro a
  match a with
  | ⟨0, _⟩ => show win1_9.index t (0 : Fin 2) * 128 ≤ (i 0).val ∧ (i 0).val < win1_9.index t (0 : Fin 2) * 128 + 128; omega
  | ⟨1, _⟩ => show win1_9.index t (1 : Fin 2) * 128 ≤ (i 1).val ∧ (i 1).val < win1_9.index t (1 : Fin 2) * 128 + 128; omega

/-- After the region, window 9's array is the relation array of the region's entry arrays. -/
theorem final1_9 (c : Dev nD) : (dat1 (F := Ideal) V c).arrAt 9 cfg1.N = relArr (V c main_arg1) (V c main_arg2) (V c main_v7) (V c main_v8) (V c main_v9) (V c main_arg11) (V c main_v10) (V c main_v11) (V c main_v12) :=
  (dat1 (F := Ideal) V c).arrAt_eq_of_cover 9 _ (fun t _ => flushed1_9_eq V c t) (covered1_9)

theorem mem_blk1_10 (t : Fin cfg1.N) (i : S1024x1024.Idx) :
    i ∈ ((cfg1.win 10).blk t).view.set ↔ ∀ a : Fin 2, win1_10.index t a * S128x128.size a ≤ (i a).val ∧ (i a).val < win1_10.index t a * S128x128.size a + S128x128.size a := by
  show i ∈ ((View.whole main_v13_1).slice (win1_10.rect t)).set ↔ _
  rw [View.set_slice_whole, Rect.mem_set_unit]
  exact Iff.rfl

/-- Every entry of the array is in some point's block: the point whose block row and column are the entry's
    coordinates divided by 128. -/
theorem covered1_10 (i : S1024x1024.Idx) :
    ∃ t : Fin cfg1.N, (cfg1.win 10).flush t = true ∧ i ∈ ((cfg1.win 10).blk t).view.set := by
  have hi0 : (i 0).val < 1024 := (i 0).isLt
  have hi1 : (i 1).val < 1024 := (i 1).isLt
  obtain ⟨t, ht⟩ := idx_onto1_10 ⟨(i 0).val / 128, by omega⟩ ⟨(i 1).val / 128, by omega⟩
  have q0 : win1_10.index t (0 : Fin 2) = (i 0).val / 128 := congrFun ht 0
  have q1 : win1_10.index t (1 : Fin 2) = (i 1).val / 128 := congrFun ht 1
  refine ⟨t, flush1_10 t, ?_⟩
  rw [mem_blk1_10]
  intro a
  match a with
  | ⟨0, _⟩ => show win1_10.index t (0 : Fin 2) * 128 ≤ (i 0).val ∧ (i 0).val < win1_10.index t (0 : Fin 2) * 128 + 128; omega
  | ⟨1, _⟩ => show win1_10.index t (1 : Fin 2) * 128 ≤ (i 1).val ∧ (i 1).val < win1_10.index t (1 : Fin 2) * 128 + 128; omega

/-- After the region, window 10's array is the relation array of the region's entry arrays. -/
theorem final1_10 (c : Dev nD) : (dat1 (F := Ideal) V c).arrAt 10 cfg1.N = relArr (V c main_arg1) (V c main_arg2) (V c main_v7) (V c main_v8) (V c main_v9) (V c main_arg11) (V c main_v10) (V c main_v11) (V c main_v12) :=
  (dat1 (F := Ideal) V c).arrAt_eq_of_cover 10 _ (fun t _ => flushed1_10_eq V c t) (covered1_10)

/-! ## Region 2: the product kernel -/

/-- The printed index maps, decided over the 4 × 4 grid: the first matrix's rows move with the output's block row, the
    second's columns with its block column. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 3
    ∧ win2_2.index t (1 : Fin 2) ≤ 3 :=
  (by decide +kernel : ∀ t : Fin grid2.N, _)

theorem idx_onto2 : ∀ (q0 q1 : Fin 4), ∃ t : Fin cfg2.N, win2_2.index t = ![q0.val, q1.val] :=
  (by decide +kernel : ∀ (q0 q1 : Fin 4), ∃ t : Fin grid2.N, win2_2.index t = ![q0.val, q1.val])

/-- What point `t` writes back is block `t` of the logistic of the product of the two matrices the region finds. -/
theorem flushed2_2_eq (c : Dev nD) (t : Fin cfg2.N) :
    (dat2 (F := Ideal) V c).flushed 2 t = ((cfg2.win 2).blk t).view.read (Elt Ideal) (prodArr (V c main_v6_1) (V c main_v13_1)) := by
  show (cfg2.win 2).cut (grid2.coords t) ((dat2 (F := Ideal) V c).after 2 t) = _
  rw [after2_2]
  unfold out2_2
  rw [View.canon_unit_zero hz]
  simp only [View.ld_unit_zero (S := S256x1024) hz, View.ld_unit_zero (S := S1024x256) hz]
  obtain ⟨e0a, e0b, e1a, e1b, hb0, hb1⟩ := idx_facts2 t
  refine Cert.PairLayers.funext_ix2 (n0 := 256) (n1 := 256) fun p q => ?_
  show k2_pay1 (iblk2 V c 0 t) (iblk2 V c 1 t) (ix2 p q)
        = prodArr (V c main_v6_1) (V c main_v13_1) (((cfg2.win 2).blk t).view.emb (ix2 p q))
  have hp : p.val < 256 := p.isLt
  have hq : q.val < 256 := q.isLt
  refine (Cert.KernelIdeal.Block.product_block (iblk2 V c 0 t) (iblk2 V c 1 t) (V c main_v6_1) (V c main_v13_1) p q
    (⟨win2_2.index t (0 : Fin 2) * 256 + 1 * p.val, by omega⟩ : Fin 1024)
    (⟨win2_2.index t (1 : Fin 2) * 256 + 1 * q.val, by omega⟩ : Fin 1024) (fun k => ?_) (fun k => ?_)).trans ?_
  · exact congrArg (V c main_v6_1) (funext fun a => Fin.ext (by
      match a with
      | ⟨0, _⟩ => show win2_0.index t (0 : Fin 2) * 256 + 1 * p.val = win2_2.index t (0 : Fin 2) * 256 + 1 * p.val; omega
      | ⟨1, _⟩ => show win2_0.index t (1 : Fin 2) * 1024 + 1 * k.val = k.val; omega))
  · exact congrArg (V c main_v13_1) (funext fun a => Fin.ext (by
      match a with
      | ⟨0, _⟩ => show win2_1.index t (0 : Fin 2) * 1024 + 1 * k.val = k.val; omega
      | ⟨1, _⟩ => show win2_1.index t (1 : Fin 2) * 256 + 1 * q.val = win2_2.index t (1 : Fin 2) * 256 + 1 * q.val; omega))
  · exact congrArg (prodArr (V c main_v6_1) (V c main_v13_1)) (funext fun a => Fin.ext (by
      match a with
      | ⟨0, _⟩ => rfl
      | ⟨1, _⟩ => rfl))

theorem mem_blk2_2 (t : Fin cfg2.N) (i : S1024x1024.Idx) :
    i ∈ ((cfg2.win 2).blk t).view.set ↔ ∀ a : Fin 2, win2_2.index t a * S256x256.size a ≤ (i a).val ∧ (i a).val < win2_2.index t a * S256x256.size a + S256x256.size a := by
  show i ∈ ((View.whole main_v14).slice (win2_2.rect t)).set ↔ _
  rw [View.set_slice_whole, Rect.mem_set_unit]
  exact Iff.rfl

theorem covered2_2 (i : S1024x1024.Idx) :
    ∃ t : Fin cfg2.N, (cfg2.win 2).flush t = true ∧ i ∈ ((cfg2.win 2).blk t).view.set := by
  have hi0 : (i 0).val < 1024 := (i 0).isLt
  have hi1 : (i 1).val < 1024 := (i 1).isLt
  obtain ⟨t, ht⟩ := idx_onto2 ⟨(i 0).val / 256, by omega⟩ ⟨(i 1).val / 256, by omega⟩
  have q0 : win2_2.index t (0 : Fin 2) = (i 0).val / 256 := congrFun ht 0
  have q1 : win2_2.index t (1 : Fin 2) = (i 1).val / 256 := congrFun ht 1
  refine ⟨t, flush2_2 t, ?_⟩
  rw [mem_blk2_2]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 256 ≤ (i 1).val ∧ (i 1).val < win2_2.index t (1 : Fin 2) * 256 + 256; omega

/-- After the region, the output array is the logistic of the product of the two matrices the region finds. -/
theorem final2_2 (c : Dev nD) : (dat2 (F := Ideal) V c).arrAt 2 cfg2.N = prodArr (V c main_v6_1) (V c main_v13_1) :=
  (dat2 (F := Ideal) V c).arrAt_eq_of_cover 2 _ (fun t _ => flushed2_2_eq V c t) (covered2_2)

end Cert.KernelIdeal.Arrays

end
-- ==== Proof.KerFold.lean ====
/-
  The kernel's three results, read off the fold through the program.

  The contents of the core's buffers at the six boundaries of the program are a fold from the launch memory. Walking it
  back from the last boundary: a host stretch leaves a buffer it does not write as it was and a buffer it writes at its
  operation's value; a kernel region leaves each of its output arrays at the whole-array function of the arrays it found
  on entry and every other buffer as it was. So the first pair kernel's outputs are the relation array of the first six
  weights and the first two feature arrays, the second's that of the other six weights and the last two feature arrays,
  and the last result is the reshape to one column of the logistic of the product of the two (the copies in the
  narrower float format, which the product kernel reads, hold the same extended reals).
-/
import proofs.«171790_j45741401702576_2_alg».proof.Proof.KernelRun
import proofs.«171790_j45741401702576_2_alg».proof.Proof.KerValue
import Idealize.ShloMosaic.Lib.StableHlo.Run

set_option maxRecDepth 16384

noncomputable section

namespace Cert.KernelIdeal.Fold

open Cert.KernelIdeal Cert.KernelIdeal.Gen Cert.KernelIdeal.Arrays
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- The first pair network's relation array, from the launch memory. -/
def rel0 (c : Dev nD) : S1024x1024.Idx → EReal := relArr (m ((c : Thread nD τ).loc main_arg0)) (m ((c : Thread nD τ).loc main_arg1)) (extractStridedSlice S5x128 ![0, 0] (m ((c : Thread nD τ).loc main_arg3)) slices_S10x128_S5x128_0_0) (extractStridedSlice S5x128 ![5, 0] (m ((c : Thread nD τ).loc main_arg3)) slices_S10x128_S5x128_5_0) (shapeCast S1x128 (m ((c : Thread nD τ).loc main_arg4)) shapeCasts_S128_S1x128) (m ((c : Thread nD τ).loc main_arg5)) (shapeCast S1x64 (m ((c : Thread nD τ).loc main_arg6)) shapeCasts_S64_S1x64) (shapeCast S1x64 (m ((c : Thread nD τ).loc main_arg7)) shapeCasts_S64x1_S1x64) (shapeCast S1x1 (m ((c : Thread nD τ).loc main_arg8)) shapeCasts_S1_S1x1)

/-- The second pair network's relation array, from the launch memory. -/
def rel1 (c : Dev nD) : S1024x1024.Idx → EReal := relArr (m ((c : Thread nD τ).loc main_arg1)) (m ((c : Thread nD τ).loc main_arg2)) (extractStridedSlice S5x128 ![0, 0] (m ((c : Thread nD τ).loc main_arg9)) slices_S10x128_S5x128_0_0) (extractStridedSlice S5x128 ![5, 0] (m ((c : Thread nD τ).loc main_arg9)) slices_S10x128_S5x128_5_0) (shapeCast S1x128 (m ((c : Thread nD τ).loc main_arg10)) shapeCasts_S128_S1x128) (m ((c : Thread nD τ).loc main_arg11)) (shapeCast S1x64 (m ((c : Thread nD τ).loc main_arg12)) shapeCasts_S64_S1x64) (shapeCast S1x64 (m ((c : Thread nD τ).loc main_arg13)) shapeCasts_S64x1_S1x64) (shapeCast S1x1 (m ((c : Thread nD τ).loc main_arg14)) shapeCasts_S1_S1x1)

/-! ## The first host stretch -/

theorem W1_main_arg0 (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results
theorem W1_main_arg1 (c : Dev nD) : W1 m ρ c (Proc.devRef .tc main_arg1) = (m ((c : Thread nD τ).loc main_arg1)) := by
  show StableHlo.after hostOps0 (W0 m ρ c) (Proc.devRef .tc main_arg1) = _
  dsimp only [hostOps0]
  after_results
theorem W1_main_arg2 (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results
theorem W1_main_arg5 (c : Dev nD) : W1 m ρ c (Proc.devRef .tc main_arg5) = (m ((c : Thread nD τ).loc main_arg5)) := by
  show StableHlo.after hostOps0 (W0 m ρ c) (Proc.devRef .tc main_arg5) = _
  dsimp only [hostOps0]
  after_results
theorem W1_main_arg9 (c : Dev nD) : W1 m ρ c (Proc.devRef .tc main_arg9) = (m ((c : Thread nD τ).loc main_arg9)) := by
  show StableHlo.after hostOps0 (W0 m ρ c) (Proc.devRef .tc main_arg9) = _
  dsimp only [hostOps0]
  after_results
theorem W1_main_arg10 (c : Dev nD) : W1 m ρ c (Proc.devRef .tc main_arg10) = (m ((c : Thread nD τ).loc main_arg10)) := by
  show StableHlo.after hostOps0 (W0 m ρ c) (Proc.devRef .tc main_arg10) = _
  dsimp only [hostOps0]
  after_results
theorem W1_main_arg11 (c : Dev nD) : W1 m ρ c (Proc.devRef .tc main_arg11) = (m ((c : Thread nD τ).loc main_arg11)) := by
  show StableHlo.after hostOps0 (W0 m ρ c) (Proc.devRef .tc main_arg11) = _
  dsimp only [hostOps0]
  after_results
theorem W1_main_arg12 (c : Dev nD) : W1 m ρ c (Proc.devRef .tc main_arg12) = (m ((c : Thread nD τ).loc main_arg12)) := by
  show StableHlo.after hostOps0 (W0 m ρ c) (Proc.devRef .tc main_arg12) = _
  dsimp only [hostOps0]
  after_results
theorem W1_main_arg13 (c : Dev nD) : W1 m ρ c (Proc.devRef .tc main_arg13) = (m ((c : Thread nD τ).loc main_arg13)) := by
  show StableHlo.after hostOps0 (W0 m ρ c) (Proc.devRef .tc main_arg13) = _
  dsimp only [hostOps0]
  after_results
theorem W1_main_arg14 (c : Dev nD) : W1 m ρ c (Proc.devRef .tc main_arg14) = (m ((c : Thread nD τ).loc main_arg14)) := by
  show StableHlo.after hostOps0 (W0 m ρ c) (Proc.devRef .tc main_arg14) = _
  dsimp only [hostOps0]
  after_results

theorem V1_main_arg0 (c : Dev nD) : V1 m ρ c main_arg0 = (m ((c : Thread nD τ).loc main_arg0)) := by
  show StableHlo.after hostOps0 (W0 m ρ c) (Proc.devRef .tc main_arg0) = _
  dsimp only [hostOps0]
  after_results
  all_goals rfl
theorem V1_main_arg1 (c : Dev nD) : V1 m ρ c main_arg1 = (m ((c : Thread nD τ).loc main_arg1)) := by
  show StableHlo.after hostOps0 (W0 m ρ c) (Proc.devRef .tc main_arg1) = _
  dsimp only [hostOps0]
  after_results
  all_goals rfl
theorem V1_main_v0 (c : Dev nD) : V1 m ρ c main_v0 = (extractStridedSlice S5x128 ![0, 0] (m ((c : Thread nD τ).loc main_arg3)) slices_S10x128_S5x128_0_0) := by
  show StableHlo.after hostOps0 (W0 m ρ c) (Proc.devRef .tc main_v0) = _
  dsimp only [hostOps0]
  after_results
  all_goals rfl
theorem V1_main_v1 (c : Dev nD) : V1 m ρ c main_v1 = (extractStridedSlice S5x128 ![5, 0] (m ((c : Thread nD τ).loc main_arg3)) slices_S10x128_S5x128_5_0) := by
  show StableHlo.after hostOps0 (W0 m ρ c) (Proc.devRef .tc main_v1) = _
  dsimp only [hostOps0]
  after_results
  all_goals rfl
theorem V1_main_v2 (c : Dev nD) : V1 m ρ c main_v2 = (shapeCast S1x128 (m ((c : Thread nD τ).loc main_arg4)) shapeCasts_S128_S1x128) := by
  show StableHlo.after hostOps0 (W0 m ρ c) (Proc.devRef .tc main_v2) = _
  dsimp only [hostOps0]
  after_results
  all_goals rfl
theorem V1_main_arg5 (c : Dev nD) : V1 m ρ c main_arg5 = (m ((c : Thread nD τ).loc main_arg5)) := by
  show StableHlo.after hostOps0 (W0 m ρ c) (Proc.devRef .tc main_arg5) = _
  dsimp only [hostOps0]
  after_results
  all_goals rfl
theorem V1_main_v3 (c : Dev nD) : V1 m ρ c main_v3 = (shapeCast S1x64 (m ((c : Thread nD τ).loc main_arg6)) shapeCasts_S64_S1x64) := by
  show StableHlo.after hostOps0 (W0 m ρ c) (Proc.devRef .tc main_v3) = _
  dsimp only [hostOps0]
  after_results
  all_goals rfl
theorem V1_main_v4 (c : Dev nD) : V1 m ρ c main_v4 = (shapeCast S1x64 (m ((c : Thread nD τ).loc main_arg7)) shapeCasts_S64x1_S1x64) := by
  show StableHlo.after hostOps0 (W0 m ρ c) (Proc.devRef .tc main_v4) = _
  dsimp only [hostOps0]
  after_results
  all_goals rfl
theorem V1_main_v5 (c : Dev nD) : V1 m ρ c main_v5 = (shapeCast S1x1 (m ((c : Thread nD τ).loc main_arg8)) shapeCasts_S1_S1x1) := by
  show StableHlo.after hostOps0 (W0 m ρ c) (Proc.devRef .tc main_v5) = _
  dsimp only [hostOps0]
  after_results
  all_goals rfl

/-! ## The first region and the second host stretch -/

theorem W2_main_arg1 (c : Dev nD) : W2 m ρ c (Proc.devRef .tc main_arg1) = (m ((c : Thread nD τ).loc main_arg1)) :=
  ((W2_arr m ρ c 1).trans (((dat0 (V1 m ρ) c).arrAt_in 1 rfl _).trans (A_eq0 (V1 m ρ) c 1))).trans (W1_main_arg1 m ρ c)
theorem W2_main_arg2 (c : Dev nD) : W2 m ρ c (Proc.devRef .tc main_arg2) = (m ((c : Thread nD τ).loc main_arg2)) :=
  (W2_of_ne m ρ c main_arg2 (by decide)).trans (W1_main_arg2 m ρ c)
theorem W2_main_arg9 (c : Dev nD) : W2 m ρ c (Proc.devRef .tc main_arg9) = (m ((c : Thread nD τ).loc main_arg9)) :=
  (W2_of_ne m ρ c main_arg9 (by decide)).trans (W1_main_arg9 m ρ c)
theorem W2_main_arg10 (c : Dev nD) : W2 m ρ c (Proc.devRef .tc main_arg10) = (m ((c : Thread nD τ).loc main_arg10)) :=
  (W2_of_ne m ρ c main_arg10 (by decide)).trans (W1_main_arg10 m ρ c)
theorem W2_main_arg11 (c : Dev nD) : W2 m ρ c (Proc.devRef .tc main_arg11) = (m ((c : Thread nD τ).loc main_arg11)) :=
  (W2_of_ne m ρ c main_arg11 (by decide)).trans (W1_main_arg11 m ρ c)
theorem W2_main_arg12 (c : Dev nD) : W2 m ρ c (Proc.devRef .tc main_arg12) = (m ((c : Thread nD τ).loc main_arg12)) :=
  (W2_of_ne m ρ c main_arg12 (by decide)).trans (W1_main_arg12 m ρ c)
theorem W2_main_arg13 (c : Dev nD) : W2 m ρ c (Proc.devRef .tc main_arg13) = (m ((c : Thread nD τ).loc main_arg13)) :=
  (W2_of_ne m ρ c main_arg13 (by decide)).trans (W1_main_arg13 m ρ c)
theorem W2_main_arg14 (c : Dev nD) : W2 m ρ c (Proc.devRef .tc main_arg14) = (m ((c : Thread nD τ).loc main_arg14)) :=
  (W2_of_ne m ρ c main_arg14 (by decide)).trans (W1_main_arg14 m ρ c)

theorem V3_main_arg1 (c : Dev nD) : V3 m ρ c main_arg1 = (m ((c : Thread nD τ).loc main_arg1)) := by
  show StableHlo.after hostOps1 (W2 m ρ c) (Proc.devRef .tc main_arg1) = _
  dsimp only [hostOps1]
  after_results
  rw [W2_main_arg1 m ρ c]
  all_goals rfl
theorem V3_main_arg2 (c : Dev nD) : V3 m ρ c main_arg2 = (m ((c : Thread nD τ).loc main_arg2)) := by
  show StableHlo.after hostOps1 (W2 m ρ c) (Proc.devRef .tc main_arg2) = _
  dsimp only [hostOps1]
  after_results
  rw [W2_main_arg2 m ρ c]
  all_goals rfl
theorem V3_main_v7 (c : Dev nD) : V3 m ρ c main_v7 = (extractStridedSlice S5x128 ![0, 0] (m ((c : Thread nD τ).loc main_arg9)) slices_S10x128_S5x128_0_0) := by
  show StableHlo.after hostOps1 (W2 m ρ c) (Proc.devRef .tc main_v7) = _
  dsimp only [hostOps1]
  after_results
  rw [W2_main_arg9 m ρ c]
  all_goals rfl
theorem V3_main_v8 (c : Dev nD) : V3 m ρ c main_v8 = (extractStridedSlice S5x128 ![5, 0] (m ((c : Thread nD τ).loc main_arg9)) slices_S10x128_S5x128_5_0) := by
  show StableHlo.after hostOps1 (W2 m ρ c) (Proc.devRef .tc main_v8) = _
  dsimp only [hostOps1]
  after_results
  rw [W2_main_arg9 m ρ c]
  all_goals rfl
theorem V3_main_v9 (c : Dev nD) : V3 m ρ c main_v9 = (shapeCast S1x128 (m ((c : Thread nD τ).loc main_arg10)) shapeCasts_S128_S1x128) := by
  show StableHlo.after hostOps1 (W2 m ρ c) (Proc.devRef .tc main_v9) = _
  dsimp only [hostOps1]
  after_results
  rw [W2_main_arg10 m ρ c]
  all_goals rfl
theorem V3_main_arg11 (c : Dev nD) : V3 m ρ c main_arg11 = (m ((c : Thread nD τ).loc main_arg11)) := by
  show StableHlo.after hostOps1 (W2 m ρ c) (Proc.devRef .tc main_arg11) = _
  dsimp only [hostOps1]
  after_results
  rw [W2_main_arg11 m ρ c]
  all_goals rfl
theorem V3_main_v10 (c : Dev nD) : V3 m ρ c main_v10 = (shapeCast S1x64 (m ((c : Thread nD τ).loc main_arg12)) shapeCasts_S64_S1x64) := by
  show StableHlo.after hostOps1 (W2 m ρ c) (Proc.devRef .tc main_v10) = _
  dsimp only [hostOps1]
  after_results
  rw [W2_main_arg12 m ρ c]
  all_goals rfl
theorem V3_main_v11 (c : Dev nD) : V3 m ρ c main_v11 = (shapeCast S1x64 (m ((c : Thread nD τ).loc main_arg13)) shapeCasts_S64x1_S1x64) := by
  show StableHlo.after hostOps1 (W2 m ρ c) (Proc.devRef .tc main_v11) = _
  dsimp only [hostOps1]
  after_results
  rw [W2_main_arg13 m ρ c]
  all_goals rfl
theorem V3_main_v12 (c : Dev nD) : V3 m ρ c main_v12 = (shapeCast S1x1 (m ((c : Thread nD τ).loc main_arg14)) shapeCasts_S1_S1x1) := by
  show StableHlo.after hostOps1 (W2 m ρ c) (Proc.devRef .tc main_v12) = _
  dsimp only [hostOps1]
  after_results
  rw [W2_main_arg14 m ρ c]
  all_goals rfl

/-! ## What the two pair kernels leave -/

theorem rel_entry0 (c : Dev nD) :
    relArr (V1 m ρ c main_arg0) (V1 m ρ c main_arg1) (V1 m ρ c main_v0) (V1 m ρ c main_v1) (V1 m ρ c main_v2) (V1 m ρ c main_arg5) (V1 m ρ c main_v3) (V1 m ρ c main_v4) (V1 m ρ c main_v5) = rel0 m c := by
  rw [V1_main_arg0 m ρ c, V1_main_arg1 m ρ c, V1_main_v0 m ρ c, V1_main_v1 m ρ c, V1_main_v2 m ρ c, V1_main_arg5 m ρ c, V1_main_v3 m ρ c, V1_main_v4 m ρ c, V1_main_v5 m ρ c]
  rfl

theorem rel_entry1 (c : Dev nD) :
    relArr (V3 m ρ c main_arg1) (V3 m ρ c main_arg2) (V3 m ρ c main_v7) (V3 m ρ c main_v8) (V3 m ρ c main_v9) (V3 m ρ c main_arg11) (V3 m ρ c main_v10) (V3 m ρ c main_v11) (V3 m ρ c main_v12) = rel1 m c := by
  rw [V3_main_arg1 m ρ c, V3_main_arg2 m ρ c, V3_main_v7 m ρ c, V3_main_v8 m ρ c, V3_main_v9 m ρ c, V3_main_arg11 m ρ c, V3_main_v10 m ρ c, V3_main_v11 m ρ c, V3_main_v12 m ρ c]
  rfl

theorem W3_of_W2 (c : Dev nD) (b : Ref sig .tc) (hb : b = main_v6_0 ∨ b = main_v6_1) :
    W3 m ρ c (Proc.devRef .tc b) = W2 m ρ c (Proc.devRef .tc b) := by
  rcases hb with rfl | rfl
  · show StableHlo.after hostOps1 (W2 m ρ c) (Proc.devRef .tc main_v6_0) = _
    dsimp only [hostOps1]
    after_results
  · show StableHlo.after hostOps1 (W2 m ρ c) (Proc.devRef .tc main_v6_1) = _
    dsimp only [hostOps1]
    after_results

/-- The product kernel's first operand: the first relation array. -/
theorem V4_main_v6_1 (c : Dev nD) : V4 m ρ c main_v6_1 = rel0 m c :=
  calc V4 m ρ c main_v6_1
    _ = W3 m ρ c (Proc.devRef .tc main_v6_1) := W4_of_ne m ρ c main_v6_1 (by decide)
    _ = W2 m ρ c (Proc.devRef .tc main_v6_1) := W3_of_W2 m ρ c main_v6_1 (Or.inr rfl)
    _ = (dat0 (F := Ideal) (V1 m ρ) c).arrAt 10 cfg0.N := W2_arr m ρ c 10
    _ = _ := final0_10 (V1 m ρ) c
    _ = rel0 m c := rel_entry0 m ρ c

/-- The product kernel's second operand: the second relation array. -/
theorem V4_main_v13_1 (c : Dev nD) : V4 m ρ c main_v13_1 = rel1 m c :=
  calc V4 m ρ c main_v13_1
    _ = (dat1 (F := Ideal) (V3 m ρ) c).arrAt 10 cfg1.N := W4_arr m ρ c 10
    _ = _ := final1_10 (V3 m ρ) c
    _ = rel1 m c := rel_entry1 m ρ c

/-! ## The three results at the last boundary -/

theorem W6_of_W5 (c : Dev nD) (b : Ref sig .tc) (hb : b = main_v6_0 ∨ b = main_v13_0) :
    W6 m ρ c (Proc.devRef .tc b) = W5 m ρ c (Proc.devRef .tc b) := by
  rcases hb with rfl | rfl
  · show StableHlo.after hostOps3 (W5 m ρ c) (Proc.devRef .tc main_v6_0) = _
    dsimp only [hostOps3]
    after_results
  · show StableHlo.after hostOps3 (W5 m ρ c) (Proc.devRef .tc main_v13_0) = _
    dsimp only [hostOps3]
    after_results

theorem W6_main_v6_0 (c : Dev nD) : W6 m ρ c (Proc.devRef .tc main_v6_0) = rel0 m c :=
  calc W6 m ρ c (Proc.devRef .tc main_v6_0)
    _ = W5 m ρ c (Proc.devRef .tc main_v6_0) := W6_of_W5 m ρ c main_v6_0 (Or.inl rfl)
    _ = W4 m ρ c (Proc.devRef .tc main_v6_0) := W5_of_ne m ρ c main_v6_0 (by decide)
    _ = W3 m ρ c (Proc.devRef .tc main_v6_0) := W4_of_ne m ρ c main_v6_0 (by decide)
    _ = W2 m ρ c (Proc.devRef .tc main_v6_0) := W3_of_W2 m ρ c main_v6_0 (Or.inl rfl)
    _ = (dat0 (F := Ideal) (V1 m ρ) c).arrAt 9 cfg0.N := W2_arr m ρ c 9
    _ = _ := final0_9 (V1 m ρ) c
    _ = rel0 m c := rel_entry0 m ρ c

theorem W6_main_v13_0 (c : Dev nD) : W6 m ρ c (Proc.devRef .tc main_v13_0) = rel1 m c :=
  calc W6 m ρ c (Proc.devRef .tc main_v13_0)
    _ = W5 m ρ c (Proc.devRef .tc main_v13_0) := W6_of_W5 m ρ c main_v13_0 (Or.inr rfl)
    _ = W4 m ρ c (Proc.devRef .tc main_v13_0) := W5_of_ne m ρ c main_v13_0 (by decide)
    _ = (dat1 (F := Ideal) (V3 m ρ) c).arrAt 9 cfg1.N := W4_arr m ρ c 9
    _ = _ := final1_9 (V3 m ρ) c
    _ = rel1 m c := rel_entry1 m ρ c

theorem W5_main_v14 (c : Dev nD) : W5 m ρ c (Proc.devRef .tc main_v14) = prodArr (rel0 m c) (rel1 m c) :=
  calc W5 m ρ c (Proc.devRef .tc main_v14)
    _ = (dat2 (F := Ideal) (V4 m ρ) c).arrAt 2 cfg2.N := W5_arr m ρ c 2
    _ = prodArr (V4 m ρ c main_v6_1) (V4 m ρ c main_v13_1) := final2_2 (V4 m ρ) c
    _ = prodArr (rel0 m c) (rel1 m c) := by rw [V4_main_v6_1 m ρ c, V4_main_v13_1 m ρ c]

theorem W6_main_v15 (c : Dev nD) :
    W6 m ρ c (Proc.devRef .tc main_v15) = shapeCast S1048576x1 (prodArr (rel0 m c) (rel1 m c)) shapeCasts_S1024x1024_S1048576x1 := by
  show StableHlo.after hostOps3 (W5 m ρ c) (Proc.devRef .tc main_v15) = _
  dsimp only [hostOps3]
  after_results
  rw [W5_main_v14 m ρ c]
  rfl

/-! ## The run -/

/-- Every weakly fair execution terminates; the three results end at the relation arrays and the reshaped logistic of their
    product, and the arguments end unchanged. -/
theorem run : θ_run defs (onTc (τ := τ) (main (F := Ideal))) ⟨m, fun _ => 0, ρ⟩ fun r => ∀ c : Dev nD,
      r.2.mem ((c : Thread nD τ).loc main_v15) = shapeCast S1048576x1 (prodArr (rel0 m c) (rel1 m c)) shapeCasts_S1024x1024_S1048576x1
      ∧ r.2.mem ((c : Thread nD τ).loc main_v6_0) = rel0 m c
      ∧ r.2.mem ((c : Thread nD τ).loc main_v13_0) = rel1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c =>
    ⟨(h c _ (mem_uc main_v15 (by decide))).trans (W6_main_v15 m ρ c),
     (h c _ (mem_uc main_v6_0 (by decide))).trans (W6_main_v6_0 m ρ c),
     (h c _ (mem_uc main_v13_0 (by decide))).trans (W6_main_v13_0 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c)⟩)
    (Cert.KernelIdeal.Held.run_held m ρ)

end Cert.KernelIdeal.Fold

end
-- ==== Proof.RefOps.lean ====
/-
  The reference program's run, read back.

  The reference is a straight line of host operations: the two pair networks one after the other (each: two slices of
  the first weight matrix, two small matrix products, the pairwise sum of their rows broadcast over a third axis plus a
  bias, a rectifier, a contraction with the second weight matrix plus a bias, a rectifier, a contraction with the output
  column plus a bias, the exponential linear unit, and a reshape dropping the trailing unit axis), then the product of
  the two resulting matrices, a reshape to one column, and the logistic function spelt 1 / (1 + exp(-x)). The three
  helper functions it calls (two rectifiers and the exponential linear unit, which itself calls two selects) run their
  bodies on the caller's buffers, so their operations are listed in place at each call.

  `pairTerm` is the composed value of one pair network as a function of its eight argument arrays, `tailTerm` the
  composed value of the last stretch as a function of the two matrices. Every weakly fair execution terminates with
  every buffer at the fold of the operations over the launch contents.
-/
import proofs.«171790_j45741401702576_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The exponential linear unit as the reference spells it on a `[1024, 1024, 1]` array: where the entry is positive
    the entry, elsewhere `1 · expm1` of the entry (the inner select feeds `expm1` a zero where the entry is positive). -/
def eluTerm (s : FVec F S1024x1024x1 .f32) : FVec F S1024x1024x1 .f32 :=
  select (cmpf .ogt s (broadcastInDim S1024x1024x1 ![] bcast_S_S1024x1024x1 (constant S_ .f32 0x00000000#32)))
    s
    (mulf (broadcastInDim S1024x1024x1 ![] bcast_S_S1024x1024x1 (constant S_ .f32 0x3F800000#32))
      (Host.expm1 (select (cmpf .ogt s (broadcastInDim S1024x1024x1 ![] bcast_S_S1024x1024x1 (constant S_ .f32 0x00000000#32)))
        (broadcastInDim S1024x1024x1 ![] bcast_S_S1024x1024x1 (id (constant S_ .f32 0x00000000#32))) s)))

/-- The first hidden layer of a pair network, `[1024, 1024, 128]`: rectified (left row product + right row product + bias). -/
def hidTerm (xl xr : FVec F S1024x5 .f32) (w0 : FVec F S10x128 .f32) (b0 : FVec F S128 .f32) : FVec F S1024x1024x128 .f32 :=
  maximumf
    (addf
      (addf
        (broadcastInDim S1024x1024x128 ![0, 1, 2] bcast_S1024x1x128_S1024x1024x128_0_1_2
          (broadcastInDim S1024x1x128 ![0, 2] bcast_S1024x128_S1024x1x128_0_2
            (Host.dotGeneral dot_S1024x5_S5x128_S1024x128_1_0_0_1_n_n none xl (extractStridedSlice S5x128 ![0, 0] w0 slices_S10x128_S5x128_0_0))))
        (broadcastInDim S1024x1024x128 ![0, 1, 2] bcast_S1x1024x128_S1024x1024x128_0_1_2
          (broadcastInDim S1x1024x128 ![1, 2] bcast_S1024x128_S1x1024x128_1_2
            (Host.dotGeneral dot_S1024x5_S5x128_S1024x128_1_0_0_1_n_n none xr (extractStridedSlice S5x128 ![5, 0] w0 slices_S10x128_S5x128_5_0)))))
      (broadcastInDim S1024x1024x128 ![0, 1, 2] bcast_S1x1x128_S1024x1024x128_0_1_2 (broadcastInDim S1x1x128 ![2] bcast_S128_S1x1x128_2 b0)))
    (broadcastInDim S1024x1024x128 ![] bcast_S_S1024x1024x128 (constant S_ .f32 0x00000000#32))

/-- The second hidden layer, `[1024, 1024, 64]`: rectified (first layer contracted with the second weight matrix + bias). -/
def hid2Term (h : FVec F S1024x1024x128 .f32) (w1 : FVec F S128x64 .f32) (b1 : FVec F S64 .f32) : FVec F S1024x1024x64 .f32 :=
  maximumf
    (addf (Host.dotGeneral dot_S1024x1024x128_S128x64_S1024x1024x64_2_0_01_1_n_n none h w1)
      (broadcastInDim S1024x1024x64 ![0, 1, 2] bcast_S1x1x64_S1024x1024x64_0_1_2 (broadcastInDim S1x1x64 ![2] bcast_S64_S1x1x64_2 b1)))
    (broadcastInDim S1024x1024x64 ![] bcast_S_S1024x1024x64 (constant S_ .f32 0x00000000#32))

/-- The score, `[1024, 1024, 1]`: second layer contracted with the output column + bias. -/
def scoreTerm (h2 : FVec F S1024x1024x64 .f32) (wr : FVec F S64x1 .f32) (br : FVec F S1 .f32) : FVec F S1024x1024x1 .f32 :=
  addf (Host.dotGeneral dot_S1024x1024x64_S64x1_S1024x1024x1_2_0_01_1_n_n none h2 wr)
    (broadcastInDim S1024x1024x1 ![0, 1, 2] bcast_S1x1x1_S1024x1024x1_0_1_2 (broadcastInDim S1x1x1 ![2] bcast_S1_S1x1x1_2 br))

/-- One pair network as the reference computes it, `[1024, 1024]`. -/
def pairTerm (xl xr : FVec F S1024x5 .f32) (w0 : FVec F S10x128 .f32) (b0 : FVec F S128 .f32) (w1 : FVec F S128x64 .f32)
    (b1 : FVec F S64 .f32) (wr : FVec F S64x1 .f32) (br : FVec F S1 .f32) : FVec F S1024x1024 .f32 :=
  shapeCast S1024x1024 (eluTerm (scoreTerm (hid2Term (hidTerm xl xr w0 b0) w1 b1) wr br)) shapeCasts_S1024x1024x1_S1024x1024

/-- The last stretch: the logistic function, spelt `1 / (1 + exp (-x))`, of the matrix product viewed as one column. -/
def tailTerm (a b : FVec F S1024x1024 .f32) : FVec F S1048576x1 .f32 :=
  Host.divf (broadcastInDim S1048576x1 ![] bcast_S_S1048576x1 (constant S_ .f32 0x3F800000#32))
    (addf (broadcastInDim S1048576x1 ![] bcast_S_S1048576x1 (constant S_ .f32 0x3F800000#32))
      (Host.exp (Host.negf (shapeCast S1048576x1 (Host.dotGeneral dot_S1024x1024_S1024x1024_S1024x1024_1_0_0_1_n_n none a b) shapeCasts_S1024x1024_S1048576x1))))

/-- The first pair network's operations, the helper functions' bodies in place at their calls. -/
abbrev opsA : List (HloOp τ sig (Elt F)) :=
  [ unary main_arg3 main_v0 ((extractStridedSlice S5x128 ![0, 0] · slices_S10x128_S5x128_0_0) : (⟨S10x128, .f32⟩ : BufTy).Contents (Elt F) → (⟨S5x128, .f32⟩ : BufTy).Contents (Elt F)),
    binary main_arg0 main_v0 main_v1 ((fun l r => Host.dotGeneral dot_S1024x5_S5x128_S1024x128_1_0_0_1_n_n none l r) : (⟨S1024x5, .f32⟩ : BufTy).Contents (Elt F) → (⟨S5x128, .f32⟩ : BufTy).Contents (Elt F) → (⟨S1024x128, .f32⟩ : BufTy).Contents (Elt F)),
    unary main_arg3 main_v2 ((extractStridedSlice S5x128 ![5, 0] · slices_S10x128_S5x128_5_0) : (⟨S10x128, .f32⟩ : BufTy).Contents (Elt F) → (⟨S5x128, .f32⟩ : BufTy).Contents (Elt F)),
    binary main_arg1 main_v2 main_v3 ((fun l r => Host.dotGeneral dot_S1024x5_S5x128_S1024x128_1_0_0_1_n_n none l r) : (⟨S1024x5, .f32⟩ : BufTy).Contents (Elt F) → (⟨S5x128, .f32⟩ : BufTy).Contents (Elt F) → (⟨S1024x128, .f32⟩ : BufTy).Contents (Elt F)),
    unary main_v1 main_v4 (broadcastInDim S1024x1x128 ![0, 2] bcast_S1024x128_S1024x1x128_0_2 : (⟨S1024x128, .f32⟩ : BufTy).Contents (Elt F) → (⟨S1024x1x128, .f32⟩ : BufTy).Contents (Elt F)),
    unary main_v3 main_v5 (broadcastInDim S1x1024x128 ![1, 2] bcast_S1024x128_S1x1024x128_1_2 : (⟨S1024x128, .f32⟩ : BufTy).Contents (Elt F) → (⟨S1x1024x128, .f32⟩ : BufTy).Contents (Elt F)),
    unary main_v4 main_v6 (broadcastInDim S1024x1024x128 ![0, 1, 2] bcast_S1024x1x128_S1024x1024x128_0_1_2 : (⟨S1024x1x128, .f32⟩ : BufTy).Contents (Elt F) → (⟨S1024x1024x128, .f32⟩ : BufTy).Contents (Elt F)),
    unary main_v5 main_v7 (broadcastInDim S1024x1024x128 ![0, 1, 2] bcast_S1x1024x128_S1024x1024x128_0_1_2 : (⟨S1x1024x128, .f32⟩ : BufTy).Contents (Elt F) → (⟨S1024x1024x128, .f32⟩ : BufTy).Contents (Elt F)),
    binary main_v6 main_v7 main_v8 (addf : (⟨S1024x1024x128, .f32⟩ : BufTy).Contents (Elt F) → (⟨S1024x1024x128, .f32⟩ : BufTy).Contents (Elt F) → (⟨S1024x1024x128, .f32⟩ : BufTy).Contents (Elt F)),
    unary main_arg4 main_v9 (broadcastInDim S1x1x128 ![2] bcast_S128_S1x1x128_2 : (⟨S128, .f32⟩ : BufTy).Contents (Elt F) → (⟨S1x1x128, .f32⟩ : BufTy).Contents (Elt F)),
    unary main_v9 main_v10 (broadcastInDim S1024x1024x128 ![0, 1, 2] bcast_S1x1x128_S1024x1024x128_0_1_2 : (⟨S1x1x128, .f32⟩ : BufTy).Contents (Elt F) → (⟨S1024x1024x128, .f32⟩ : BufTy).Contents (Elt F)),
    binary main_v8 main_v10 main_v11 (addf : (⟨S1024x1024x128, .f32⟩ : BufTy).Contents (Elt F) → (⟨S1024x1024x128, .f32⟩ : BufTy).Contents (Elt F) → (⟨S1024x1024x128, .f32⟩ : BufTy).Contents (Elt F)),
    TRef.nullary main_call0.cst (constant S_ .f32 0x00000000#32),
    TRef.unary main_call0.cst main_call0.v0 (broadcastInDim S1024x1024x128 ![] bcast_S_S1024x1024x128),
    TRef.binary (.of main_v11) main_call0.v0 main_call0.v1 maximumf,
    binary main_v12 main_arg5 main_v13 ((fun l r => Host.dotGeneral dot_S1024x1024x128_S128x64_S1024x1024x64_2_0_01_1_n_n none l r) : (⟨S1024x1024x128, .f32⟩ : BufTy).Contents (Elt F) → (⟨S128x64, .f32⟩ : BufTy).Contents (Elt F) → (⟨S1024x1024x64, .f32⟩ : BufTy).Contents (Elt F)),
    unary main_arg6 main_v14 (broadcastInDim S1x1x64 ![2] bcast_S64_S1x1x64_2 : (⟨S64, .f32⟩ : BufTy).Contents (Elt F) → (⟨S1x1x64, .f32⟩ : BufTy).Contents (Elt F)),
    unary main_v14 main_v15 (broadcastInDim S1024x1024x64 ![0, 1, 2] bcast_S1x1x64_S1024x1024x64_0_1_2 : (⟨S1x1x64, .f32⟩ : BufTy).Contents (Elt F) → (⟨S1024x1024x64, .f32⟩ : BufTy).Contents (Elt F)),
    binary main_v13 main_v15 main_v16 (addf : (⟨S1024x1024x64, .f32⟩ : BufTy).Contents (Elt F) → (⟨S1024x1024x64, .f32⟩ : BufTy).Contents (Elt F) → (⟨S1024x1024x64, .f32⟩ : BufTy).Contents (Elt F)),
    TRef.nullary main_call1.cst (constant S_ .f32 0x00000000#32),
    TRef.unary main_call1.cst main_call1.v0 (broadcastInDim S1024x1024x64 ![] bcast_S_S1024x1024x64),
    TRef.binary (.of main_v16) main_call1.v0 main_call1.v1 maximumf,
    binary main_v17 main_arg7 main_v18 ((fun l r => Host.dotGeneral dot_S1024x1024x64_S64x1_S1024x1024x1_2_0_01_1_n_n none l r) : (⟨S1024x1024x64, .f32⟩ : BufTy).Contents (Elt F) → (⟨S64x1, .f32⟩ : BufTy).Contents (Elt F) → (⟨S1024x1024x1, .f32⟩ : BufTy).Contents (Elt F)),
    unary main_arg8 main_v19 (broadcastInDim S1x1x1 ![2] bcast_S1_S1x1x1_2 : (⟨S1, .f32⟩ : BufTy).Contents (Elt F) → (⟨S1x1x1, .f32⟩ : BufTy).Contents (Elt F)),
    unary main_v19 main_v20 (broadcastInDim S1024x1024x1 ![0, 1, 2] bcast_S1x1x1_S1024x1024x1_0_1_2 : (⟨S1x1x1, .f32⟩ : BufTy).Contents (Elt F) → (⟨S1024x1024x1, .f32⟩ : BufTy).Contents (Elt F)),
    binary main_v18 main_v20 main_v21 (addf : (⟨S1024x1024x1, .f32⟩ : BufTy).Contents (Elt F) → (⟨S1024x1024x1, .f32⟩ : BufTy).Contents (Elt F) → (⟨S1024x1024x1, .f32⟩ : BufTy).Contents (Elt F)),
    TRef.nullary main_call2.cst (constant S_ .f32 0x00000000#32),
    TRef.unary main_call2.cst main_call2.v0 (broadcastInDim S1024x1024x1 ![] bcast_S_S1024x1024x1),
    TRef.binary (.of main_v21) main_call2.v0 main_call2.v1 (cmpf .ogt),
    TRef.nullary main_call2.cst_0 (constant S_ .f32 0x00000000#32),
    TRef.unary main_call2.cst_0 main_call2.v2 (broadcastInDim S1024x1024x1 ![] bcast_S_S1024x1024x1),
    TRef.binary (.of main_v21) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S1024x1024x1 ![] bcast_S_S1024x1024x1),
    TRef.ternary main_call2.v3 main_call2.call0.v1 (.of main_v21) main_call2.call0.v2 select,
    TRef.unary main_call2.call0.v2 main_call2.v5 Host.expm1,
    TRef.nullary main_call2.cst_2 (constant S_ .f32 0x3F800000#32),
    TRef.unary main_call2.cst_2 main_call2.v6 (broadcastInDim S1024x1024x1 ![] bcast_S_S1024x1024x1),
    TRef.binary main_call2.v6 main_call2.v5 main_call2.v7 mulf,
    TRef.ternary main_call2.v1 (.of main_v21) main_call2.v7 main_call2.call1.v0 select,
    reshape main_v22 main_v23 rfl shapeCasts_S1024x1024x1_S1024x1024 ]

/-- The second pair network's operations. -/
abbrev opsB : List (HloOp τ sig (Elt F)) :=
  [ unary main_arg9 main_v24 ((extractStridedSlice S5x128 ![0, 0] · slices_S10x128_S5x128_0_0) : (⟨S10x128, .f32⟩ : BufTy).Contents (Elt F) → (⟨S5x128, .f32⟩ : BufTy).Contents (Elt F)),
    binary main_arg1 main_v24 main_v25 ((fun l r => Host.dotGeneral dot_S1024x5_S5x128_S1024x128_1_0_0_1_n_n none l r) : (⟨S1024x5, .f32⟩ : BufTy).Contents (Elt F) → (⟨S5x128, .f32⟩ : BufTy).Contents (Elt F) → (⟨S1024x128, .f32⟩ : BufTy).Contents (Elt F)),
    unary main_arg9 main_v26 ((extractStridedSlice S5x128 ![5, 0] · slices_S10x128_S5x128_5_0) : (⟨S10x128, .f32⟩ : BufTy).Contents (Elt F) → (⟨S5x128, .f32⟩ : BufTy).Contents (Elt F)),
    binary main_arg2 main_v26 main_v27 ((fun l r => Host.dotGeneral dot_S1024x5_S5x128_S1024x128_1_0_0_1_n_n none l r) : (⟨S1024x5, .f32⟩ : BufTy).Contents (Elt F) → (⟨S5x128, .f32⟩ : BufTy).Contents (Elt F) → (⟨S1024x128, .f32⟩ : BufTy).Contents (Elt F)),
    unary main_v25 main_v28 (broadcastInDim S1024x1x128 ![0, 2] bcast_S1024x128_S1024x1x128_0_2 : (⟨S1024x128, .f32⟩ : BufTy).Contents (Elt F) → (⟨S1024x1x128, .f32⟩ : BufTy).Contents (Elt F)),
    unary main_v27 main_v29 (broadcastInDim S1x1024x128 ![1, 2] bcast_S1024x128_S1x1024x128_1_2 : (⟨S1024x128, .f32⟩ : BufTy).Contents (Elt F) → (⟨S1x1024x128, .f32⟩ : BufTy).Contents (Elt F)),
    unary main_v28 main_v30 (broadcastInDim S1024x1024x128 ![0, 1, 2] bcast_S1024x1x128_S1024x1024x128_0_1_2 : (⟨S1024x1x128, .f32⟩ : BufTy).Contents (Elt F) → (⟨S1024x1024x128, .f32⟩ : BufTy).Contents (Elt F)),
    unary main_v29 main_v31 (broadcastInDim S1024x1024x128 ![0, 1, 2] bcast_S1x1024x128_S1024x1024x128_0_1_2 : (⟨S1x1024x128, .f32⟩ : BufTy).Contents (Elt F) → (⟨S1024x1024x128, .f32⟩ : BufTy).Contents (Elt F)),
    binary main_v30 main_v31 main_v32 (addf : (⟨S1024x1024x128, .f32⟩ : BufTy).Contents (Elt F) → (⟨S1024x1024x128, .f32⟩ : BufTy).Contents (Elt F) → (⟨S1024x1024x128, .f32⟩ : BufTy).Contents (Elt F)),
    unary main_arg10 main_v33 (broadcastInDim S1x1x128 ![2] bcast_S128_S1x1x128_2 : (⟨S128, .f32⟩ : BufTy).Contents (Elt F) → (⟨S1x1x128, .f32⟩ : BufTy).Contents (Elt F)),
    unary main_v33 main_v34 (broadcastInDim S1024x1024x128 ![0, 1, 2] bcast_S1x1x128_S1024x1024x128_0_1_2 : (⟨S1x1x128, .f32⟩ : BufTy).Contents (Elt F) → (⟨S1024x1024x128, .f32⟩ : BufTy).Contents (Elt F)),
    binary main_v32 main_v34 main_v35 (addf : (⟨S1024x1024x128, .f32⟩ : BufTy).Contents (Elt F) → (⟨S1024x1024x128, .f32⟩ : BufTy).Contents (Elt F) → (⟨S1024x1024x128, .f32⟩ : BufTy).Contents (Elt F)),
    TRef.nullary main_call3.cst (constant S_ .f32 0x00000000#32),
    TRef.unary main_call3.cst main_call3.v0 (broadcastInDim S1024x1024x128 ![] bcast_S_S1024x1024x128),
    TRef.binary (.of main_v35) main_call3.v0 main_call3.v1 maximumf,
    binary main_v36 main_arg11 main_v37 ((fun l r => Host.dotGeneral dot_S1024x1024x128_S128x64_S1024x1024x64_2_0_01_1_n_n none l r) : (⟨S1024x1024x128, .f32⟩ : BufTy).Contents (Elt F) → (⟨S128x64, .f32⟩ : BufTy).Contents (Elt F) → (⟨S1024x1024x64, .f32⟩ : BufTy).Contents (Elt F)),
    unary main_arg12 main_v38 (broadcastInDim S1x1x64 ![2] bcast_S64_S1x1x64_2 : (⟨S64, .f32⟩ : BufTy).Contents (Elt F) → (⟨S1x1x64, .f32⟩ : BufTy).Contents (Elt F)),
    unary main_v38 main_v39 (broadcastInDim S1024x1024x64 ![0, 1, 2] bcast_S1x1x64_S1024x1024x64_0_1_2 : (⟨S1x1x64, .f32⟩ : BufTy).Contents (Elt F) → (⟨S1024x1024x64, .f32⟩ : BufTy).Contents (Elt F)),
    binary main_v37 main_v39 main_v40 (addf : (⟨S1024x1024x64, .f32⟩ : BufTy).Contents (Elt F) → (⟨S1024x1024x64, .f32⟩ : BufTy).Contents (Elt F) → (⟨S1024x1024x64, .f32⟩ : BufTy).Contents (Elt F)),
    TRef.nullary main_call4.cst (constant S_ .f32 0x00000000#32),
    TRef.unary main_call4.cst main_call4.v0 (broadcastInDim S1024x1024x64 ![] bcast_S_S1024x1024x64),
    TRef.binary (.of main_v40) main_call4.v0 main_call4.v1 maximumf,
    binary main_v41 main_arg13 main_v42 ((fun l r => Host.dotGeneral dot_S1024x1024x64_S64x1_S1024x1024x1_2_0_01_1_n_n none l r) : (⟨S1024x1024x64, .f32⟩ : BufTy).Contents (Elt F) → (⟨S64x1, .f32⟩ : BufTy).Contents (Elt F) → (⟨S1024x1024x1, .f32⟩ : BufTy).Contents (Elt F)),
    unary main_arg14 main_v43 (broadcastInDim S1x1x1 ![2] bcast_S1_S1x1x1_2 : (⟨S1, .f32⟩ : BufTy).Contents (Elt F) → (⟨S1x1x1, .f32⟩ : BufTy).Contents (Elt F)),
    unary main_v43 main_v44 (broadcastInDim S1024x1024x1 ![0, 1, 2] bcast_S1x1x1_S1024x1024x1_0_1_2 : (⟨S1x1x1, .f32⟩ : BufTy).Contents (Elt F) → (⟨S1024x1024x1, .f32⟩ : BufTy).Contents (Elt F)),
    binary main_v42 main_v44 main_v45 (addf : (⟨S1024x1024x1, .f32⟩ : BufTy).Contents (Elt F) → (⟨S1024x1024x1, .f32⟩ : BufTy).Contents (Elt F) → (⟨S1024x1024x1, .f32⟩ : BufTy).Contents (Elt F)),
    TRef.nullary main_call5.cst (constant S_ .f32 0x00000000#32),
    TRef.unary main_call5.cst main_call5.v0 (broadcastInDim S1024x1024x1 ![] bcast_S_S1024x1024x1),
    TRef.binary (.of main_v45) main_call5.v0 main_call5.v1 (cmpf .ogt),
    TRef.nullary main_call5.cst_0 (constant S_ .f32 0x00000000#32),
    TRef.unary main_call5.cst_0 main_call5.v2 (broadcastInDim S1024x1024x1 ![] bcast_S_S1024x1024x1),
    TRef.binary (.of main_v45) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S1024x1024x1 ![] bcast_S_S1024x1024x1),
    TRef.ternary main_call5.v3 main_call5.call0.v1 (.of main_v45) main_call5.call0.v2 select,
    TRef.unary main_call5.call0.v2 main_call5.v5 Host.expm1,
    TRef.nullary main_call5.cst_2 (constant S_ .f32 0x3F800000#32),
    TRef.unary main_call5.cst_2 main_call5.v6 (broadcastInDim S1024x1024x1 ![] bcast_S_S1024x1024x1),
    TRef.binary main_call5.v6 main_call5.v5 main_call5.v7 mulf,
    TRef.ternary main_call5.v1 (.of main_v45) main_call5.v7 main_call5.call1.v0 select,
    reshape main_v46 main_v47 rfl shapeCasts_S1024x1024x1_S1024x1024 ]

/-- The product, the reshape to one column and the logistic function. -/
abbrev opsC : List (HloOp τ sig (Elt F)) :=
  [ binary main_v23 main_v47 main_v48 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    reshape main_v48 main_v49 rfl shapeCasts_S1024x1024_S1048576x1,
    unary main_v49 main_v50 (Host.negf : (⟨S1048576x1, .f32⟩ : BufTy).Contents (Elt F) → (⟨S1048576x1, .f32⟩ : BufTy).Contents (Elt F)),
    unary main_v50 main_v51 (Host.exp : (⟨S1048576x1, .f32⟩ : BufTy).Contents (Elt F) → (⟨S1048576x1, .f32⟩ : BufTy).Contents (Elt F)),
    nullary main_cst (constant S_ .f32 0x3F800000#32),
    unary main_cst main_v52 (broadcastInDim S1048576x1 ![] bcast_S_S1048576x1 : (⟨S_, .f32⟩ : BufTy).Contents (Elt F) → (⟨S1048576x1, .f32⟩ : BufTy).Contents (Elt F)),
    binary main_v52 main_v51 main_v53 (addf : (⟨S1048576x1, .f32⟩ : BufTy).Contents (Elt F) → (⟨S1048576x1, .f32⟩ : BufTy).Contents (Elt F) → (⟨S1048576x1, .f32⟩ : BufTy).Contents (Elt F)),
    nullary main_cst_0 (constant S_ .f32 0x3F800000#32),
    unary main_cst_0 main_v54 (broadcastInDim S1048576x1 ![] bcast_S_S1048576x1 : (⟨S_, .f32⟩ : BufTy).Contents (Elt F) → (⟨S1048576x1, .f32⟩ : BufTy).Contents (Elt F)),
    binary main_v54 main_v53 main_v55 (Host.divf : (⟨S1048576x1, .f32⟩ : BufTy).Contents (Elt F) → (⟨S1048576x1, .f32⟩ : BufTy).Contents (Elt F) → (⟨S1048576x1, .f32⟩ : BufTy).Contents (Elt F)) ]

/-- The whole program's operations, in order. -/
abbrev ops : List (HloOp τ sig (Elt F)) :=
  [ unary main_arg3 main_v0 ((extractStridedSlice S5x128 ![0, 0] · slices_S10x128_S5x128_0_0) : (⟨S10x128, .f32⟩ : BufTy).Contents (Elt F) → (⟨S5x128, .f32⟩ : BufTy).Contents (Elt F)),
    binary main_arg0 main_v0 main_v1 ((fun l r => Host.dotGeneral dot_S1024x5_S5x128_S1024x128_1_0_0_1_n_n none l r) : (⟨S1024x5, .f32⟩ : BufTy).Contents (Elt F) → (⟨S5x128, .f32⟩ : BufTy).Contents (Elt F) → (⟨S1024x128, .f32⟩ : BufTy).Contents (Elt F)),
    unary main_arg3 main_v2 ((extractStridedSlice S5x128 ![5, 0] · slices_S10x128_S5x128_5_0) : (⟨S10x128, .f32⟩ : BufTy).Contents (Elt F) → (⟨S5x128, .f32⟩ : BufTy).Contents (Elt F)),
    binary main_arg1 main_v2 main_v3 ((fun l r => Host.dotGeneral dot_S1024x5_S5x128_S1024x128_1_0_0_1_n_n none l r) : (⟨S1024x5, .f32⟩ : BufTy).Contents (Elt F) → (⟨S5x128, .f32⟩ : BufTy).Contents (Elt F) → (⟨S1024x128, .f32⟩ : BufTy).Contents (Elt F)),
    unary main_v1 main_v4 (broadcastInDim S1024x1x128 ![0, 2] bcast_S1024x128_S1024x1x128_0_2 : (⟨S1024x128, .f32⟩ : BufTy).Contents (Elt F) → (⟨S1024x1x128, .f32⟩ : BufTy).Contents (Elt F)),
    unary main_v3 main_v5 (broadcastInDim S1x1024x128 ![1, 2] bcast_S1024x128_S1x1024x128_1_2 : (⟨S1024x128, .f32⟩ : BufTy).Contents (Elt F) → (⟨S1x1024x128, .f32⟩ : BufTy).Contents (Elt F)),
    unary main_v4 main_v6 (broadcastInDim S1024x1024x128 ![0, 1, 2] bcast_S1024x1x128_S1024x1024x128_0_1_2 : (⟨S1024x1x128, .f32⟩ : BufTy).Contents (Elt F) → (⟨S1024x1024x128, .f32⟩ : BufTy).Contents (Elt F)),
    unary main_v5 main_v7 (broadcastInDim S1024x1024x128 ![0, 1, 2] bcast_S1x1024x128_S1024x1024x128_0_1_2 : (⟨S1x1024x128, .f32⟩ : BufTy).Contents (Elt F) → (⟨S1024x1024x128, .f32⟩ : BufTy).Contents (Elt F)),
    binary main_v6 main_v7 main_v8 (addf : (⟨S1024x1024x128, .f32⟩ : BufTy).Contents (Elt F) → (⟨S1024x1024x128, .f32⟩ : BufTy).Contents (Elt F) → (⟨S1024x1024x128, .f32⟩ : BufTy).Contents (Elt F)),
    unary main_arg4 main_v9 (broadcastInDim S1x1x128 ![2] bcast_S128_S1x1x128_2 : (⟨S128, .f32⟩ : BufTy).Contents (Elt F) → (⟨S1x1x128, .f32⟩ : BufTy).Contents (Elt F)),
    unary main_v9 main_v10 (broadcastInDim S1024x1024x128 ![0, 1, 2] bcast_S1x1x128_S1024x1024x128_0_1_2 : (⟨S1x1x128, .f32⟩ : BufTy).Contents (Elt F) → (⟨S1024x1024x128, .f32⟩ : BufTy).Contents (Elt F)),
    binary main_v8 main_v10 main_v11 (addf : (⟨S1024x1024x128, .f32⟩ : BufTy).Contents (Elt F) → (⟨S1024x1024x128, .f32⟩ : BufTy).Contents (Elt F) → (⟨S1024x1024x128, .f32⟩ : BufTy).Contents (Elt F)),
    TRef.nullary main_call0.cst (constant S_ .f32 0x00000000#32),
    TRef.unary main_call0.cst main_call0.v0 (broadcastInDim S1024x1024x128 ![] bcast_S_S1024x1024x128),
    TRef.binary (.of main_v11) main_call0.v0 main_call0.v1 maximumf,
    binary main_v12 main_arg5 main_v13 ((fun l r => Host.dotGeneral dot_S1024x1024x128_S128x64_S1024x1024x64_2_0_01_1_n_n none l r) : (⟨S1024x1024x128, .f32⟩ : BufTy).Contents (Elt F) → (⟨S128x64, .f32⟩ : BufTy).Contents (Elt F) → (⟨S1024x1024x64, .f32⟩ : BufTy).Contents (Elt F)),
    unary main_arg6 main_v14 (broadcastInDim S1x1x64 ![2] bcast_S64_S1x1x64_2 : (⟨S64, .f32⟩ : BufTy).Contents (Elt F) → (⟨S1x1x64, .f32⟩ : BufTy).Contents (Elt F)),
    unary main_v14 main_v15 (broadcastInDim S1024x1024x64 ![0, 1, 2] bcast_S1x1x64_S1024x1024x64_0_1_2 : (⟨S1x1x64, .f32⟩ : BufTy).Contents (Elt F) → (⟨S1024x1024x64, .f32⟩ : BufTy).Contents (Elt F)),
    binary main_v13 main_v15 main_v16 (addf : (⟨S1024x1024x64, .f32⟩ : BufTy).Contents (Elt F) → (⟨S1024x1024x64, .f32⟩ : BufTy).Contents (Elt F) → (⟨S1024x1024x64, .f32⟩ : BufTy).Contents (Elt F)),
    TRef.nullary main_call1.cst (constant S_ .f32 0x00000000#32),
    TRef.unary main_call1.cst main_call1.v0 (broadcastInDim S1024x1024x64 ![] bcast_S_S1024x1024x64),
    TRef.binary (.of main_v16) main_call1.v0 main_call1.v1 maximumf,
    binary main_v17 main_arg7 main_v18 ((fun l r => Host.dotGeneral dot_S1024x1024x64_S64x1_S1024x1024x1_2_0_01_1_n_n none l r) : (⟨S1024x1024x64, .f32⟩ : BufTy).Contents (Elt F) → (⟨S64x1, .f32⟩ : BufTy).Contents (Elt F) → (⟨S1024x1024x1, .f32⟩ : BufTy).Contents (Elt F)),
    unary main_arg8 main_v19 (broadcastInDim S1x1x1 ![2] bcast_S1_S1x1x1_2 : (⟨S1, .f32⟩ : BufTy).Contents (Elt F) → (⟨S1x1x1, .f32⟩ : BufTy).Contents (Elt F)),
    unary main_v19 main_v20 (broadcastInDim S1024x1024x1 ![0, 1, 2] bcast_S1x1x1_S1024x1024x1_0_1_2 : (⟨S1x1x1, .f32⟩ : BufTy).Contents (Elt F) → (⟨S1024x1024x1, .f32⟩ : BufTy).Contents (Elt F)),
    binary main_v18 main_v20 main_v21 (addf : (⟨S1024x1024x1, .f32⟩ : BufTy).Contents (Elt F) → (⟨S1024x1024x1, .f32⟩ : BufTy).Contents (Elt F) → (⟨S1024x1024x1, .f32⟩ : BufTy).Contents (Elt F)),
    TRef.nullary main_call2.cst (constant S_ .f32 0x00000000#32),
    TRef.unary main_call2.cst main_call2.v0 (broadcastInDim S1024x1024x1 ![] bcast_S_S1024x1024x1),
    TRef.binary (.of main_v21) main_call2.v0 main_call2.v1 (cmpf .ogt),
    TRef.nullary main_call2.cst_0 (constant S_ .f32 0x00000000#32),
    TRef.unary main_call2.cst_0 main_call2.v2 (broadcastInDim S1024x1024x1 ![] bcast_S_S1024x1024x1),
    TRef.binary (.of main_v21) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S1024x1024x1 ![] bcast_S_S1024x1024x1),
    TRef.ternary main_call2.v3 main_call2.call0.v1 (.of main_v21) main_call2.call0.v2 select,
    TRef.unary main_call2.call0.v2 main_call2.v5 Host.expm1,
    TRef.nullary main_call2.cst_2 (constant S_ .f32 0x3F800000#32),
    TRef.unary main_call2.cst_2 main_call2.v6 (broadcastInDim S1024x1024x1 ![] bcast_S_S1024x1024x1),
    TRef.binary main_call2.v6 main_call2.v5 main_call2.v7 mulf,
    TRef.ternary main_call2.v1 (.of main_v21) main_call2.v7 main_call2.call1.v0 select,
    reshape main_v22 main_v23 rfl shapeCasts_S1024x1024x1_S1024x1024,
    unary main_arg9 main_v24 ((extractStridedSlice S5x128 ![0, 0] · slices_S10x128_S5x128_0_0) : (⟨S10x128, .f32⟩ : BufTy).Contents (Elt F) → (⟨S5x128, .f32⟩ : BufTy).Contents (Elt F)),
    binary main_arg1 main_v24 main_v25 ((fun l r => Host.dotGeneral dot_S1024x5_S5x128_S1024x128_1_0_0_1_n_n none l r) : (⟨S1024x5, .f32⟩ : BufTy).Contents (Elt F) → (⟨S5x128, .f32⟩ : BufTy).Contents (Elt F) → (⟨S1024x128, .f32⟩ : BufTy).Contents (Elt F)),
    unary main_arg9 main_v26 ((extractStridedSlice S5x128 ![5, 0] · slices_S10x128_S5x128_5_0) : (⟨S10x128, .f32⟩ : BufTy).Contents (Elt F) → (⟨S5x128, .f32⟩ : BufTy).Contents (Elt F)),
    binary main_arg2 main_v26 main_v27 ((fun l r => Host.dotGeneral dot_S1024x5_S5x128_S1024x128_1_0_0_1_n_n none l r) : (⟨S1024x5, .f32⟩ : BufTy).Contents (Elt F) → (⟨S5x128, .f32⟩ : BufTy).Contents (Elt F) → (⟨S1024x128, .f32⟩ : BufTy).Contents (Elt F)),
    unary main_v25 main_v28 (broadcastInDim S1024x1x128 ![0, 2] bcast_S1024x128_S1024x1x128_0_2 : (⟨S1024x128, .f32⟩ : BufTy).Contents (Elt F) → (⟨S1024x1x128, .f32⟩ : BufTy).Contents (Elt F)),
    unary main_v27 main_v29 (broadcastInDim S1x1024x128 ![1, 2] bcast_S1024x128_S1x1024x128_1_2 : (⟨S1024x128, .f32⟩ : BufTy).Contents (Elt F) → (⟨S1x1024x128, .f32⟩ : BufTy).Contents (Elt F)),
    unary main_v28 main_v30 (broadcastInDim S1024x1024x128 ![0, 1, 2] bcast_S1024x1x128_S1024x1024x128_0_1_2 : (⟨S1024x1x128, .f32⟩ : BufTy).Contents (Elt F) → (⟨S1024x1024x128, .f32⟩ : BufTy).Contents (Elt F)),
    unary main_v29 main_v31 (broadcastInDim S1024x1024x128 ![0, 1, 2] bcast_S1x1024x128_S1024x1024x128_0_1_2 : (⟨S1x1024x128, .f32⟩ : BufTy).Contents (Elt F) → (⟨S1024x1024x128, .f32⟩ : BufTy).Contents (Elt F)),
    binary main_v30 main_v31 main_v32 (addf : (⟨S1024x1024x128, .f32⟩ : BufTy).Contents (Elt F) → (⟨S1024x1024x128, .f32⟩ : BufTy).Contents (Elt F) → (⟨S1024x1024x128, .f32⟩ : BufTy).Contents (Elt F)),
    unary main_arg10 main_v33 (broadcastInDim S1x1x128 ![2] bcast_S128_S1x1x128_2 : (⟨S128, .f32⟩ : BufTy).Contents (Elt F) → (⟨S1x1x128, .f32⟩ : BufTy).Contents (Elt F)),
    unary main_v33 main_v34 (broadcastInDim S1024x1024x128 ![0, 1, 2] bcast_S1x1x128_S1024x1024x128_0_1_2 : (⟨S1x1x128, .f32⟩ : BufTy).Contents (Elt F) → (⟨S1024x1024x128, .f32⟩ : BufTy).Contents (Elt F)),
    binary main_v32 main_v34 main_v35 (addf : (⟨S1024x1024x128, .f32⟩ : BufTy).Contents (Elt F) → (⟨S1024x1024x128, .f32⟩ : BufTy).Contents (Elt F) → (⟨S1024x1024x128, .f32⟩ : BufTy).Contents (Elt F)),
    TRef.nullary main_call3.cst (constant S_ .f32 0x00000000#32),
    TRef.unary main_call3.cst main_call3.v0 (broadcastInDim S1024x1024x128 ![] bcast_S_S1024x1024x128),
    TRef.binary (.of main_v35) main_call3.v0 main_call3.v1 maximumf,
    binary main_v36 main_arg11 main_v37 ((fun l r => Host.dotGeneral dot_S1024x1024x128_S128x64_S1024x1024x64_2_0_01_1_n_n none l r) : (⟨S1024x1024x128, .f32⟩ : BufTy).Contents (Elt F) → (⟨S128x64, .f32⟩ : BufTy).Contents (Elt F) → (⟨S1024x1024x64, .f32⟩ : BufTy).Contents (Elt F)),
    unary main_arg12 main_v38 (broadcastInDim S1x1x64 ![2] bcast_S64_S1x1x64_2 : (⟨S64, .f32⟩ : BufTy).Contents (Elt F) → (⟨S1x1x64, .f32⟩ : BufTy).Contents (Elt F)),
    unary main_v38 main_v39 (broadcastInDim S1024x1024x64 ![0, 1, 2] bcast_S1x1x64_S1024x1024x64_0_1_2 : (⟨S1x1x64, .f32⟩ : BufTy).Contents (Elt F) → (⟨S1024x1024x64, .f32⟩ : BufTy).Contents (Elt F)),
    binary main_v37 main_v39 main_v40 (addf : (⟨S1024x1024x64, .f32⟩ : BufTy).Contents (Elt F) → (⟨S1024x1024x64, .f32⟩ : BufTy).Contents (Elt F) → (⟨S1024x1024x64, .f32⟩ : BufTy).Contents (Elt F)),
    TRef.nullary main_call4.cst (constant S_ .f32 0x00000000#32),
    TRef.unary main_call4.cst main_call4.v0 (broadcastInDim S1024x1024x64 ![] bcast_S_S1024x1024x64),
    TRef.binary (.of main_v40) main_call4.v0 main_call4.v1 maximumf,
    binary main_v41 main_arg13 main_v42 ((fun l r => Host.dotGeneral dot_S1024x1024x64_S64x1_S1024x1024x1_2_0_01_1_n_n none l r) : (⟨S1024x1024x64, .f32⟩ : BufTy).Contents (Elt F) → (⟨S64x1, .f32⟩ : BufTy).Contents (Elt F) → (⟨S1024x1024x1, .f32⟩ : BufTy).Contents (Elt F)),
    unary main_arg14 main_v43 (broadcastInDim S1x1x1 ![2] bcast_S1_S1x1x1_2 : (⟨S1, .f32⟩ : BufTy).Contents (Elt F) → (⟨S1x1x1, .f32⟩ : BufTy).Contents (Elt F)),
    unary main_v43 main_v44 (broadcastInDim S1024x1024x1 ![0, 1, 2] bcast_S1x1x1_S1024x1024x1_0_1_2 : (⟨S1x1x1, .f32⟩ : BufTy).Contents (Elt F) → (⟨S1024x1024x1, .f32⟩ : BufTy).Contents (Elt F)),
    binary main_v42 main_v44 main_v45 (addf : (⟨S1024x1024x1, .f32⟩ : BufTy).Contents (Elt F) → (⟨S1024x1024x1, .f32⟩ : BufTy).Contents (Elt F) → (⟨S1024x1024x1, .f32⟩ : BufTy).Contents (Elt F)),
    TRef.nullary main_call5.cst (constant S_ .f32 0x00000000#32),
    TRef.unary main_call5.cst main_call5.v0 (broadcastInDim S1024x1024x1 ![] bcast_S_S1024x1024x1),
    TRef.binary (.of main_v45) main_call5.v0 main_call5.v1 (cmpf .ogt),
    TRef.nullary main_call5.cst_0 (constant S_ .f32 0x00000000#32),
    TRef.unary main_call5.cst_0 main_call5.v2 (broadcastInDim S1024x1024x1 ![] bcast_S_S1024x1024x1),
    TRef.binary (.of main_v45) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S1024x1024x1 ![] bcast_S_S1024x1024x1),
    TRef.ternary main_call5.v3 main_call5.call0.v1 (.of main_v45) main_call5.call0.v2 select,
    TRef.unary main_call5.call0.v2 main_call5.v5 Host.expm1,
    TRef.nullary main_call5.cst_2 (constant S_ .f32 0x3F800000#32),
    TRef.unary main_call5.cst_2 main_call5.v6 (broadcastInDim S1024x1024x1 ![] bcast_S_S1024x1024x1),
    TRef.binary main_call5.v6 main_call5.v5 main_call5.v7 mulf,
    TRef.ternary main_call5.v1 (.of main_v45) main_call5.v7 main_call5.call1.v0 select,
    reshape main_v46 main_v47 rfl shapeCasts_S1024x1024x1_S1024x1024,
    binary main_v23 main_v47 main_v48 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    reshape main_v48 main_v49 rfl shapeCasts_S1024x1024_S1048576x1,
    unary main_v49 main_v50 (Host.negf : (⟨S1048576x1, .f32⟩ : BufTy).Contents (Elt F) → (⟨S1048576x1, .f32⟩ : BufTy).Contents (Elt F)),
    unary main_v50 main_v51 (Host.exp : (⟨S1048576x1, .f32⟩ : BufTy).Contents (Elt F) → (⟨S1048576x1, .f32⟩ : BufTy).Contents (Elt F)),
    nullary main_cst (constant S_ .f32 0x3F800000#32),
    unary main_cst main_v52 (broadcastInDim S1048576x1 ![] bcast_S_S1048576x1 : (⟨S_, .f32⟩ : BufTy).Contents (Elt F) → (⟨S1048576x1, .f32⟩ : BufTy).Contents (Elt F)),
    binary main_v52 main_v51 main_v53 (addf : (⟨S1048576x1, .f32⟩ : BufTy).Contents (Elt F) → (⟨S1048576x1, .f32⟩ : BufTy).Contents (Elt F) → (⟨S1048576x1, .f32⟩ : BufTy).Contents (Elt F)),
    nullary main_cst_0 (constant S_ .f32 0x3F800000#32),
    unary main_cst_0 main_v54 (broadcastInDim S1048576x1 ![] bcast_S_S1048576x1 : (⟨S_, .f32⟩ : BufTy).Contents (Elt F) → (⟨S1048576x1, .f32⟩ : BufTy).Contents (Elt F)),
    binary main_v54 main_v53 main_v55 (Host.divf : (⟨S1048576x1, .f32⟩ : BufTy).Contents (Elt F) → (⟨S1048576x1, .f32⟩ : BufTy).Contents (Elt F) → (⟨S1048576x1, .f32⟩ : BufTy).Contents (Elt F)) ]

theorem ops_split : (ops : List (HloOp τ sig (Elt F))) = opsA ++ (opsB ++ opsC) := rfl

set_option maxRecDepth 16384 in
set_option maxHeartbeats 4000000 in
/-- The program is that straight line: the helper functions unfolded at their calls, sequencing reassociated. -/
theorem main_eq (c : Dev nD) : main (F := F) c = seq ops := by
  unfold main fn_elu.body fn_where.body fn_where_1.body fn_relu.body fn_relu_0.body
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., reshape_bufs_sub .., unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., reshape_bufs_sub .., binary_bufs_sub .., reshape_bufs_sub .., unary_bufs_sub .., unary_bufs_sub .., nullary_bufs_sub .., unary_bufs_sub .., binary_bufs_sub .., nullary_bufs_sub .., unary_bufs_sub .., binary_bufs_sub ..⟩

/-- From any memory with zero counters every weakly fair execution terminates, and every buffer ends at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.LibHostFold.lean ====
/-
  The fold of a line of host operations over a concatenated line, and typed references' transports.

  `StableHlo.after ops V` is what a core's buffers hold once the operations `ops` have run in order from contents `V`.
  Running two lines one after the other is running the second from what the first leaves: the fold over `l₁ ++ l₂` is
  the fold over `l₂` of the fold over `l₁`. This lets a long straight-line program be read one stretch at a time, each
  stretch from a valuation that is only a variable, so that no stretch's term is ever nested inside another's.
  An operation of an inlined call reads and writes its buffers through a typed reference, transporting contents along
  the equation "the buffer's type is the value's"; writing a value and reading it back through the same typed reference
  is the identity, whatever the equation's proof.
-/
import Idealize.ShloMosaic.Lib.StableHlo.Run

namespace Cert.HostFold

open Idealize.ShloMosaic Idealize.ShloMosaic.StableHlo

variable {τ : Topo} {sig : RefSig} {Val : EltTy → Type}

/-- The fold over a concatenation is the folds composed. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's buffer and back are the contents. -/
theorem ofBuf_toBuf {T : BufTy} (x : TRef sig T) (v : T.Contents Val) : x.ofBuf (x.toBuf v) = v := by
  obtain ⟨r, h, h2, h3⟩ := x
  subst h
  rfl

end Cert.HostFold
-- ==== Proof.RefRead.lean ====
/-
  The reference's fold read at its three results.

  The operation list is three stretches. Read from any contents `V`: the first stretch leaves the first pair network's
  value (of six argument arrays and the two feature arrays) in its result and touches no argument; the second leaves
  the second pair network's value and keeps the first's result; the third leaves the logistic of the product of the two
  and keeps both. Composing the three from the launch memory gives every result as a function of the argument arrays.
-/
import proofs.«171790_j45741401702576_2_alg».proof.Proof.RefOps
import proofs.«171790_j45741401702576_2_alg».proof.Proof.LibHostFold

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.HostFold

variable {F : FTy → Type} [FloatOps F]

/-! ## Each stretch from any contents -/

theorem A_v23 (V : Valuation τ sig (Elt F)) : after opsA V (main_v23 : DevRef τ sig) = pairTerm (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  simp only [after_cons, after_nil]; rfl

theorem A_keep_main_arg1 (V : Valuation τ sig (Elt F)) : after opsA V (main_arg1 : DevRef τ sig) = V (main_arg1 : DevRef τ sig) := by
  simp only [after_cons, after_nil]; rfl
theorem A_keep_main_arg2 (V : Valuation τ sig (Elt F)) : after opsA V (main_arg2 : DevRef τ sig) = V (main_arg2 : DevRef τ sig) := by
  simp only [after_cons, after_nil]; rfl
theorem A_keep_main_arg9 (V : Valuation τ sig (Elt F)) : after opsA V (main_arg9 : DevRef τ sig) = V (main_arg9 : DevRef τ sig) := by
  simp only [after_cons, after_nil]; rfl
theorem A_keep_main_arg10 (V : Valuation τ sig (Elt F)) : after opsA V (main_arg10 : DevRef τ sig) = V (main_arg10 : DevRef τ sig) := by
  simp only [after_cons, after_nil]; rfl
theorem A_keep_main_arg11 (V : Valuation τ sig (Elt F)) : after opsA V (main_arg11 : DevRef τ sig) = V (main_arg11 : DevRef τ sig) := by
  simp only [after_cons, after_nil]; rfl
theorem A_keep_main_arg12 (V : Valuation τ sig (Elt F)) : after opsA V (main_arg12 : DevRef τ sig) = V (main_arg12 : DevRef τ sig) := by
  simp only [after_cons, after_nil]; rfl
theorem A_keep_main_arg13 (V : Valuation τ sig (Elt F)) : after opsA V (main_arg13 : DevRef τ sig) = V (main_arg13 : DevRef τ sig) := by
  simp only [after_cons, after_nil]; rfl
theorem A_keep_main_arg14 (V : Valuation τ sig (Elt F)) : after opsA V (main_arg14 : DevRef τ sig) = V (main_arg14 : DevRef τ sig) := by
  simp only [after_cons, after_nil]; rfl

theorem B_v47 (V : Valuation τ sig (Elt F)) : after opsB V (main_v47 : DevRef τ sig) = pairTerm (V (main_arg1 : DevRef τ sig)) (V (main_arg2 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  simp only [after_cons, after_nil]; rfl

theorem B_keep_main_v23 (V : Valuation τ sig (Elt F)) : after opsB V (main_v23 : DevRef τ sig) = V (main_v23 : DevRef τ sig) := by
  simp only [after_cons, after_nil]; rfl

theorem C_v55 (V : Valuation τ sig (Elt F)) : after opsC V (main_v55 : DevRef τ sig) = tailTerm (V (main_v23 : DevRef τ sig)) (V (main_v47 : DevRef τ sig)) := by
  simp only [after_cons, after_nil]; rfl

theorem C_keep_main_v23 (V : Valuation τ sig (Elt F)) : after opsC V (main_v23 : DevRef τ sig) = V (main_v23 : DevRef τ sig) := by
  simp only [after_cons, after_nil]; rfl
theorem C_keep_main_v47 (V : Valuation τ sig (Elt F)) : after opsC V (main_v47 : DevRef τ sig) = V (main_v47 : DevRef τ sig) := by
  simp only [after_cons, after_nil]; rfl

/-! ## The whole line -/

theorem ops_v23 (V : Valuation τ sig (Elt F)) : after ops V (main_v23 : DevRef τ sig) = pairTerm (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [ops_split, after_append, after_append, C_keep_main_v23, B_keep_main_v23, A_v23]

theorem ops_v47 (V : Valuation τ sig (Elt F)) : after ops V (main_v47 : DevRef τ sig) = pairTerm (V (main_arg1 : DevRef τ sig)) (V (main_arg2 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [ops_split, after_append, after_append, C_keep_main_v47, B_v47, A_keep_main_arg1, A_keep_main_arg2, A_keep_main_arg9, A_keep_main_arg10, A_keep_main_arg11, A_keep_main_arg12, A_keep_main_arg13, A_keep_main_arg14]

theorem ops_v55 (V : Valuation τ sig (Elt F)) :
    after ops V (main_v55 : DevRef τ sig) = tailTerm (pairTerm (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) (pairTerm (V (main_arg1 : DevRef τ sig)) (V (main_arg2 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig))) := by
  rw [ops_split, after_append, after_append, C_v55, B_keep_main_v23, B_v47, A_v23, A_keep_main_arg1, A_keep_main_arg2, A_keep_main_arg9, A_keep_main_arg10, A_keep_main_arg11, A_keep_main_arg12, A_keep_main_arg13, A_keep_main_arg14]

theorem ops_keep_main_arg0 (V : Valuation τ sig (Elt F)) : after ops V (main_arg0 : DevRef τ sig) = V (main_arg0 : DevRef τ sig) := by
  simp only [after_cons, after_nil]; rfl
theorem ops_keep_main_arg1 (V : Valuation τ sig (Elt F)) : after ops V (main_arg1 : DevRef τ sig) = V (main_arg1 : DevRef τ sig) := by
  simp only [after_cons, after_nil]; rfl
theorem ops_keep_main_arg2 (V : Valuation τ sig (Elt F)) : after ops V (main_arg2 : DevRef τ sig) = V (main_arg2 : DevRef τ sig) := by
  simp only [after_cons, after_nil]; rfl
theorem ops_keep_main_arg3 (V : Valuation τ sig (Elt F)) : after ops V (main_arg3 : DevRef τ sig) = V (main_arg3 : DevRef τ sig) := by
  simp only [after_cons, after_nil]; rfl
theorem ops_keep_main_arg4 (V : Valuation τ sig (Elt F)) : after ops V (main_arg4 : DevRef τ sig) = V (main_arg4 : DevRef τ sig) := by
  simp only [after_cons, after_nil]; rfl
theorem ops_keep_main_arg5 (V : Valuation τ sig (Elt F)) : after ops V (main_arg5 : DevRef τ sig) = V (main_arg5 : DevRef τ sig) := by
  simp only [after_cons, after_nil]; rfl
theorem ops_keep_main_arg6 (V : Valuation τ sig (Elt F)) : after ops V (main_arg6 : DevRef τ sig) = V (main_arg6 : DevRef τ sig) := by
  simp only [after_cons, after_nil]; rfl
theorem ops_keep_main_arg7 (V : Valuation τ sig (Elt F)) : after ops V (main_arg7 : DevRef τ sig) = V (main_arg7 : DevRef τ sig) := by
  simp only [after_cons, after_nil]; rfl
theorem ops_keep_main_arg8 (V : Valuation τ sig (Elt F)) : after ops V (main_arg8 : DevRef τ sig) = V (main_arg8 : DevRef τ sig) := by
  simp only [after_cons, after_nil]; rfl
theorem ops_keep_main_arg9 (V : Valuation τ sig (Elt F)) : after ops V (main_arg9 : DevRef τ sig) = V (main_arg9 : DevRef τ sig) := by
  simp only [after_cons, after_nil]; rfl
theorem ops_keep_main_arg10 (V : Valuation τ sig (Elt F)) : after ops V (main_arg10 : DevRef τ sig) = V (main_arg10 : DevRef τ sig) := by
  simp only [after_cons, after_nil]; rfl
theorem ops_keep_main_arg11 (V : Valuation τ sig (Elt F)) : after ops V (main_arg11 : DevRef τ sig) = V (main_arg11 : DevRef τ sig) := by
  simp only [after_cons, after_nil]; rfl
theorem ops_keep_main_arg12 (V : Valuation τ sig (Elt F)) : after ops V (main_arg12 : DevRef τ sig) = V (main_arg12 : DevRef τ sig) := by
  simp only [after_cons, after_nil]; rfl
theorem ops_keep_main_arg13 (V : Valuation τ sig (Elt F)) : after ops V (main_arg13 : DevRef τ sig) = V (main_arg13 : DevRef τ sig) := by
  simp only [after_cons, after_nil]; rfl
theorem ops_keep_main_arg14 (V : Valuation τ sig (Elt F)) : after ops V (main_arg14 : DevRef τ sig) = V (main_arg14 : DevRef τ sig) := by
  simp only [after_cons, after_nil]; rfl

/-- From any memory with zero counters every weakly fair execution terminates; the three results end at the composed
    values of the argument arrays, and the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = tailTerm (pairTerm (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (pairTerm (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))
      ∧ r.2.mem ((c.tc : Thread nD τ).loc main_v23) = pairTerm (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v47) = pairTerm (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v55).trans (ops_v55 _), (h c main_v23).trans (ops_v23 _), (h c main_v47).trans (ops_v47 _),
      (h c main_arg0).trans (ops_keep_main_arg0 _),
      (h c main_arg1).trans (ops_keep_main_arg1 _),
      (h c main_arg2).trans (ops_keep_main_arg2 _),
      (h c main_arg3).trans (ops_keep_main_arg3 _),
      (h c main_arg4).trans (ops_keep_main_arg4 _),
      (h c main_arg5).trans (ops_keep_main_arg5 _),
      (h c main_arg6).trans (ops_keep_main_arg6 _),
      (h c main_arg7).trans (ops_keep_main_arg7 _),
      (h c main_arg8).trans (ops_keep_main_arg8 _),
      (h c main_arg9).trans (ops_keep_main_arg9 _),
      (h c main_arg10).trans (ops_keep_main_arg10 _),
      (h c main_arg11).trans (ops_keep_main_arg11 _),
      (h c main_arg12).trans (ops_keep_main_arg12 _),
      (h c main_arg13).trans (ops_keep_main_arg13 _),
      (h c main_arg14).trans (ops_keep_main_arg14 _)⟩)
    (run_main m ρ)

end Cert.ReferenceIdeal.HandRun

end
-- ==== Proof.RefValue.lean ====
/-
  The reference's pair network, entry by entry.

  Entry `(l, r)` of `pairTerm` is the specification's relation value of row `l` of the left features and row `r` of the
  right features: the two slices of the first weight matrix are its rows 0–4 and 5–9, each matrix product is a sum over
  the five features, the three broadcasts read (l, h), (r, h) and h at (l, r, h), the two contractions of the last axis
  are sums over the 128 and the 64 hidden units, and the reference's exponential linear unit is the specification's.
  The tail is the logistic function of the matrix product, read through the reshape to one column.
-/
import proofs.«171790_j45741401702576_2_alg».proof.Proof.RefOps
import proofs.«171790_j45741401702576_2_alg».proof.Proof.PairSpec
import proofs.«171790_j45741401702576_2_alg».proof.Proof.LibPairLayers
import proofs.«171790_j45741401702576_2_alg».proof.Proof.LibRowLayers
import proofs.«171790_j45741401702576_2_alg».proof.Proof.LibMatProd

noncomputable section

namespace Cert.ReferenceIdeal.RefValue

open Cert.ReferenceIdeal Cert.ReferenceIdeal.Gen Cert.ReferenceIdeal.HandRun
open Idealize.ShloMosaic Idealize.ShloMosaic.ValueIdx
open Cert.PairSpec Cert.PairLayers Cert.RowLayers Cert.MatProd
open scoped BigOperators

/-! ## The printed dimension numbers -/

theorem rtc_5 : RowsTimesCols dot_S1024x5_S5x128_S1024x128_1_0_0_1_n_n :=
  ⟨rfl, rfl, fun _ _ => rfl, fun _ _ => rfl, fun _ _ => rfl, fun _ _ => rfl⟩

theorem rtc_1024 : RowsTimesCols dot_S1024x1024_S1024x1024_S1024x1024_1_0_0_1_n_n :=
  ⟨rfl, rfl, fun _ _ => rfl, fun _ _ => rfl, fun _ _ => rfl, fun _ _ => rfl⟩

theorem ltc_128 : LastTimesCols dot_S1024x1024x128_S128x64_S1024x1024x64_2_0_01_1_n_n :=
  ⟨rfl, rfl, fun _ _ => rfl, fun _ _ => rfl, fun _ _ => rfl, fun _ _ => rfl, fun _ _ => rfl⟩

theorem ltc_64 : LastTimesCols dot_S1024x1024x64_S64x1_S1024x1024x1_2_0_01_1_n_n :=
  ⟨rfl, rfl, fun _ _ => rfl, fun _ _ => rfl, fun _ _ => rfl, fun _ _ => rfl, fun _ _ => rfl⟩

/-! ## The rows of the arguments -/

/-- Rows 0–4 of the first weight matrix. -/
def topRows (w0 : FVec Ideal S10x128 .f32) : Fin 5 → Fin 128 → EReal := fun d h => w0 (ix2 (⟨d.val, by omega⟩ : Fin 10) h)
/-- Rows 5–9 of the first weight matrix. -/
def bottomRows (w0 : FVec Ideal S10x128 .f32) : Fin 5 → Fin 128 → EReal := fun d h => w0 (ix2 (⟨5 + d.val, by omega⟩ : Fin 10) h)

/-- A feature array times the slice of the weight matrix from row `o`, at `(l, h)`. -/
theorem featProd_top (x : FVec Ideal S1024x5 .f32) (w0 : FVec Ideal S10x128 .f32) (l : Fin 1024) (h : Fin 128) :
    Host.dotGeneral (F := Ideal) dot_S1024x5_S5x128_S1024x128_1_0_0_1_n_n none x
        (extractStridedSlice S5x128 ![0, 0] w0 slices_S10x128_S5x128_0_0) (ix2 l h)
      = ∑ d : Fin 5, x (ix2 l d) * topRows w0 d h :=
  (congrFun (dotGeneral_eq_prod rtc_5 none x _) (ix2 l h)).trans
    (Finset.sum_congr rfl fun d _ => congrArg (x (ix2 l d) * ·)
      (slice2_axis0_apply 0 w0 slices_S10x128_S5x128_0_0 d h (⟨d.val, by omega⟩ : Fin 10) (Nat.zero_add _).symm))

theorem featProd_bottom (x : FVec Ideal S1024x5 .f32) (w0 : FVec Ideal S10x128 .f32) (r : Fin 1024) (h : Fin 128) :
    Host.dotGeneral (F := Ideal) dot_S1024x5_S5x128_S1024x128_1_0_0_1_n_n none x
        (extractStridedSlice S5x128 ![5, 0] w0 slices_S10x128_S5x128_5_0) (ix2 r h)
      = ∑ d : Fin 5, x (ix2 r d) * bottomRows w0 d h :=
  (congrFun (dotGeneral_eq_prod rtc_5 none x _) (ix2 r h)).trans
    (Finset.sum_congr rfl fun d _ => congrArg (x (ix2 r d) * ·)
      (slice2_axis0_apply 5 w0 slices_S10x128_S5x128_5_0 d h (⟨5 + d.val, by omega⟩ : Fin 10) rfl))

/-! ## The layers -/

theorem hidTerm_apply (xl xr : FVec Ideal S1024x5 .f32) (w0 : FVec Ideal S10x128 .f32) (b0 : FVec Ideal S128 .f32)
    (l r : Fin 1024) (h : Fin 128) :
    hidTerm xl xr w0 b0 (ix3 l r h)
      = hid (fun d => xl (ix2 l d)) (fun d => xr (ix2 r d)) (topRows w0) (bottomRows w0) (fun h => b0 (ix1 h)) h := by
  have e1 := bcastLeft_apply (Host.dotGeneral (F := Ideal) dot_S1024x5_S5x128_S1024x128_1_0_0_1_n_n none xl
      (extractStridedSlice S5x128 ![0, 0] w0 slices_S10x128_S5x128_0_0))
    bcast_S1024x128_S1024x1x128_0_2 bcast_S1024x1x128_S1024x1024x128_0_1_2 l r h
  have e2 := bcastRight_apply (Host.dotGeneral (F := Ideal) dot_S1024x5_S5x128_S1024x128_1_0_0_1_n_n none xr
      (extractStridedSlice S5x128 ![5, 0] w0 slices_S10x128_S5x128_5_0))
    bcast_S1024x128_S1x1024x128_1_2 bcast_S1x1024x128_S1024x1024x128_0_1_2 l r h
  have e3 := bcastVec_apply b0 bcast_S128_S1x1x128_2 bcast_S1x1x128_S1024x1024x128_0_1_2 l r h
  unfold hid
  rw [← featProd_top xl w0 l h, ← featProd_bottom xr w0 r h, ← Ideal.ofBits_zero_f32]
  exact congrArg₂ max (congrArg₂ (· + ·) (congrArg₂ (· + ·) e1 e2) e3) rfl

theorem hid2Term_apply (g : FVec Ideal S1024x1024x128 .f32) (w1 : FVec Ideal S128x64 .f32) (b1 : FVec Ideal S64 .f32)
    (l r : Fin 1024) (k : Fin 64) :
    hid2Term g w1 b1 (ix3 l r k) = hid2 (fun h => g (ix3 l r h)) (fun h k => w1 (ix2 h k)) (fun k => b1 (ix1 k)) k := by
  have e1 := dotGeneral_last_apply ltc_128 none g w1 l r k
  have e2 := bcastVec_apply b1 bcast_S64_S1x1x64_2 bcast_S1x1x64_S1024x1024x64_0_1_2 l r k
  unfold hid2
  rw [← e1, ← Ideal.ofBits_zero_f32]
  exact congrArg₂ max (congrArg₂ (· + ·) rfl e2) rfl

theorem scoreTerm_apply (g2 : FVec Ideal S1024x1024x64 .f32) (wr : FVec Ideal S64x1 .f32) (br : FVec Ideal S1 .f32)
    (l r : Fin 1024) :
    scoreTerm g2 wr br (ix3 l r (0 : Fin 1))
      = score (fun k => g2 (ix3 l r k)) (fun k => wr (ix2 k (0 : Fin 1))) (br (ix1 (0 : Fin 1))) := by
  have e1 := dotGeneral_last_apply ltc_64 none g2 wr l r (0 : Fin 1)
  have e2 := bcastVec_apply br bcast_S1_S1x1x1_2 bcast_S1x1x1_S1024x1024x1_0_1_2 l r (0 : Fin 1)
  unfold score
  rw [← e1]
  exact congrArg₂ (· + ·) rfl e2

theorem eluTerm_apply (s : FVec Ideal S1024x1024x1 .f32) (i : S1024x1024x1.Idx) : eluTerm s i = elu (s i) :=
  elu_expm1_form (s i)

/-- Entry `(l, r)` of the reference's pair network is the specification's relation value of the two rows. -/
theorem pairTerm_apply (xl xr : FVec Ideal S1024x5 .f32) (w0 : FVec Ideal S10x128 .f32) (b0 : FVec Ideal S128 .f32)
    (w1 : FVec Ideal S128x64 .f32) (b1 : FVec Ideal S64 .f32) (wr : FVec Ideal S64x1 .f32) (br : FVec Ideal S1 .f32)
    (l r : Fin 1024) :
    pairTerm xl xr w0 b0 w1 b1 wr br (ix2 l r)
      = rel (fun d => xl (ix2 l d)) (fun d => xr (ix2 r d)) (topRows w0) (bottomRows w0) (fun h => b0 (ix1 h))
          (fun h k => w1 (ix2 h k)) (fun k => b1 (ix1 k)) (fun k => wr (ix2 k (0 : Fin 1))) (br (ix1 (0 : Fin 1))) := by
  unfold pairTerm rel
  rw [dropLast_apply, eluTerm_apply, scoreTerm_apply]
  refine congrArg elu (congrArg (fun g2 => score g2 _ _) (funext fun k => ?_))
  rw [hid2Term_apply]
  exact congrArg (fun g => hid2 g _ _ k) (funext fun h => hidTerm_apply xl xr w0 b0 l r h)

/-- The tail: at every index of the column, the logistic function of the matrix product's entry there. -/
theorem tailTerm_eq (a b : FVec Ideal S1024x1024 .f32) :
    tailTerm a b = shapeCast S1048576x1 (fun i => Ideal.logistic (prod a b i)) shapeCasts_S1024x1024_S1048576x1 := by
  funext idx
  unfold tailTerm
  rw [dotGeneral_eq_prod rtc_1024 none a b]
  exact logistic_div_form _

end Cert.ReferenceIdeal.RefValue

end
-- ==== Proof.Bridge.lean ====
/-
  The two programs compute one function.

  The kernel's first relation array is the relation array of nine arrays its host operations make from the arguments:
  the two feature arrays, rows 0–4 and rows 5–9 of the first weight matrix, the first bias as one row, the second weight
  matrix, the second bias as one row, the output column as one row, and the output bias as a 1 × 1 array. Entry
  `(l, r)` of it is the specification's relation value of feature rows `l` and `r`; so is entry `(l, r)` of the
  reference's pair network. The reshapes only rename indices: a vector `[n]` as a row `[1, n]` keeps position `k`, and a
  column `[n, 1]` as a row `[1, n]` sends `(k, 0)` to `(0, k)`. Likewise for the second network, and the last result is
  on both sides the logistic of the product of the two relation arrays, read through the same reshape to one column.
-/
import proofs.«171790_j45741401702576_2_alg».proof.Defs
import proofs.«171790_j45741401702576_2_alg».proof.Proof.Gen.Pre_finite_inputs
import proofs.«171790_j45741401702576_2_alg».proof.Proof.KerFold
import proofs.«171790_j45741401702576_2_alg».proof.Proof.RefRead
import proofs.«171790_j45741401702576_2_alg».proof.Proof.RefValue

set_option maxRecDepth 16384

noncomputable section

namespace Cert.Bridge

open Idealize.ShloMosaic Idealize.ShloMosaic.TcCoe Idealize.ShloMosaic.ValueIdx Idealize.SL.Sem
open Cert.PairSpec

/-- A column `[n, 1]` viewed as a row `[1, n]`: entry `(0, k)` is the column's entry `(k, 0)`. -/
theorem columnAsRow_apply {α : Type} {n : ℕ} (x : (⟨2, ![n, 1]⟩ : Shape).Idx → α) (h : (⟨2, ![n, 1]⟩ : Shape).ShapeCasts ⟨2, ![1, n]⟩)
    (u : Fin 1) (k : Fin n) : shapeCast ⟨2, ![1, n]⟩ x h (ix2 u k) = x (ix2 k (0 : Fin 1)) :=
  shapeCast_apply x h _ _ (by
    have hu : u.val = 0 := by omega
    rw [Shape.rowMajor_val_two, Shape.rowMajor_val_two]
    show k.val * 1 + 0 = u.val * n + k.val
    rw [hu]; omega)

/-- The relation array of the nine arrays the kernel's host operations make from eight arguments is the reference's pair
    network of those eight arguments. -/
theorem relArr_eq_pairTerm (xl xr : FVec Ideal Cert.KernelIdeal.S1024x5 .f32) (w0 : FVec Ideal Cert.KernelIdeal.S10x128 .f32) (b0 : FVec Ideal Cert.KernelIdeal.S128 .f32)
    (w1 : FVec Ideal Cert.KernelIdeal.S128x64 .f32) (b1 : FVec Ideal Cert.KernelIdeal.S64 .f32) (wr : FVec Ideal Cert.KernelIdeal.S64x1 .f32) (br : FVec Ideal Cert.KernelIdeal.S1 .f32) :
    Cert.KernelIdeal.Arrays.relArr xl xr
        (extractStridedSlice Cert.KernelIdeal.S5x128 ![0, 0] w0 Cert.KernelIdeal.Gen.slices_S10x128_S5x128_0_0)
        (extractStridedSlice Cert.KernelIdeal.S5x128 ![5, 0] w0 Cert.KernelIdeal.Gen.slices_S10x128_S5x128_5_0)
        (shapeCast Cert.KernelIdeal.S1x128 b0 Cert.KernelIdeal.Gen.shapeCasts_S128_S1x128) w1
        (shapeCast Cert.KernelIdeal.S1x64 b1 Cert.KernelIdeal.Gen.shapeCasts_S64_S1x64)
        (shapeCast Cert.KernelIdeal.S1x64 wr Cert.KernelIdeal.Gen.shapeCasts_S64x1_S1x64)
        (shapeCast Cert.KernelIdeal.S1x1 br Cert.KernelIdeal.Gen.shapeCasts_S1_S1x1)
      = Cert.ReferenceIdeal.HandRun.pairTerm xl xr w0 b0 w1 b1 wr br := by
  funext i
  obtain ⟨l, r, rfl⟩ : ∃ (l r : Fin 1024), i = ix2 l r := ⟨i 0, i 1, eq_ix2 i⟩
  refine Eq.trans ?_ (Cert.ReferenceIdeal.RefValue.pairTerm_apply xl xr w0 b0 w1 b1 wr br l r).symm
  show Cert.KernelIdeal.Arrays.relAt _ _ _ _ _ _ _ _ _ l r = _
  unfold Cert.KernelIdeal.Arrays.relAt
  exact rel_congr (fun d => rfl) (fun d => rfl)
    (fun d h => slice2_axis0_apply 0 w0 Cert.KernelIdeal.Gen.slices_S10x128_S5x128_0_0 d h (⟨d.val, by omega⟩ : Fin 10) (Nat.zero_add _).symm)
    (fun d h => slice2_axis0_apply 5 w0 Cert.KernelIdeal.Gen.slices_S10x128_S5x128_5_0 d h (⟨5 + d.val, by omega⟩ : Fin 10) rfl)
    (fun h => shapeCast_a_1a_apply b0 Cert.KernelIdeal.Gen.shapeCasts_S128_S1x128 (0 : Fin 1) h)
    (fun h k => rfl)
    (fun k => shapeCast_a_1a_apply b1 Cert.KernelIdeal.Gen.shapeCasts_S64_S1x64 (0 : Fin 1) k)
    (fun k => columnAsRow_apply wr Cert.KernelIdeal.Gen.shapeCasts_S64x1_S1x64 (0 : Fin 1) k)
    (shapeCast_a_1a_apply br Cert.KernelIdeal.Gen.shapeCasts_S1_S1x1 (0 : Fin 1) (0 : Fin 1))

/-- From memories agreeing on the arguments both programs run and end with equal results. -/
theorem algebraic : Cert.algebraic_KernelIdeal_ReferenceIdeal := by
  intro m ρ m' ρ' _ hagree
  refine ⟨_, _, _, Cert.KernelIdeal.Fold.run m ρ, ?_⟩
  refine (θ_run Cert.ReferenceIdeal.defs _ _).mono (fun _ h c => ?_) (Cert.ReferenceIdeal.HandRun.run (F := Ideal) m' ρ')
  obtain ⟨h55, h23, h47, hargs⟩ := h c
  obtain ⟨g0, g1, g2, g3, g4, g5, g6, g7, g8, g9, g10, g11, g12, g13, g14⟩ := hagree c
  have e0 : Cert.ReferenceIdeal.HandRun.pairTerm (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = Cert.KernelIdeal.Fold.rel0 m c := by
    rw [g0, g1, g3, g4, g5, g6, g7, g8]
    exact (relArr_eq_pairTerm _ _ _ _ _ _ _ _).symm
  have e1 : Cert.ReferenceIdeal.HandRun.pairTerm (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
      = Cert.KernelIdeal.Fold.rel1 m c := by
    rw [g1, g2, g9, g10, g11, g12, g13, g14]
    exact (relArr_eq_pairTerm _ _ _ _ _ _ _ _).symm
  refine ⟨h55.trans ?_, h23.trans e0, h47.trans e1, hargs⟩
  rw [e0, e1]
  exact Cert.ReferenceIdeal.RefValue.tailTerm_eq _ _

end Cert.Bridge

end
-- ==== Proof.lean ====
/-
  The kernel computes, for two pair networks, the relation value of every pair of a left and a right feature row (two small
  products, a bias, a rectifier, a 128-to-64 layer, a rectifier, a 64-to-1 layer, the exponential linear unit), tile by
  tile over an 8 × 8 grid, then the logistic of the product of the two 1024 × 1024 relation matrices over a 4 × 4 grid, and
  returns that as one column together with the two matrices. The reference computes the same three arrays with whole-array
  operations. Over the extended reals the two are one function of the arguments: the only law used is that addition is
  commutative and associative (the kernel adds the first bias before the right-hand product, the reference after), the
  changes of float format are the identity, and `expm1` and the logistic function are spelt out on one side and named on
  the other. The precondition is not needed for the equality.

  The three frames: the two kernel programs by their generated frames, the reference by its run with the results dropped.
  The idealization rewrote nothing, so its conjunct is trivial.
-/
import proofs.«171790_j45741401702576_2_alg».proof.Defs
import proofs.«171790_j45741401702576_2_alg».proof.Proof.Gen.Kernel
import proofs.«171790_j45741401702576_2_alg».proof.Proof.Gen.Kernel.Frame
import proofs.«171790_j45741401702576_2_alg».proof.Proof.Gen.KernelIdeal
import proofs.«171790_j45741401702576_2_alg».proof.Proof.Gen.KernelIdeal.Frame
import proofs.«171790_j45741401702576_2_alg».proof.Proof.Gen.ReferenceIdeal
import proofs.«171790_j45741401702576_2_alg».proof.Proof.Gen.Pre_finite_inputs
import proofs.«171790_j45741401702576_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2) (Cert.ReferenceIdeal.HandRun.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Bridge.algebraic⟩

end Cert.Proof

end
